-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x96 : Shape := ⟨2, ![128, 96]⟩
abbrev S96 : Shape := ⟨1, ![96]⟩
abbrev S96x96 : Shape := ⟨2, ![96, 96]⟩
abbrev S96x40 : Shape := ⟨2, ![96, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S96x40 : S_.BroadcastsInDim S96x40 (![] : Fin 0 → Fin S96x40.rank)
  reducesTo_S96x40_S_d0_1 : S96x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg12 : FVec F S40 .f32) (main_v48 : IVec S_ 1) (main_v49 : FVec F S96x40 .f32) (main_v50 : FVec F S96x40 .f32) : IVec S_ 1 :=
  let main_v51 : IVec S96x40 1 := cmpf .olt main_v49 main_v50
  let main_c_19 : IVec S_ 1 := constantI S_ 1 1#1
  let main_v52 : IVec S_ 1 := (fun x v => Host.reduce IntOp.andi x v reducesTo_S96x40_S_d0_1 h_S_) main_v51 main_c_19
  let main_v53 : IVec S_ 1 := andi main_v48 main_v52
  let main_v54 : FVec F S40 .f32 := Host.absf main_arg12
  let main_cst_20 : FVec F S_ .f32 := constant S_ .f32 0x7F800000#32
  let main_v55 : FVec F S40 .f32 := broadcastInDim S40 ![] bcast_S_S40 main_cst_20
  let main_v56 : IVec S40 1 := cmpf .olt main_v54 main_v55
  let main_c_21 : IVec S_ 1 := constantI S_ 1 1#1
  let main_v57 : IVec S_ 1 := (fun x v => Host.reduce IntOp.andi x v reducesTo_S40_S_d0 h_S_) main_v56 main_c_21
  let main_v58 : IVec S_ 1 := andi main_v53 main_v57
  main_v58

def fn_part2 {F : FTy → Type} [FloatOps F] (main_arg8 : FVec F S96 .f32) (main_arg9 : FVec F S128x96 .f32) (main_arg10 : FVec F S96 .f32) (main_arg11 : FVec F S96x40 .f32) (main_arg12 : FVec F S40 .f32) (main_v33 : IVec S_ 1) : IVec S_ 1 :=
  let main_v34 : FVec F S96 .f32 := Host.absf main_arg8
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S128x96 .f32 := Host.absf main_arg9
  let main_cst_14 : FVec F S_ .f32 := constant S_ .f32 0x7F800000#32
  let main_v40 : FVec F S128x96 .f32 := broadcastInDim S128x96 ![] bcast_S_S128x96 main_cst_14
  let main_v41 : IVec S128x96 1 := cmpf .olt main_v39 main_v40
  let main_c_15 : IVec S_ 1 := constantI S_ 1 1#1
  let main_v42 : IVec S_ 1 := (fun x v => Host.reduce IntOp.andi x v reducesTo_S128x96_S_d0_1 h_S_) main_v41 main_c_15
  let main_v43 : IVec S_ 1 := andi main_v38 main_v42
  let main_v44 : FVec F S96 .f32 := Host.absf main_arg10
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  let main_v49 : FVec F S96x40 .f32 := Host.absf main_arg11
  let main_cst_18 : FVec F S_ .f32 := constant S_ .f32 0x7F800000#32
  let main_v50 : FVec F S96x40 .f32 := broadcastInDim S96x40 ![] bcast_S_S96x40 main_cst_18
  fn_part3 (F := F) main_arg12 main_v48 main_v49 main_v50

def fn_part1 {F : FTy → Type} [FloatOps F] (main_arg5 : FVec F S96x96 .f32) (main_arg6 : FVec F S96 .f32) (main_arg7 : FVec F S96x96 .f32) (main_arg8 : FVec F S96 .f32) (main_arg9 : FVec F S128x96 .f32) (main_arg10 : FVec F S96 .f32) (main_arg11 : FVec F S96x40 .f32) (main_arg12 : FVec F S40 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg5
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg6
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x96 .f32 := Host.absf main_arg7
  let main_cst_10 : FVec F S_ .f32 := constant S_ .f32 0x7F800000#32
  let main_v30 : FVec F S96x96 .f32 := broadcastInDim S96x96 ![] bcast_S_S96x96 main_cst_10
  let main_v31 : IVec S96x96 1 := cmpf .olt main_v29 main_v30
  let main_c_11 : IVec S_ 1 := constantI S_ 1 1#1
  let main_v32 : IVec S_ 1 := (fun x v => Host.reduce IntOp.andi x v reducesTo_S96x96_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S800000 .f32) (main_arg3 : FVec F S128x96 .f32) (main_arg4 : FVec F S96 .f32) (main_arg5 : FVec F S96x96 .f32) (main_arg6 : FVec F S96 .f32) (main_arg7 : FVec F S96x96 .f32) (main_arg8 : FVec F S96 .f32) (main_arg9 : FVec F S128x96 .f32) (main_arg10 : FVec F S96 .f32) (main_arg11 : FVec F S96x40 .f32) (main_arg12 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x96 .f32 := Host.absf main_arg3
  let main_cst_2 : FVec F S_ .f32 := constant S_ .f32 0x7F800000#32
  let main_v10 : FVec F S128x96 .f32 := broadcastInDim S128x96 ![] bcast_S_S128x96 main_cst_2
  let main_v11 : IVec S128x96 1 := cmpf .olt main_v9 main_v10
  let main_c_3 : IVec S_ 1 := constantI S_ 1 1#1
  let main_v12 : IVec S_ 1 := (fun x v => Host.reduce IntOp.andi x v reducesTo_S128x96_S_d0_1 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x96 : Shape := ⟨2, ![128, 96]⟩
abbrev S96 : Shape := ⟨1, ![96]⟩
abbrev S96x96 : Shape := ⟨2, ![96, 96]⟩
abbrev S96x40 : Shape := ⟨2, ![96, 40]⟩
abbrev S40 : Shape := ⟨1, ![40]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S1x96 : Shape := ⟨2, ![1, 96]⟩
abbrev S50000x96 : Shape := ⟨2, ![50000, 96]⟩
abbrev S5000x128 : Shape := ⟨2, ![5000, 128]⟩
abbrev S5000x96 : Shape := ⟨2, ![5000, 96]⟩
abbrev S850000x96 : Shape := ⟨2, ![850000, 96]⟩
abbrev S1x40 : Shape := ⟨2, ![1, 40]⟩
abbrev S50000x40 : Shape := ⟨2, ![50000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 121
  | .vmem => 47
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x96, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S96x96, .f32⟩
  | .hbm, ⟨8, _⟩ => ⟨S96, .f32⟩
  | .hbm, ⟨9, _⟩ => ⟨S128x96, .f32⟩
  | .hbm, ⟨10, _⟩ => ⟨S96, .f32⟩
  | .hbm, ⟨11, _⟩ => ⟨S96x40, .f32⟩
  | .hbm, ⟨12, _⟩ => ⟨S40, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S50000, .i32⟩
  | .hbm, ⟨18, _⟩ => ⟨S850000, .i32⟩
  | .hbm, ⟨19, _⟩ => ⟨S850000, .i32⟩
  | .hbm, ⟨20, _⟩ => ⟨S_, .f32⟩
  | .hbm, ⟨21, _⟩ => ⟨S50000, .f32⟩
  | .hbm, ⟨22, _⟩ => ⟨S850000, .f32⟩
  | .hbm, ⟨23, _⟩ => ⟨S_, .f32⟩
  | .hbm, ⟨24, _⟩ => ⟨S50000, .f32⟩
  | .hbm, ⟨25, _⟩ => ⟨S850000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000, .f32⟩
  | .hbm, ⟨54, _⟩ => ⟨S850000, .f32⟩
  | .hbm, ⟨55, _⟩ => ⟨S_, .f32⟩
  | .hbm, ⟨56, _⟩ => ⟨S96, .f32⟩
  | .hbm, ⟨57, _⟩ => ⟨S1x96, .f32⟩
  | .hbm, ⟨58, _⟩ => ⟨S50000x96, .f32⟩
  | .hbm, ⟨59, _⟩ => ⟨S850000x1, .f32⟩
  | .hbm, ⟨60, _⟩ => ⟨S_, .i32⟩
  | .hbm, ⟨61, _⟩ => ⟨S850000, .i32⟩
  | .hbm, ⟨62, _⟩ => ⟨S850000, .i1⟩
  | .hbm, ⟨63, _⟩ => ⟨S_, .i32⟩
  | .hbm, ⟨64, _⟩ => ⟨S850000, .i32⟩
  | .hbm, ⟨65, _⟩ => ⟨S850000, .i32⟩
  | .hbm, ⟨66, _⟩ => ⟨S850000, .i32⟩
  | .hbm, ⟨67, _⟩ => ⟨S850000x1, .i32⟩
  | .hbm, ⟨68, _⟩ => ⟨S850000x96, .f32⟩
  | .hbm, ⟨69, _⟩ => ⟨S850000x96, .f32⟩
  | .hbm, ⟨70, _⟩ => ⟨S850000x96, .f32⟩
  | .hbm, ⟨71, _⟩ => ⟨S_, .f32⟩
  | .hbm, ⟨72, _⟩ => ⟨S50000x96, .f32⟩
  | .hbm, ⟨73, _⟩ => ⟨S850000x1, .i32⟩
  | .hbm, ⟨74, _⟩ => ⟨S50000x96, .f32⟩
  | .hbm, ⟨75, _⟩ => ⟨S1x96, .f32⟩
  | .hbm, ⟨76, _⟩ => ⟨S50000x96, .f32⟩
  | .hbm, ⟨77, _⟩ => ⟨S1x96, .f32⟩
  | .hbm, ⟨78, _⟩ => ⟨S50000x96, .f32⟩
  | .hbm, ⟨79, _⟩ => ⟨S1x96, .f32⟩
  | .hbm, ⟨80, _⟩ => ⟨S50000x96, .f32⟩
  | .hbm, ⟨81, _⟩ => ⟨S850000x1, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000x96, .f32⟩
  | .hbm, ⟨91, _⟩ => ⟨S850000x96, .f32⟩
  | .hbm, ⟨92, _⟩ => ⟨S850000x96, .f32⟩
  | .hbm, ⟨93, _⟩ => ⟨S_, .f32⟩
  | .hbm, ⟨94, _⟩ => ⟨S50000x96, .f32⟩
  | .hbm, ⟨95, _⟩ => ⟨S850000x1, .i32⟩
  | .hbm, ⟨96, _⟩ => ⟨S50000x96, .f32⟩
  | .hbm, ⟨97, _⟩ => ⟨S1x96, .f32⟩
  | .hbm, ⟨98, _⟩ => ⟨S50000x96, .f32⟩
  | .hbm, ⟨99, _⟩ => ⟨S1x96, .f32⟩
  | .hbm, ⟨100, _⟩ => ⟨S50000x96, .f32⟩
  | .hbm, ⟨101, _⟩ => ⟨S850000x1, .f32⟩
  | .hbm, ⟨102, _⟩ => ⟨S_, .i32⟩
  | .hbm, ⟨103, _⟩ => ⟨S850000, .i32⟩
  | .hbm, ⟨104, _⟩ => ⟨S850000, .i1⟩
  | .hbm, ⟨105, _⟩ => ⟨S_, .i32⟩
  | .hbm, ⟨106, _⟩ => ⟨S850000, .i32⟩
  | .hbm, ⟨107, _⟩ => ⟨S850000, .i32⟩
  | .hbm, ⟨108, _⟩ => ⟨S850000, .i32⟩
  | .hbm, ⟨109, _⟩ => ⟨S850000x1, .i32⟩
  | .hbm, ⟨110, _⟩ => ⟨S850000x96, .f32⟩
  | .hbm, ⟨111, _⟩ => ⟨S850000x96, .f32⟩
  | .hbm, ⟨112, _⟩ => ⟨S850000x96, .f32⟩
  | .hbm, ⟨113, _⟩ => ⟨S_, .f32⟩
  | .hbm, ⟨114, _⟩ => ⟨S50000x96, .f32⟩
  | .hbm, ⟨115, _⟩ => ⟨S850000x1, .i32⟩
  | .hbm, ⟨116, _⟩ => ⟨S50000x96, .f32⟩
  | .hbm, ⟨117, _⟩ => ⟨S1x96, .f32⟩
  | .hbm, ⟨118, _⟩ => ⟨S50000x96, .f32⟩
  | .hbm, ⟨119, _⟩ => ⟨S1x40, .f32⟩
  | .hbm, ⟨120, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x96, .f32⟩
  | .local _ .vmem, ⟨3, _⟩ => ⟨S1x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S5000x96, .f32⟩
  | .local _ .vmem, ⟨8, _⟩ => ⟨S1x96, .f32⟩
  | .local _ .vmem, ⟨9, _⟩ => ⟨S5000x96, .f32⟩
  | .local _ .vmem, ⟨10, _⟩ => ⟨S5000x96, .f32⟩
  | .local _ .vmem, ⟨11, _⟩ => ⟨S5000x128, .f32⟩
  | .local _ .vmem, ⟨12, _⟩ => ⟨S5000x128, .f32⟩
  | .local _ .vmem, ⟨13, _⟩ => ⟨S128x96, .f32⟩
  | .local _ .vmem, ⟨14, _⟩ => ⟨S1x96, .f32⟩
  | .local _ .vmem, ⟨15, _⟩ => ⟨S5000x96, .f32⟩
  | .local _ .vmem, ⟨16, _⟩ => ⟨S5000x96, .f32⟩
  | .local _ .vmem, ⟨17, _⟩ => ⟨S5000x96, .f32⟩
  | .local _ .vmem, ⟨18, _⟩ => ⟨S5000x96, .f32⟩
  | .local _ .vmem, ⟨19, _⟩ => ⟨S96x96, .f32⟩
  | .local _ .vmem, ⟨20, _⟩ => ⟨S1x96, .f32⟩
  | .local _ .vmem, ⟨21, _⟩ => ⟨S5000x96, .f32⟩
  | .local _ .vmem, ⟨22, _⟩ => ⟨S5000x96, .f32⟩
  | .local _ .vmem, ⟨23, _⟩ => ⟨S5000x96, .f32⟩
  | .local _ .vmem, ⟨24, _⟩ => ⟨S5000x96, .f32⟩
  | .local _ .vmem, ⟨25, _⟩ => ⟨S1x96, .f32⟩
  | .local _ .vmem, ⟨26, _⟩ => ⟨S5000x96, .f32⟩
  | .local _ .vmem, ⟨27, _⟩ => ⟨S5000x96, .f32⟩
  | .local _ .vmem, ⟨28, _⟩ => ⟨S5000x96, .f32⟩
  | .local _ .vmem, ⟨29, _⟩ => ⟨S5000x96, .f32⟩
  | .local _ .vmem, ⟨30, _⟩ => ⟨S96x96, .f32⟩
  | .local _ .vmem, ⟨31, _⟩ => ⟨S1x96, .f32⟩
  | .local _ .vmem, ⟨32, _⟩ => ⟨S5000x96, .f32⟩
  | .local _ .vmem, ⟨33, _⟩ => ⟨S5000x96, .f32⟩
  | .local _ .vmem, ⟨34, _⟩ => ⟨S5000x96, .f32⟩
  | .local _ .vmem, ⟨35, _⟩ => ⟨S5000x96, .f32⟩
  | .local _ .vmem, ⟨36, _⟩ => ⟨S1x96, .f32⟩
  | .local _ .vmem, ⟨37, _⟩ => ⟨S5000x96, .f32⟩
  | .local _ .vmem, ⟨38, _⟩ => ⟨S5000x96, .f32⟩
  | .local _ .vmem, ⟨39, _⟩ => ⟨S5000x96, .f32⟩
  | .local _ .vmem, ⟨40, _⟩ => ⟨S5000x96, .f32⟩
  | .local _ .vmem, ⟨41, _⟩ => ⟨S5000x96, .f32⟩
  | .local _ .vmem, ⟨42, _⟩ => ⟨S5000x96, .f32⟩
  | .local _ .vmem, ⟨43, _⟩ => ⟨S96x40, .f32⟩
  | .local _ .vmem, ⟨44, _⟩ => ⟨S1x40, .f32⟩
  | .local _ .vmem, ⟨45, _⟩ => ⟨S5000x40, .f32⟩
  | .local _ .vmem, ⟨46, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_c_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_10 : Ref sig .tc := ⟨.hbm, 82, rfl⟩
abbrev main_v55 : Ref sig .tc := ⟨.hbm, 83, rfl⟩
abbrev main_v56 : Ref sig .tc := ⟨.hbm, 84, rfl⟩
abbrev main_c_11 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_12 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_13 : Ref sig .tc := ⟨.hbm, 102, rfl⟩
abbrev main_v72 : Ref sig .tc := ⟨.hbm, 103, rfl⟩
abbrev main_v73 : Ref sig .tc := ⟨.hbm, 104, rfl⟩
abbrev main_c_14 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_15 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg3_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg1_1 : Ref sig .tc := ⟨.vmem, 42, rfl⟩
abbrev cc7_stg2_0 : Ref sig .tc := ⟨.vmem, 43, rfl⟩
abbrev cc7_stg3_0 : Ref sig .tc := ⟨.vmem, 44, rfl⟩
abbrev cc7_stg4_0 : Ref sig .tc := ⟨.vmem, 45, rfl⟩
abbrev cc7_stg4_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem3_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem1_1 : DmaSem sig := 42
abbrev cc7_sem2_0 : DmaSem sig := 43
abbrev cc7_sem3_0 : DmaSem sig := 44
abbrev cc7_sem4_0 : DmaSem sig := 45
abbrev cc7_sem4_1 : DmaSem sig := 46

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x96 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S96x96 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x96 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x96 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x96 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x96 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S96x96 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x96 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x96 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x96 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x96 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x96 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x96 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x96 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S96x40 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x40 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x40 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S_S96 : S_.BroadcastsInDim S96 (![] : Fin 0 → Fin S96.rank)
  shapeCasts_S96_S1x96 : S96.ShapeCasts S1x96
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S5000x96_S5000x96_0_0 : ∀ a, (![0, 0] : Fin 2 → Nat) a + S5000x96.size a ≤ S5000x96.size a
  h_S5000x96 : 0 < S5000x96.numel
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  shapeCasts_S40_S1x40 : S40.ShapeCasts S1x40
  inb_S96x40_S96x40_0_0 : ∀ a, (![0, 0] : Fin 2 → Nat) a + S96x40.size a ≤ S96x40.size a
  h_S96x40 : 0 < S96x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x96_S5000x96_1_0_0_1_n_n_wf : DotDims.WF S5000x128 S128x96 S5000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S5000x96_S96x96_S5000x96_1_0_0_1_n_n_wf : DotDims.WF S5000x96 S96x96 S5000x96 [1] [0] [0] [1] [] []
  dot_S5000x96_S96x40_S5000x40_1_0_0_1_n_n_wf : DotDims.WF S5000x96 S96x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S50000x96.size a
  hwx0_3 : ∀ i : grid0.Coords, EltTy.bits .f32 = 32 ∨ (Rect.block (s := S50000x96) S5000x96.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x96.size a ≤ S50000x96.size a
  hwx1_2 : ∀ i : grid1.Coords, EltTy.bits .f32 = 32 ∨ (Rect.block (s := S50000x96) S5000x96.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x96.size a ≤ S128x96.size a
  hwx2_1 : ∀ i : grid2.Coords, EltTy.bits .f32 = 32 ∨ (Rect.block (s := S128x96) S128x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x96.size a ≤ S1x96.size a
  hwx2_2 : ∀ i : grid2.Coords, EltTy.bits .f32 = 32 ∨ (Rect.block (s := S1x96) S1x96.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x96.size a ≤ S50000x96.size a
  hwx2_3 : ∀ i : grid2.Coords, EltTy.bits .f32 = 32 ∨ (Rect.block (s := S50000x96) S5000x96.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S96x96.size a ≤ S96x96.size a
  hwx3_1 : ∀ i : grid3.Coords, EltTy.bits .f32 = 32 ∨ (Rect.block (s := S96x96) S96x96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x96.size a ≤ S1x96.size a
  hwx3_2 : ∀ i : grid3.Coords, EltTy.bits .f32 = 32 ∨ (Rect.block (s := S1x96) S1x96.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x96.size a ≤ S50000x96.size a
  hwx3_3 : ∀ i : grid3.Coords, EltTy.bits .f32 = 32 ∨ (Rect.block (s := S50000x96) S5000x96.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x96.size a ≤ S50000x96.size a
  hwx4_0 : ∀ i : grid4.Coords, EltTy.bits .f32 = 32 ∨ (Rect.block (s := S50000x96) S5000x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x96.size a ≤ S1x96.size a
  hwx4_1 : ∀ i : grid4.Coords, EltTy.bits .f32 = 32 ∨ (Rect.block (s := S1x96) S1x96.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x96.size a ≤ S50000x96.size a
  hwx4_2 : ∀ i : grid4.Coords, EltTy.bits .f32 = 32 ∨ (Rect.block (s := S50000x96) S5000x96.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x96.size a ≤ S50000x96.size a
  hwx5_0 : ∀ i : grid5.Coords, EltTy.bits .f32 = 32 ∨ (Rect.block (s := S50000x96) S5000x96.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S96x96.size a ≤ S96x96.size a
  hwx5_1 : ∀ i : grid5.Coords, EltTy.bits .f32 = 32 ∨ (Rect.block (s := S96x96) S96x96.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x96.size a ≤ S1x96.size a
  hwx5_2 : ∀ i : grid5.Coords, EltTy.bits .f32 = 32 ∨ (Rect.block (s := S1x96) S1x96.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x96.size a ≤ S50000x96.size a
  hwx5_3 : ∀ i : grid5.Coords, EltTy.bits .f32 = 32 ∨ (Rect.block (s := S50000x96) S5000x96.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x96.size a ≤ S50000x96.size a
  hwx6_0 : ∀ i : grid6.Coords, EltTy.bits .f32 = 32 ∨ (Rect.block (s := S50000x96) S5000x96.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x96.size a ≤ S1x96.size a
  hwx6_1 : ∀ i : grid6.Coords, EltTy.bits .f32 = 32 ∨ (Rect.block (s := S1x96) S1x96.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x96.size a ≤ S50000x96.size a
  hwx6_2 : ∀ i : grid6.Coords, EltTy.bits .f32 = 32 ∨ (Rect.block (s := S50000x96) S5000x96.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x96.size a ≤ S50000x96.size a
  hwx7_0 : ∀ i : grid7.Coords, EltTy.bits .f32 = 32 ∨ (Rect.block (s := S50000x96) S5000x96.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x96.size a ≤ S50000x96.size a
  hwx7_1 : ∀ i : grid7.Coords, EltTy.bits .f32 = 32 ∨ (Rect.block (s := S50000x96) S5000x96.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S96x40.size a ≤ S96x40.size a
  hwx7_2 : ∀ i : grid7.Coords, EltTy.bits .f32 = 32 ∨ (Rect.block (s := S96x40) S96x40.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x40.size a ≤ S1x40.size a
  hwx7_3 : ∀ i : grid7.Coords, EltTy.bits .f32 = 32 ∨ (Rect.block (s := S1x40) S1x40.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x40.size a ≤ S50000x40.size a
  hwx7_4 : ∀ i : grid7.Coords, EltTy.bits .f32 = 32 ∨ (Rect.block (s := S50000x40) S5000x40.size (cc7_transform_4 i) (hinb7_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x96_S5000x96_1_0_0_1_n_n : DotDims S5000x128 S128x96 S5000x96 where
  lhsContracting := [1]
  rhsContracting := [0]
  lhsNonContracting := [0]
  rhsNonContracting := [1]
  lhsBatch := []
  rhsBatch := []
  wf := dot_S5000x128_S128x96_S5000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S5000x96_S96x40_S5000x40_1_0_0_1_n_n : DotDims S5000x96 S96x40 S5000x40 where
  lhsContracting := [1]
  rhsContracting := [0]
  lhsNonContracting := [0]
  rhsNonContracting := [1]
  lhsBatch := []
  rhsBatch := []
  wf := dot_S5000x96_S96x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S5000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x96.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S1x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S5000x96.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v51) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S96x96.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S5000x96.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v66) S5000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S1x96.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S5000x96.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v68) S5000x96.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S96x96.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v69) S1x96.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v70) S5000x96.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v83) S5000x96.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v84) S1x96.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v85) S5000x96.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v49) S5000x96.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v85) S5000x96.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg11) S96x40.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v86) S1x40.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v87) S5000x40.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x96 : Shape := ⟨2, ![128, 96]⟩
abbrev S96 : Shape := ⟨1, ![96]⟩
abbrev S96x96 : Shape := ⟨2, ![96, 96]⟩
abbrev S96x40 : Shape := ⟨2, ![96, 40]⟩
abbrev S40 : Shape := ⟨1, ![40]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S850000x96 : Shape := ⟨2, ![850000, 96]⟩
abbrev S1x96 : Shape := ⟨2, ![1, 96]⟩
abbrev S50000x40 : Shape := ⟨2, ![50000, 40]⟩
abbrev S1x40 : Shape := ⟨2, ![1, 40]⟩
abbrev S50000x1 : Shape := ⟨2, ![50000, 1]⟩

abbrev nBuf : Space → Nat
  | .hbm => 199
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x96, .f32⟩
  | 4 => ⟨S96, .f32⟩
  | 5 => ⟨S96x96, .f32⟩
  | 6 => ⟨S96, .f32⟩
  | 7 => ⟨S96x96, .f32⟩
  | 8 => ⟨S96, .f32⟩
  | 9 => ⟨S128x96, .f32⟩
  | 10 => ⟨S96, .f32⟩
  | 11 => ⟨S96x40, .f32⟩
  | 12 => ⟨S40, .f32⟩
  | 13 => ⟨S1x800000, .i32⟩
  | 14 => ⟨S800000, .i32⟩
  | 15 => ⟨S1x800000, .i32⟩
  | 16 => ⟨S800000, .i32⟩
  | 17 => ⟨S50000, .i32⟩
  | 18 => ⟨S850000, .i32⟩
  | 19 => ⟨S850000, .i32⟩
  | 20 => ⟨S_, .f32⟩
  | 21 => ⟨S50000, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S50000x96, .f32⟩
  | 56 => ⟨S850000x1, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x96, .f32⟩
  | 66 => ⟨S850000x96, .f32⟩
  | 67 => ⟨S850000x96, .f32⟩
  | 68 => ⟨S_, .f32⟩
  | 69 => ⟨S50000x96, .f32⟩
  | 70 => ⟨S850000x1, .i32⟩
  | 71 => ⟨S50000x96, .f32⟩
  | 72 => ⟨S1x96, .f32⟩
  | 73 => ⟨S50000x96, .f32⟩
  | 74 => ⟨S50000x96, .f32⟩
  | 75 => ⟨S_, .f32⟩
  | 76 => ⟨S50000x96, .f32⟩
  | 77 => ⟨S50000x96, .i1⟩
  | 78 => ⟨S_, .f32⟩
  | 79 => ⟨S50000x96, .f32⟩
  | 80 => ⟨S50000x96, .i1⟩
  | 81 => ⟨S_, .f32⟩
  | 82 => ⟨S_, .f32⟩
  | 83 => ⟨S50000x96, .f32⟩
  | 84 => ⟨S50000x96, .f32⟩
  | 85 => ⟨S50000x96, .f32⟩
  | 86 => ⟨S_, .f32⟩
  | 87 => ⟨S50000x96, .f32⟩
  | 88 => ⟨S50000x96, .f32⟩
  | 89 => ⟨S50000x96, .f32⟩
  | 90 => ⟨S50000x96, .f32⟩
  | 91 => ⟨S1x96, .f32⟩
  | 92 => ⟨S50000x96, .f32⟩
  | 93 => ⟨S50000x96, .f32⟩
  | 94 => ⟨S_, .f32⟩
  | 95 => ⟨S50000x96, .f32⟩
  | 96 => ⟨S50000x96, .i1⟩
  | 97 => ⟨S_, .f32⟩
  | 98 => ⟨S50000x96, .f32⟩
  | 99 => ⟨S50000x96, .i1⟩
  | 100 => ⟨S_, .f32⟩
  | 101 => ⟨S_, .f32⟩
  | 102 => ⟨S50000x96, .f32⟩
  | 103 => ⟨S50000x96, .f32⟩
  | 104 => ⟨S50000x96, .f32⟩
  | 105 => ⟨S_, .f32⟩
  | 106 => ⟨S50000x96, .f32⟩
  | 107 => ⟨S50000x96, .f32⟩
  | 108 => ⟨S50000x96, .f32⟩
  | 109 => ⟨S50000x96, .f32⟩
  | 110 => ⟨S850000x1, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x96, .f32⟩
  | 120 => ⟨S850000x96, .f32⟩
  | 121 => ⟨S850000x96, .f32⟩
  | 122 => ⟨S_, .f32⟩
  | 123 => ⟨S50000x96, .f32⟩
  | 124 => ⟨S850000x1, .i32⟩
  | 125 => ⟨S50000x96, .f32⟩
  | 126 => ⟨S1x96, .f32⟩
  | 127 => ⟨S50000x96, .f32⟩
  | _ => ⟨S50000x128, .f32⟩

abbrev hbmTy0_1 (i : Nat) : BufTy := match i % 128 with
  | 0 => ⟨S50000x96, .f32⟩
  | 1 => ⟨S_, .f32⟩
  | 2 => ⟨S50000x96, .f32⟩
  | 3 => ⟨S50000x96, .i1⟩
  | 4 => ⟨S_, .f32⟩
  | 5 => ⟨S50000x96, .f32⟩
  | 6 => ⟨S50000x96, .i1⟩
  | 7 => ⟨S_, .f32⟩
  | 8 => ⟨S_, .f32⟩
  | 9 => ⟨S50000x96, .f32⟩
  | 10 => ⟨S50000x96, .f32⟩
  | 11 => ⟨S50000x96, .f32⟩
  | 12 => ⟨S_, .f32⟩
  | 13 => ⟨S50000x96, .f32⟩
  | 14 => ⟨S50000x96, .f32⟩
  | 15 => ⟨S50000x96, .f32⟩
  | 16 => ⟨S50000x96, .f32⟩
  | 17 => ⟨S850000x1, .f32⟩
  | 18 => ⟨S_, .i32⟩
  | 19 => ⟨S850000, .i32⟩
  | 20 => ⟨S850000, .i1⟩
  | 21 => ⟨S_, .i32⟩
  | 22 => ⟨S850000, .i32⟩
  | 23 => ⟨S850000, .i32⟩
  | 24 => ⟨S850000, .i32⟩
  | 25 => ⟨S850000x1, .i32⟩
  | 26 => ⟨S850000x96, .f32⟩
  | 27 => ⟨S850000x96, .f32⟩
  | 28 => ⟨S850000x96, .f32⟩
  | 29 => ⟨S_, .f32⟩
  | 30 => ⟨S50000x96, .f32⟩
  | 31 => ⟨S850000x1, .i32⟩
  | 32 => ⟨S50000x96, .f32⟩
  | 33 => ⟨S1x96, .f32⟩
  | 34 => ⟨S50000x96, .f32⟩
  | 35 => ⟨S50000x96, .f32⟩
  | 36 => ⟨S_, .f32⟩
  | 37 => ⟨S50000x96, .f32⟩
  | 38 => ⟨S50000x96, .i1⟩
  | 39 => ⟨S_, .f32⟩
  | 40 => ⟨S50000x96, .f32⟩
  | 41 => ⟨S50000x96, .i1⟩
  | 42 => ⟨S_, .f32⟩
  | 43 => ⟨S_, .f32⟩
  | 44 => ⟨S50000x96, .f32⟩
  | 45 => ⟨S50000x96, .f32⟩
  | 46 => ⟨S50000x96, .f32⟩
  | 47 => ⟨S_, .f32⟩
  | 48 => ⟨S50000x96, .f32⟩
  | 49 => ⟨S50000x96, .f32⟩
  | 50 => ⟨S50000x96, .f32⟩
  | 51 => ⟨S50000x96, .f32⟩
  | 52 => ⟨S50000x40, .f32⟩
  | 53 => ⟨S1x40, .f32⟩
  | 54 => ⟨S50000x40, .f32⟩
  | 55 => ⟨S50000x40, .f32⟩
  | 56 => ⟨S_, .f32⟩
  | 57 => ⟨S50000, .f32⟩
  | 58 => ⟨S_, .f32⟩
  | 59 => ⟨S50000, .f32⟩
  | 60 => ⟨S50000, .f32⟩
  | 61 => ⟨S50000x1, .f32⟩
  | 62 => ⟨S50000x40, .f32⟩
  | 63 => ⟨S50000x40, .f32⟩
  | 64 => ⟨S50000x40, .f32⟩
  | 65 => ⟨S_, .f32⟩
  | 66 => ⟨S50000, .f32⟩
  | 67 => ⟨S50000x1, .f32⟩
  | 68 => ⟨S50000x1, .f32⟩
  | 69 => ⟨S50000x40, .f32⟩
  | 70 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_cst_0 : Ref sig .tc := ⟨.hbm, 78, rfl⟩
abbrev main_call1_v2 : Ref sig .tc := ⟨.hbm, 79, rfl⟩
abbrev main_call1_v3 : Ref sig .tc := ⟨.hbm, 80, rfl⟩
abbrev main_call1_cst_1 : Ref sig .tc := ⟨.hbm, 81, rfl⟩
abbrev main_call1_call0_v0 : Ref sig .tc := ⟨.hbm, 82, rfl⟩
abbrev main_call1_call0_v1 : Ref sig .tc := ⟨.hbm, 83, rfl⟩
abbrev main_call1_v4 : Ref sig .tc := ⟨.hbm, 84, rfl⟩
abbrev main_call1_v5 : Ref sig .tc := ⟨.hbm, 85, rfl⟩
abbrev main_call1_cst_2 : Ref sig .tc := ⟨.hbm, 86, rfl⟩
abbrev main_call1_v6 : Ref sig .tc := ⟨.hbm, 87, rfl⟩
abbrev main_call1_v7 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_call2_cst : Ref sig .tc := ⟨.hbm, 94, rfl⟩
abbrev main_call2_v0 : Ref sig .tc := ⟨.hbm, 95, rfl⟩
abbrev main_call2_v1 : Ref sig .tc := ⟨.hbm, 96, rfl⟩
abbrev main_call2_cst_0 : Ref sig .tc := ⟨.hbm, 97, rfl⟩
abbrev main_call2_v2 : Ref sig .tc := ⟨.hbm, 98, rfl⟩
abbrev main_call2_v3 : Ref sig .tc := ⟨.hbm, 99, rfl⟩
abbrev main_call2_cst_1 : Ref sig .tc := ⟨.hbm, 100, rfl⟩
abbrev main_call2_call0_v0 : Ref sig .tc := ⟨.hbm, 101, rfl⟩
abbrev main_call2_call0_v1 : Ref sig .tc := ⟨.hbm, 102, rfl⟩
abbrev main_call2_v4 : Ref sig .tc := ⟨.hbm, 103, rfl⟩
abbrev main_call2_v5 : Ref sig .tc := ⟨.hbm, 104, rfl⟩
abbrev main_call2_cst_2 : Ref sig .tc := ⟨.hbm, 105, rfl⟩
abbrev main_call2_v6 : Ref sig .tc := ⟨.hbm, 106, rfl⟩
abbrev main_call2_v7 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_c_9 : Ref sig .tc := ⟨.hbm, 111, rfl⟩
abbrev main_v57 : Ref sig .tc := ⟨.hbm, 112, rfl⟩
abbrev main_v58 : Ref sig .tc := ⟨.hbm, 113, rfl⟩
abbrev main_c_10 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_cst_11 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_call3_cst : Ref sig .tc := ⟨.hbm, 129, rfl⟩
abbrev main_call3_v0 : Ref sig .tc := ⟨.hbm, 130, rfl⟩
abbrev main_call3_v1 : Ref sig .tc := ⟨.hbm, 131, rfl⟩
abbrev main_call3_cst_0 : Ref sig .tc := ⟨.hbm, 132, rfl⟩
abbrev main_call3_v2 : Ref sig .tc := ⟨.hbm, 133, rfl⟩
abbrev main_call3_v3 : Ref sig .tc := ⟨.hbm, 134, rfl⟩
abbrev main_call3_cst_1 : Ref sig .tc := ⟨.hbm, 135, rfl⟩
abbrev main_call3_call0_v0 : Ref sig .tc := ⟨.hbm, 136, rfl⟩
abbrev main_call3_call0_v1 : Ref sig .tc := ⟨.hbm, 137, rfl⟩
abbrev main_call3_v4 : Ref sig .tc := ⟨.hbm, 138, rfl⟩
abbrev main_call3_v5 : Ref sig .tc := ⟨.hbm, 139, rfl⟩
abbrev main_call3_cst_2 : Ref sig .tc := ⟨.hbm, 140, rfl⟩
abbrev main_call3_v6 : Ref sig .tc := ⟨.hbm, 141, rfl⟩
abbrev main_call3_v7 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_c_12 : Ref sig .tc := ⟨.hbm, 146, rfl⟩
abbrev main_v75 : Ref sig .tc := ⟨.hbm, 147, rfl⟩
abbrev main_v76 : Ref sig .tc := ⟨.hbm, 148, rfl⟩
abbrev main_c_13 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_cst_14 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_call4_cst : Ref sig .tc := ⟨.hbm, 164, rfl⟩
abbrev main_call4_v0 : Ref sig .tc := ⟨.hbm, 165, rfl⟩
abbrev main_call4_v1 : Ref sig .tc := ⟨.hbm, 166, rfl⟩
abbrev main_call4_cst_0 : Ref sig .tc := ⟨.hbm, 167, rfl⟩
abbrev main_call4_v2 : Ref sig .tc := ⟨.hbm, 168, rfl⟩
abbrev main_call4_v3 : Ref sig .tc := ⟨.hbm, 169, rfl⟩
abbrev main_call4_cst_1 : Ref sig .tc := ⟨.hbm, 170, rfl⟩
abbrev main_call4_call0_v0 : Ref sig .tc := ⟨.hbm, 171, rfl⟩
abbrev main_call4_call0_v1 : Ref sig .tc := ⟨.hbm, 172, rfl⟩
abbrev main_call4_v4 : Ref sig .tc := ⟨.hbm, 173, rfl⟩
abbrev main_call4_v5 : Ref sig .tc := ⟨.hbm, 174, rfl⟩
abbrev main_call4_cst_2 : Ref sig .tc := ⟨.hbm, 175, rfl⟩
abbrev main_call4_v6 : Ref sig .tc := ⟨.hbm, 176, rfl⟩
abbrev main_call4_v7 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_call5_cst : Ref sig .tc := ⟨.hbm, 184, rfl⟩
abbrev main_call5_v0 : Ref sig .tc := ⟨.hbm, 185, rfl⟩
abbrev main_call5_cst_0 : Ref sig .tc := ⟨.hbm, 186, rfl⟩
abbrev main_call5_v1 : Ref sig .tc := ⟨.hbm, 187, rfl⟩
abbrev main_call5_v2 : Ref sig .tc := ⟨.hbm, 188, rfl⟩
abbrev main_call5_v3 : Ref sig .tc := ⟨.hbm, 189, rfl⟩
abbrev main_call5_v4 : Ref sig .tc := ⟨.hbm, 190, rfl⟩
abbrev main_call5_v5 : Ref sig .tc := ⟨.hbm, 191, rfl⟩
abbrev main_call5_v6 : Ref sig .tc := ⟨.hbm, 192, rfl⟩
abbrev main_call5_cst_1 : Ref sig .tc := ⟨.hbm, 193, rfl⟩
abbrev main_call5_v7 : Ref sig .tc := ⟨.hbm, 194, rfl⟩
abbrev main_call5_v8 : Ref sig .tc := ⟨.hbm, 195, rfl⟩
abbrev main_call5_v9 : Ref sig .tc := ⟨.hbm, 196, rfl⟩
abbrev main_call5_v10 : Ref sig .tc := ⟨.hbm, 197, rfl⟩
abbrev main_v96 : Ref sig .tc := ⟨.hbm, 198, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x96_S50000x96_1_0_0_1_n_n_wf : DotDims.WF S50000x128 S128x96 S50000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x96_S50000x96_1_0_0_1_n_n_wf : DotDims.WF S50000x96 S96x96 S50000x96 [1] [0] [0] [1] [] []
  dot_S50000x96_S96x40_S50000x40_1_0_0_1_n_n_wf : DotDims.WF S50000x96 S96x40 S50000x40 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x40_S50000x40_1_0_0_1_n_n : DotDims S50000x96 S96x40 S50000x40 where
  lhsContracting := [1]
  rhsContracting := [0]
  lhsNonContracting := [0]
  rhsNonContracting := [1]
  lhsBatch := []
  rhsBatch := []
  wf := dot_S50000x96_S96x40_S50000x40_1_0_0_1_n_n_wf

class Facts : Prop extends Facts₀ where

variable [Facts]
-- ==== Proof.Keep.lean ====
/-
  Buffers that a stretch of the program leaves alone.

  A host operation rewrites only the buffer it writes, and a kernel region only its output arrays: an input array of a
  region, and every buffer that is no array of it, holds at the region's exit what it held at its entry. So the
  contents of a buffer at a later boundary of the program are its contents at an earlier one whenever nothing in
  between writes it; the lemmas below say so for the buffers and the boundaries the value proof reads.
-/
import proofs.«180035_j36816459661702_1_alg».proof.Proof.Gen.KernelIdeal.Frame

set_option maxRecDepth 16384

noncomputable section

namespace Cert.KernelIdeal.Keep

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- No operation of the stretch writes the buffer: each operation's written buffer is another one. -/
macro "host_keep" : tactic => `(tactic|
  (refine StableHlo.after_of_forall_not_mem _ _ (List.forall_iff_forall_mem.mp ?_)
   simp only [hostOps0, hostOps0_1, hostOps0_2, hostOps1, hostOps2, hostOps3, hostOps4, hostOps5, hostOps6, hostOps7, List.Forall, StableHlo.nullary_writes, StableHlo.unary_writes,
     StableHlo.binary_writes, StableHlo.ternary_writes, StableHlo.quaternary_writes, StableHlo.reshape_writes,
     Finset.mem_singleton]
   repeat' apply And.intro
   all_goals exact StableHlo.devRef_ne_of_ne (by decide)))

theorem keep_arg0_3_0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := by host_keep
    _ = W1 m ρ c (Proc.devRef .tc main_arg0) := by host_keep
    _ = W0 m ρ c (Proc.devRef .tc main_arg0) := by host_keep

theorem keep_arg0_7_3 (c : Dev nD) : W7 m ρ c (Proc.devRef .tc main_arg0) = W3 m ρ c (Proc.devRef .tc main_arg0) :=
  calc W7 m ρ c (Proc.devRef .tc main_arg0)
    _ = W6 m ρ c (Proc.devRef .tc main_arg0) := by host_keep
    _ = W5 m ρ c (Proc.devRef .tc main_arg0) := W6_of_ne m ρ c main_arg0 (by decide)
    _ = W4 m ρ c (Proc.devRef .tc main_arg0) := by host_keep
    _ = W3 m ρ c (Proc.devRef .tc main_arg0) := (W4_arr m ρ c 0).trans (((dat0 (V3 m ρ) c).arrAt_in 0 rfl _).trans (A_eq0 (V3 m ρ) c 0))

theorem keep_arg3_3_0 (c : Dev nD) : W3 m ρ c (Proc.devRef .tc main_arg3) = W0 m ρ c (Proc.devRef .tc main_arg3) :=
  calc W3 m ρ c (Proc.devRef .tc main_arg3)
    _ = W2 m ρ c (Proc.devRef .tc main_arg3) := by host_keep
    _ = W1 m ρ c (Proc.devRef .tc main_arg3) := by host_keep
    _ = W0 m ρ c (Proc.devRef .tc main_arg3) := by host_keep

theorem keep_arg4_4_0 (c : Dev nD) : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := by host_keep
    _ = W1 m ρ c (Proc.devRef .tc main_arg4) := by host_keep
    _ = W0 m ρ c (Proc.devRef .tc main_arg4) := by host_keep

theorem keep_arg10_6_0 (c : Dev nD) : W6 m ρ c (Proc.devRef .tc main_arg10) = W0 m ρ c (Proc.devRef .tc main_arg10) :=
  calc W6 m ρ c (Proc.devRef .tc main_arg10)
    _ = W5 m ρ c (Proc.devRef .tc main_arg10) := W6_of_ne m ρ c main_arg10 (by decide)
    _ = W4 m ρ c (Proc.devRef .tc main_arg10) := by host_keep
    _ = W3 m ρ c (Proc.devRef .tc main_arg10) := W4_of_ne m ρ c main_arg10 (by decide)
    _ = W2 m ρ c (Proc.devRef .tc main_arg10) := by host_keep
    _ = W1 m ρ c (Proc.devRef .tc main_arg10) := by host_keep
    _ = W0 m ρ c (Proc.devRef .tc main_arg10) := by host_keep

theorem keep_arg9_7_0 (c : Dev nD) : W7 m ρ c (Proc.devRef .tc main_arg9) = W0 m ρ c (Proc.devRef .tc main_arg9) :=
  calc W7 m ρ c (Proc.devRef .tc main_arg9)
    _ = W6 m ρ c (Proc.devRef .tc main_arg9) := by host_keep
    _ = W5 m ρ c (Proc.devRef .tc main_arg9) := W6_of_ne m ρ c main_arg9 (by decide)
    _ = W4 m ρ c (Proc.devRef .tc main_arg9) := by host_keep
    _ = W3 m ρ c (Proc.devRef .tc main_arg9) := W4_of_ne m ρ c main_arg9 (by decide)
    _ = W2 m ρ c (Proc.devRef .tc main_arg9) := by host_keep
    _ = W1 m ρ c (Proc.devRef .tc main_arg9) := by host_keep
    _ = W0 m ρ c (Proc.devRef .tc main_arg9) := by host_keep

theorem keep_arg5_9_0 (c : Dev nD) : W9 m ρ c (Proc.devRef .tc main_arg5) = W0 m ρ c (Proc.devRef .tc main_arg5) :=
  calc W9 m ρ c (Proc.devRef .tc main_arg5)
    _ = W8 m ρ c (Proc.devRef .tc main_arg5) := by host_keep
    _ = W7 m ρ c (Proc.devRef .tc main_arg5) := W8_of_ne m ρ c main_arg5 (by decide)
    _ = W6 m ρ c (Proc.devRef .tc main_arg5) := by host_keep
    _ = W5 m ρ c (Proc.devRef .tc main_arg5) := W6_of_ne m ρ c main_arg5 (by decide)
    _ = W4 m ρ c (Proc.devRef .tc main_arg5) := by host_keep
    _ = W3 m ρ c (Proc.devRef .tc main_arg5) := W4_of_ne m ρ c main_arg5 (by decide)
    _ = W2 m ρ c (Proc.devRef .tc main_arg5) := by host_keep
    _ = W1 m ρ c (Proc.devRef .tc main_arg5) := by host_keep
    _ = W0 m ρ c (Proc.devRef .tc main_arg5) := by host_keep

theorem keep_arg6_10_0 (c : Dev nD) : W10 m ρ c (Proc.devRef .tc main_arg6) = W0 m ρ c (Proc.devRef .tc main_arg6) :=
  calc W10 m ρ c (Proc.devRef .tc main_arg6)
    _ = W9 m ρ c (Proc.devRef .tc main_arg6) := W10_of_ne m ρ c main_arg6 (by decide)
    _ = W8 m ρ c (Proc.devRef .tc main_arg6) := by host_keep
    _ = W7 m ρ c (Proc.devRef .tc main_arg6) := W8_of_ne m ρ c main_arg6 (by decide)
    _ = W6 m ρ c (Proc.devRef .tc main_arg6) := by host_keep
    _ = W5 m ρ c (Proc.devRef .tc main_arg6) := W6_of_ne m ρ c main_arg6 (by decide)
    _ = W4 m ρ c (Proc.devRef .tc main_arg6) := by host_keep
    _ = W3 m ρ c (Proc.devRef .tc main_arg6) := W4_of_ne m ρ c main_arg6 (by decide)
    _ = W2 m ρ c (Proc.devRef .tc main_arg6) := by host_keep
    _ = W1 m ρ c (Proc.devRef .tc main_arg6) := by host_keep
    _ = W0 m ρ c (Proc.devRef .tc main_arg6) := by host_keep

theorem keep_arg7_13_0 (c : Dev nD) : W13 m ρ c (Proc.devRef .tc main_arg7) = W0 m ρ c (Proc.devRef .tc main_arg7) :=
  calc W13 m ρ c (Proc.devRef .tc main_arg7)
    _ = W12 m ρ c (Proc.devRef .tc main_arg7) := by host_keep
    _ = W11 m ρ c (Proc.devRef .tc main_arg7) := W12_of_ne m ρ c main_arg7 (by decide)
    _ = W10 m ρ c (Proc.devRef .tc main_arg7) := by host_keep
    _ = W9 m ρ c (Proc.devRef .tc main_arg7) := W10_of_ne m ρ c main_arg7 (by decide)
    _ = W8 m ρ c (Proc.devRef .tc main_arg7) := by host_keep
    _ = W7 m ρ c (Proc.devRef .tc main_arg7) := W8_of_ne m ρ c main_arg7 (by decide)
    _ = W6 m ρ c (Proc.devRef .tc main_arg7) := by host_keep
    _ = W5 m ρ c (Proc.devRef .tc main_arg7) := W6_of_ne m ρ c main_arg7 (by decide)
    _ = W4 m ρ c (Proc.devRef .tc main_arg7) := by host_keep
    _ = W3 m ρ c (Proc.devRef .tc main_arg7) := W4_of_ne m ρ c main_arg7 (by decide)
    _ = W2 m ρ c (Proc.devRef .tc main_arg7) := by host_keep
    _ = W1 m ρ c (Proc.devRef .tc main_arg7) := by host_keep
    _ = W0 m ρ c (Proc.devRef .tc main_arg7) := by host_keep

theorem keep_arg8_14_0 (c : Dev nD) : W14 m ρ c (Proc.devRef .tc main_arg8) = W0 m ρ c (Proc.devRef .tc main_arg8) :=
  calc W14 m ρ c (Proc.devRef .tc main_arg8)
    _ = W13 m ρ c (Proc.devRef .tc main_arg8) := W14_of_ne m ρ c main_arg8 (by decide)
    _ = W12 m ρ c (Proc.devRef .tc main_arg8) := by host_keep
    _ = W11 m ρ c (Proc.devRef .tc main_arg8) := W12_of_ne m ρ c main_arg8 (by decide)
    _ = W10 m ρ c (Proc.devRef .tc main_arg8) := by host_keep
    _ = W9 m ρ c (Proc.devRef .tc main_arg8) := W10_of_ne m ρ c main_arg8 (by decide)
    _ = W8 m ρ c (Proc.devRef .tc main_arg8) := by host_keep
    _ = W7 m ρ c (Proc.devRef .tc main_arg8) := W8_of_ne m ρ c main_arg8 (by decide)
    _ = W6 m ρ c (Proc.devRef .tc main_arg8) := by host_keep
    _ = W5 m ρ c (Proc.devRef .tc main_arg8) := W6_of_ne m ρ c main_arg8 (by decide)
    _ = W4 m ρ c (Proc.devRef .tc main_arg8) := by host_keep
    _ = W3 m ρ c (Proc.devRef .tc main_arg8) := W4_of_ne m ρ c main_arg8 (by decide)
    _ = W2 m ρ c (Proc.devRef .tc main_arg8) := by host_keep
    _ = W1 m ρ c (Proc.devRef .tc main_arg8) := by host_keep
    _ = W0 m ρ c (Proc.devRef .tc main_arg8) := by host_keep

theorem keep_arg12_16_0 (c : Dev nD) : W16 m ρ c (Proc.devRef .tc main_arg12) = W0 m ρ c (Proc.devRef .tc main_arg12) :=
  calc W16 m ρ c (Proc.devRef .tc main_arg12)
    _ = W15 m ρ c (Proc.devRef .tc main_arg12) := W16_of_ne m ρ c main_arg12 (by decide)
    _ = W14 m ρ c (Proc.devRef .tc main_arg12) := by host_keep
    _ = W13 m ρ c (Proc.devRef .tc main_arg12) := W14_of_ne m ρ c main_arg12 (by decide)
    _ = W12 m ρ c (Proc.devRef .tc main_arg12) := by host_keep
    _ = W11 m ρ c (Proc.devRef .tc main_arg12) := W12_of_ne m ρ c main_arg12 (by decide)
    _ = W10 m ρ c (Proc.devRef .tc main_arg12) := by host_keep
    _ = W9 m ρ c (Proc.devRef .tc main_arg12) := W10_of_ne m ρ c main_arg12 (by decide)
    _ = W8 m ρ c (Proc.devRef .tc main_arg12) := by host_keep
    _ = W7 m ρ c (Proc.devRef .tc main_arg12) := W8_of_ne m ρ c main_arg12 (by decide)
    _ = W6 m ρ c (Proc.devRef .tc main_arg12) := by host_keep
    _ = W5 m ρ c (Proc.devRef .tc main_arg12) := W6_of_ne m ρ c main_arg12 (by decide)
    _ = W4 m ρ c (Proc.devRef .tc main_arg12) := by host_keep
    _ = W3 m ρ c (Proc.devRef .tc main_arg12) := W4_of_ne m ρ c main_arg12 (by decide)
    _ = W2 m ρ c (Proc.devRef .tc main_arg12) := by host_keep
    _ = W1 m ρ c (Proc.devRef .tc main_arg12) := by host_keep
    _ = W0 m ρ c (Proc.devRef .tc main_arg12) := by host_keep

theorem keep_arg11_17_0 (c : Dev nD) : W17 m ρ c (Proc.devRef .tc main_arg11) = W0 m ρ c (Proc.devRef .tc main_arg11) :=
  calc W17 m ρ c (Proc.devRef .tc main_arg11)
    _ = W16 m ρ c (Proc.devRef .tc main_arg11) := by host_keep
    _ = W15 m ρ c (Proc.devRef .tc main_arg11) := W16_of_ne m ρ c main_arg11 (by decide)
    _ = W14 m ρ c (Proc.devRef .tc main_arg11) := by host_keep
    _ = W13 m ρ c (Proc.devRef .tc main_arg11) := W14_of_ne m ρ c main_arg11 (by decide)
    _ = W12 m ρ c (Proc.devRef .tc main_arg11) := by host_keep
    _ = W11 m ρ c (Proc.devRef .tc main_arg11) := W12_of_ne m ρ c main_arg11 (by decide)
    _ = W10 m ρ c (Proc.devRef .tc main_arg11) := by host_keep
    _ = W9 m ρ c (Proc.devRef .tc main_arg11) := W10_of_ne m ρ c main_arg11 (by decide)
    _ = W8 m ρ c (Proc.devRef .tc main_arg11) := by host_keep
    _ = W7 m ρ c (Proc.devRef .tc main_arg11) := W8_of_ne m ρ c main_arg11 (by decide)
    _ = W6 m ρ c (Proc.devRef .tc main_arg11) := by host_keep
    _ = W5 m ρ c (Proc.devRef .tc main_arg11) := W6_of_ne m ρ c main_arg11 (by decide)
    _ = W4 m ρ c (Proc.devRef .tc main_arg11) := by host_keep
    _ = W3 m ρ c (Proc.devRef .tc main_arg11) := W4_of_ne m ρ c main_arg11 (by decide)
    _ = W2 m ρ c (Proc.devRef .tc main_arg11) := by host_keep
    _ = W1 m ρ c (Proc.devRef .tc main_arg11) := by host_keep
    _ = W0 m ρ c (Proc.devRef .tc main_arg11) := by host_keep

theorem keep_v5_2_1 (c : Dev nD) : W2 m ρ c (Proc.devRef .tc main_v5) = W1 m ρ c (Proc.devRef .tc main_v5) :=
  calc W2 m ρ c (Proc.devRef .tc main_v5)
    _ = W1 m ρ c (Proc.devRef .tc main_v5) := by host_keep

theorem keep_v5_4_2 (c : Dev nD) : W4 m ρ c (Proc.devRef .tc main_v5) = W2 m ρ c (Proc.devRef .tc main_v5) :=
  calc W4 m ρ c (Proc.devRef .tc main_v5)
    _ = W3 m ρ c (Proc.devRef .tc main_v5) := W4_of_ne m ρ c main_v5 (by decide)
    _ = W2 m ρ c (Proc.devRef .tc main_v5) := by host_keep

theorem keep_v5_10_4 (c : Dev nD) : W10 m ρ c (Proc.devRef .tc main_v5) = W4 m ρ c (Proc.devRef .tc main_v5) :=
  calc W10 m ρ c (Proc.devRef .tc main_v5)
    _ = W9 m ρ c (Proc.devRef .tc main_v5) := W10_of_ne m ρ c main_v5 (by decide)
    _ = W8 m ρ c (Proc.devRef .tc main_v5) := by host_keep
    _ = W7 m ρ c (Proc.devRef .tc main_v5) := W8_of_ne m ρ c main_v5 (by decide)
    _ = W6 m ρ c (Proc.devRef .tc main_v5) := by host_keep
    _ = W5 m ρ c (Proc.devRef .tc main_v5) := W6_of_ne m ρ c main_v5 (by decide)
    _ = W4 m ρ c (Proc.devRef .tc main_v5) := by host_keep

theorem keep_v5_14_10 (c : Dev nD) : W14 m ρ c (Proc.devRef .tc main_v5) = W10 m ρ c (Proc.devRef .tc main_v5) :=
  calc W14 m ρ c (Proc.devRef .tc main_v5)
    _ = W13 m ρ c (Proc.devRef .tc main_v5) := W14_of_ne m ρ c main_v5 (by decide)
    _ = W12 m ρ c (Proc.devRef .tc main_v5) := by host_keep
    _ = W11 m ρ c (Proc.devRef .tc main_v5) := W12_of_ne m ρ c main_v5 (by decide)
    _ = W10 m ρ c (Proc.devRef .tc main_v5) := by host_keep

theorem keep_v6_2_1 (c : Dev nD) : W2 m ρ c (Proc.devRef .tc main_v6) = W1 m ρ c (Proc.devRef .tc main_v6) :=
  calc W2 m ρ c (Proc.devRef .tc main_v6)
    _ = W1 m ρ c (Proc.devRef .tc main_v6) := by host_keep

theorem keep_v6_4_2 (c : Dev nD) : W4 m ρ c (Proc.devRef .tc main_v6) = W2 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := by host_keep

theorem keep_v6_10_4 (c : Dev nD) : W10 m ρ c (Proc.devRef .tc main_v6) = W4 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := by host_keep
    _ = W7 m ρ c (Proc.devRef .tc main_v6) := W8_of_ne m ρ c main_v6 (by decide)
    _ = W6 m ρ c (Proc.devRef .tc main_v6) := by host_keep
    _ = W5 m ρ c (Proc.devRef .tc main_v6) := W6_of_ne m ρ c main_v6 (by decide)
    _ = W4 m ρ c (Proc.devRef .tc main_v6) := by host_keep

theorem keep_v6_14_10 (c : Dev nD) : W14 m ρ c (Proc.devRef .tc main_v6) = W10 m ρ c (Proc.devRef .tc main_v6) :=
  calc W14 m ρ c (Proc.devRef .tc main_v6)
    _ = W13 m ρ c (Proc.devRef .tc main_v6) := W14_of_ne m ρ c main_v6 (by decide)
    _ = W12 m ρ c (Proc.devRef .tc main_v6) := by host_keep
    _ = W11 m ρ c (Proc.devRef .tc main_v6) := W12_of_ne m ρ c main_v6 (by decide)
    _ = W10 m ρ c (Proc.devRef .tc main_v6) := by host_keep

theorem keep_v8_2_1 (c : Dev nD) : W2 m ρ c (Proc.devRef .tc main_v8) = W1 m ρ c (Proc.devRef .tc main_v8) :=
  calc W2 m ρ c (Proc.devRef .tc main_v8)
    _ = W1 m ρ c (Proc.devRef .tc main_v8) := by host_keep

theorem keep_v31_4_3 (c : Dev nD) : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)

theorem keep_v31_10_4 (c : Dev nD) : W10 m ρ c (Proc.devRef .tc main_v31) = W4 m ρ c (Proc.devRef .tc main_v31) :=
  calc W10 m ρ c (Proc.devRef .tc main_v31)
    _ = W9 m ρ c (Proc.devRef .tc main_v31) := W10_of_ne m ρ c main_v31 (by decide)
    _ = W8 m ρ c (Proc.devRef .tc main_v31) := by host_keep
    _ = W7 m ρ c (Proc.devRef .tc main_v31) := W8_of_ne m ρ c main_v31 (by decide)
    _ = W6 m ρ c (Proc.devRef .tc main_v31) := by host_keep
    _ = W5 m ρ c (Proc.devRef .tc main_v31) := W6_of_ne m ρ c main_v31 (by decide)
    _ = W4 m ρ c (Proc.devRef .tc main_v31) := by host_keep

theorem keep_v31_14_10 (c : Dev nD) : W14 m ρ c (Proc.devRef .tc main_v31) = W10 m ρ c (Proc.devRef .tc main_v31) :=
  calc W14 m ρ c (Proc.devRef .tc main_v31)
    _ = W13 m ρ c (Proc.devRef .tc main_v31) := W14_of_ne m ρ c main_v31 (by decide)
    _ = W12 m ρ c (Proc.devRef .tc main_v31) := by host_keep
    _ = W11 m ρ c (Proc.devRef .tc main_v31) := W12_of_ne m ρ c main_v31 (by decide)
    _ = W10 m ρ c (Proc.devRef .tc main_v31) := by host_keep

theorem keep_v32_8_3 (c : Dev nD) : W8 m ρ c (Proc.devRef .tc main_v32) = W3 m ρ c (Proc.devRef .tc main_v32) :=
  calc W8 m ρ c (Proc.devRef .tc main_v32)
    _ = W7 m ρ c (Proc.devRef .tc main_v32) := W8_of_ne m ρ c main_v32 (by decide)
    _ = W6 m ρ c (Proc.devRef .tc main_v32) := by host_keep
    _ = W5 m ρ c (Proc.devRef .tc main_v32) := W6_of_ne m ρ c main_v32 (by decide)
    _ = W4 m ρ c (Proc.devRef .tc main_v32) := by host_keep
    _ = W3 m ρ c (Proc.devRef .tc main_v32) := W4_of_ne m ρ c main_v32 (by decide)

theorem keep_v32_12_8 (c : Dev nD) : W12 m ρ c (Proc.devRef .tc main_v32) = W8 m ρ c (Proc.devRef .tc main_v32) :=
  calc W12 m ρ c (Proc.devRef .tc main_v32)
    _ = W11 m ρ c (Proc.devRef .tc main_v32) := W12_of_ne m ρ c main_v32 (by decide)
    _ = W10 m ρ c (Proc.devRef .tc main_v32) := by host_keep
    _ = W9 m ρ c (Proc.devRef .tc main_v32) := W10_of_ne m ρ c main_v32 (by decide)
    _ = W8 m ρ c (Proc.devRef .tc main_v32) := by host_keep

theorem keep_v49_17_6 (c : Dev nD) : W17 m ρ c (Proc.devRef .tc main_v49) = W6 m ρ c (Proc.devRef .tc main_v49) :=
  calc W17 m ρ c (Proc.devRef .tc main_v49)
    _ = W16 m ρ c (Proc.devRef .tc main_v49) := by host_keep
    _ = W15 m ρ c (Proc.devRef .tc main_v49) := W16_of_ne m ρ c main_v49 (by decide)
    _ = W14 m ρ c (Proc.devRef .tc main_v49) := by host_keep
    _ = W13 m ρ c (Proc.devRef .tc main_v49) := W14_of_ne m ρ c main_v49 (by decide)
    _ = W12 m ρ c (Proc.devRef .tc main_v49) := by host_keep
    _ = W11 m ρ c (Proc.devRef .tc main_v49) := W12_of_ne m ρ c main_v49 (by decide)
    _ = W10 m ρ c (Proc.devRef .tc main_v49) := by host_keep
    _ = W9 m ρ c (Proc.devRef .tc main_v49) := W10_of_ne m ρ c main_v49 (by decide)
    _ = W8 m ρ c (Proc.devRef .tc main_v49) := by host_keep
    _ = W7 m ρ c (Proc.devRef .tc main_v49) := W8_of_ne m ρ c main_v49 (by decide)
    _ = W6 m ρ c (Proc.devRef .tc main_v49) := by host_keep

theorem keep_v51_9_8 (c : Dev nD) : W9 m ρ c (Proc.devRef .tc main_v51) = W8 m ρ c (Proc.devRef .tc main_v51) :=
  calc W9 m ρ c (Proc.devRef .tc main_v51)
    _ = W8 m ρ c (Proc.devRef .tc main_v51) := by host_keep

theorem keep_v68_13_12 (c : Dev nD) : W13 m ρ c (Proc.devRef .tc main_v68) = W12 m ρ c (Proc.devRef .tc main_v68) :=
  calc W13 m ρ c (Proc.devRef .tc main_v68)
    _ = W12 m ρ c (Proc.devRef .tc main_v68) := by host_keep

theorem keep_v85_17_16 (c : Dev nD) : W17 m ρ c (Proc.devRef .tc main_v85) = W16 m ρ c (Proc.devRef .tc main_v85) :=
  calc W17 m ρ c (Proc.devRef .tc main_v85)
    _ = W16 m ρ c (Proc.devRef .tc main_v85) := by host_keep

end Cert.KernelIdeal.Keep

end
-- ==== Proof.Model.lean ====
/-
  The reference network as one function of its thirteen argument arrays, in stages.

  A graph convolution here is: the node features times a weight matrix; each edge (and a self-loop per node,
  of weight one) carries the source node's row scaled by the edge's weight and by the inverse square roots of the
  weighted in-degrees of its two ends (zero where a degree is not positive); the rows arriving at a node are
  summed; a bias row is added. The network is three such convolutions and a dense layer with exponential linear
  units, two branches added, a dense classifier, and the logarithm of the softmax of each row.
  The stages below are the reference's own host operations, so that a run of the reference reads back as `model`
  of the arguments, and the kernel's program — which computes the edge stages by the same host operations and the
  dense stages in kernels — as `model` with each dense stage replaced by what its kernel leaves.
-/
import proofs.«180035_j36816459661702_1_alg».proof.Proof.Gen.ReferenceIdeal

noncomputable section

namespace Cert.Model

open Idealize.ShloMosaic Cert.ReferenceIdeal Cert.ReferenceIdeal.Facts₀

variable {F : FTy → Type} [FloatOps F]

/-- An array of a given shape and element type, as a host operation takes it. -/
abbrev Arr (F : FTy → Type) (S : Shape) (e : EltTy) : Type := (⟨S, e⟩ : BufTy).Contents (Elt F)

/-- The all-zero and the all-one scalar. -/
def zero0 : Arr F S_ .f32 := constant S_ .f32 0x00000000#32
def one0 : Arr F S_ .f32 := constant S_ .f32 0x3F800000#32

/-- Row k of the [2, E] edge list as a vector, followed by the node numbers 0 … N-1 (the self-loops). -/
def ends (k : Fin 2) (hk : S2x800000.Slices ![k.val, 0] S1x800000) (ei : Arr F S2x800000 .i32) : Arr F S850000 .i32 :=
  concatenate S850000 0 [⟨S800000, shapeCast S800000 (extractStridedSlice S1x800000 ![k.val, 0] ei hk) shapeCasts_S1x800000_S800000⟩,
    ⟨S50000, iotaInDim S50000 32 0⟩] concatenates_S800000_S50000_S850000_d0

/-- The sources and the targets of the edges, self-loops appended. -/
def rows (ei : Arr F S2x800000 .i32) : Arr F S850000 .i32 := ends 0 slices_S2x800000_S1x800000_0_0 ei
def cols (ei : Arr F S2x800000 .i32) : Arr F S850000 .i32 := ends 1 slices_S2x800000_S1x800000_1_0 ei

/-- The edge weights, with weight one for each self-loop. -/
def wts (ew : Arr F S800000 .f32) : Arr F S850000 .f32 :=
  concatenate S850000 0 [⟨S800000, ew⟩, ⟨S50000, broadcastInDim S50000 ![] bcast_S_S50000 (one0 (F := F))⟩]
    concatenates_S800000_S50000_S850000_d0

/-- A vector of node numbers as a column of gather indices, a negative number counted from the end. -/
def wrap (r : Arr F S850000 .i32) : Arr F S850000x1 .i32 :=
  broadcastInDim S850000x1 ![0] bcast_S850000_S850000x1_0
    (select (cmpi .slt r (broadcastInDim S850000 ![] bcast_S_S850000 (constantI S_ 32 0#32)))
      (addi r (broadcastInDim S850000 ![] bcast_S_S850000 (constantI S_ 32 50000#32))) r)

/-- A vector of node numbers as a column of scatter indices. -/
def col (r : Arr F S850000 .i32) : Arr F S850000x1 .i32 := broadcastInDim S850000x1 ![0] bcast_S850000_S850000x1_0 r

/-- The weighted in-degree of each node. -/
def deg (ei : Arr F S2x800000 .i32) (ew : Arr F S800000 .f32) : Arr F S50000 .f32 :=
  Host.scatterAdd scatter_S50000_S850000x1_S850000_n_0_0_1 (broadcastInDim S50000 ![] bcast_S_S50000 (zero0 (F := F)))
    (col (cols ei)) (wts ew)

/-- The inverse square root of each positive degree, zero elsewhere. -/
def dinv (ei : Arr F S2x800000 .i32) (ew : Arr F S800000 .f32) : Arr F S50000 .f32 :=
  select (cmpf .ogt (deg ei ew) (broadcastInDim S50000 ![] bcast_S_S50000 (zero0 (F := F)))) (Host.rsqrt (deg ei ew))
    (broadcastInDim S50000 ![] bcast_S_S50000 (zero0 (F := F)))

/-- Each edge's normalised weight: its weight times the inverse square roots of its two ends' degrees. -/
def norm (ei : Arr F S2x800000 .i32) (ew : Arr F S800000 .f32) : Arr F S850000 .f32 :=
  mulf (mulf (Host.gather gather_S50000_S850000x1_S850000_n_0_n_n_0_1_1 (dinv ei ew) (wrap (rows ei))) (wts ew))
    (Host.gather gather_S50000_S850000x1_S850000_n_0_n_n_0_1_1 (dinv ei ew) (wrap (cols ei)))

/-- One round of message passing over given edge ends and normalised weights: every edge carries its source's row
    times its normalised weight to its target, where the rows arriving are summed. -/
def aggWith (rws cls : Arr F S850000 .i32) (nrm : Arr F S850000 .f32) (h : Arr F S50000x96 .f32) : Arr F S50000x96 .f32 :=
  Host.scatterAdd scatter_S50000x96_S850000x1_S850000x96_1_0_0_1
    (broadcastInDim S50000x96 ![] bcast_S_S50000x96 (zero0 (F := F))) (col cls)
    (mulf (broadcastInDim S850000x96 ![0, 1] bcast_S850000x1_S850000x96_0_1
        (broadcastInDim S850000x1 ![0] bcast_S850000_S850000x1_0 nrm))
      (Host.gather gather_S50000x96_S850000x1_S850000x96_1_0_n_n_0_1_196 h (wrap rws)))

/-- One round of message passing over the graph of the arguments. -/
def agg (ei : Arr F S2x800000 .i32) (ew : Arr F S800000 .f32) (h : Arr F S50000x96 .f32) : Arr F S50000x96 .f32 :=
  aggWith (rows ei) (cols ei) (norm ei ew) h

/-- A bias vector added to every row: the vector as a row, the row along every row. -/
def bias96 (b : Arr F S96 .f32) : Arr F S50000x96 .f32 :=
  broadcastInDim S50000x96 ![0, 1] bcast_S1x96_S50000x96_0_1 (broadcastInDim S1x96 ![1] bcast_S96_S1x96_1 b)
def bias40 (b : Arr F S40 .f32) : Arr F S50000x40 .f32 :=
  broadcastInDim S50000x40 ![0, 1] bcast_S1x40_S50000x40_0_1 (broadcastInDim S1x40 ![1] bcast_S40_S1x40_1 b)

/-- The three matrix products. -/
def dotIn (x : Arr F S50000x128 .f32) (w : Arr F S128x96 .f32) : Arr F S50000x96 .f32 :=
  Host.dotGeneral dot_S50000x128_S128x96_S50000x96_1_0_0_1_n_n none x w
def dotHid (x : Arr F S50000x96 .f32) (w : Arr F S96x96 .f32) : Arr F S50000x96 .f32 :=
  Host.dotGeneral dot_S50000x96_S96x96_S50000x96_1_0_0_1_n_n none x w
def dotOut (x : Arr F S50000x96 .f32) (w : Arr F S96x40 .f32) : Arr F S50000x40 .f32 :=
  Host.dotGeneral dot_S50000x96_S96x40_S50000x40_1_0_0_1_n_n none x w

/-- The exponential linear unit as the reference spells it: y where 0 < y, and elsewhere one times
    exp - 1 of (zero where 0 < y, else y). -/
def elu (y : Arr F S50000x96 .f32) : Arr F S50000x96 .f32 :=
  select (cmpf .ogt y (broadcastInDim S50000x96 ![] bcast_S_S50000x96 (zero0 (F := F)))) y
    (mulf (broadcastInDim S50000x96 ![] bcast_S_S50000x96 (one0 (F := F)))
      (Host.expm1 (select (cmpf .ogt y (broadcastInDim S50000x96 ![] bcast_S_S50000x96 (zero0 (F := F))))
        (broadcastInDim S50000x96 ![] bcast_S_S50000x96 (zero0 (F := F))) y)))

/-- The logits less each row's maximum (the maximum taken from minus infinity, and once more against it). -/
def shifted (l : Arr F S50000x40 .f32) : Arr F S50000x40 .f32 :=
  subf l (broadcastInDim S50000x40 ![0, 1] bcast_S50000x1_S50000x40_0_1 (broadcastInDim S50000x1 ![0] bcast_S50000_S50000x1_0
    (maximumf (broadcastInDim S50000 ![] bcast_S_S50000 (constant S_ .f32 0xFF800000#32 : Arr F S_ .f32))
      (Host.reduce FloatOps.maximumf l (constant S_ .f32 0xFF800000#32 : Arr F S_ .f32) reducesTo_S50000x40_S50000_d1 h_S_))))

/-- The logarithm of the softmax of each row. -/
def logSoftmax (l : Arr F S50000x40 .f32) : Arr F S50000x40 .f32 :=
  subf (shifted l) (broadcastInDim S50000x40 ![0, 1] bcast_S50000x1_S50000x40_0_1
    (Host.log (broadcastInDim S50000x1 ![0] bcast_S50000_S50000x1_0
      (Host.reduceAdd (Host.exp (shifted l)) (zero0 (F := F)) reducesTo_S50000x40_S50000_d1 h_S_))))

/-- A graph convolution with its unit: elu (agg (x · W) + b). -/
def conv (ei : Arr F S2x800000 .i32) (ew : Arr F S800000 .f32) (xw : Arr F S50000x96 .f32) (b : Arr F S96 .f32) :
    Arr F S50000x96 .f32 :=
  elu (addf (agg ei ew xw) (bias96 b))

/-- The network. -/
def model (x : Arr F S50000x128 .f32) (ei : Arr F S2x800000 .i32) (ew : Arr F S800000 .f32)
    (w1 : Arr F S128x96 .f32) (b1 : Arr F S96 .f32) (w2 : Arr F S96x96 .f32) (b2 : Arr F S96 .f32)
    (w3 : Arr F S96x96 .f32) (b3 : Arr F S96 .f32) (wl1 : Arr F S128x96 .f32) (bl1 : Arr F S96 .f32)
    (wl2 : Arr F S96x40 .f32) (bl2 : Arr F S40 .f32) : Arr F S50000x40 .f32 :=
  logSoftmax (addf (dotOut (addf (conv ei ew (dotIn x w1) b1)
      (conv ei ew (dotHid (conv ei ew (dotHid (elu (addf (dotIn x wl1) (bias96 bl1))) w2) b2) w3) b3)) wl2) (bias40 bl2))

end Cert.Model

end
-- ==== Proof.LibResultsInside.lean ====
/-
  Reading a line of host operations back where the one-pass reader stops.

  The library's one-pass reader of a line of host operations (`after_results_simp`) rewrites every operation's result
  at its own buffer and at every other buffer — except where a value stands INSIDE a `concatenate`'s list of pieces, and
  it leaves the transports of an outlined function's typed references in place. Closing what is left by `rfl` makes the
  unifier evaluate: the chain of `HloOp.result`s under a `concatenate`, or, with a transport (a `cast`) at the head of
  one side, the other side down to the elementwise definitions of a gather or a scatter — which does not end.

  `results_inside` is the library's result lemmas applied by `rw`, repeated: `rw` abstracts occurrences wherever they
  stand, a `concatenate`'s pieces included. The recipe that read a 117-operation line against staged definitions:

    after_results_simp; results_inside          -- the composed term over the starting contents
    dsimp only [‹the stages this stretch computes›]; first | done | rfl

  with the line CUT at each outlined function (a stretch of `TRef.…` operations), each stretch read from an arbitrary
  contents `W` under hypotheses `W (devRef b) = ‹stage›` for the buffers it reads. In such a stretch: cancel
  written-then-read pairs (`TRef.ofBuf_toBuf`), remove each remaining transport by a lemma about that buffer stated over
  a VARIABLE value and proved by `rfl` — there `rfl` can only do the one reduction of the cast —

    theorem ofBuf_b (h1 : b.ty = (⟨S, e⟩ : BufTy)) (h2 : b.space ≠ .host) (h3 : b.isScoped = false)
        (v : b.ty.Contents Val) : (TRef.of (T := ⟨S, e⟩) b h1 h2 h3).ofBuf v = v := rfl

  used by `rw`, and only then rewrite the hypotheses and unfold the stages. (`simp` or `dsimp` with `cast_eq` over the
  whole term exhausts memory.)
-/
import Idealize.ShloMosaic.Lib.StableHlo.Run

namespace Idealize.ShloMosaic.StableHlo

/-- The library's result lemmas by `rw`, repeated: they also rewrite an operation's result where it stands inside a
    `concatenate`'s list of pieces, which the one-pass form leaves alone. Does nothing where nothing is left. -/
macro "results_inside" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

end Idealize.ShloMosaic.StableHlo
-- ==== Proof.LibTypedRef.lean ====
/-
  Typed references of a module-local function's operations. An operation of an outlined function reads and writes its
  buffers through typed references: a result is transported to its buffer's type when written and back to the value's
  type when the next operation reads it. The two transports cancel, so a line of such operations composes to the
  plain composition of their functions.
-/
import Idealize.ShloMosaic.Lib.StableHlo

namespace Idealize.ShloMosaic.StableHlo.TRef

variable {sig : RefSig} {Val : EltTy → Type} {T : BufTy}

/-- Written to the buffer and read back: the value. -/
theorem ofBuf_toBuf (x : TRef sig T) (v : T.Contents Val) : x.ofBuf (x.toBuf v) = v := by
  obtain ⟨r, ty_eq, h1, h2⟩ := x
  subst ty_eq
  rfl

/-- Read from the buffer and written back: the contents. -/
theorem toBuf_ofBuf (x : TRef sig T) (v : x.ref.ty.Contents Val) : x.toBuf (x.ofBuf v) = v := by
  obtain ⟨r, ty_eq, h1, h2⟩ := x
  subst ty_eq
  rfl

end Idealize.ShloMosaic.StableHlo.TRef
-- ==== Proof.Stretch.lean ====
/-
  The kernel program's stretches of host operations, each read from arbitrary buffer contents.

  Between its kernel regions the program runs the same host operations as the reference: the edge ends with
  self-loops appended, the edge weights, the weighted in-degrees and their inverse square roots, each edge's
  normalised weight; and, after each convolution's dense kernel, one round of message passing. Each stretch, run from
  contents W, leaves in the buffers it writes the corresponding stage of the reference network (Model) of what W holds
  in the buffers it reads, and every other buffer as W has it.
-/
import proofs.«180035_j36816459661702_1_alg».proof.Proof.Gen.KernelIdeal.Launch
import proofs.«180035_j36816459661702_1_alg».proof.Proof.Model
import proofs.«180035_j36816459661702_1_alg».proof.Proof.LibResultsInside
import proofs.«180035_j36816459661702_1_alg».proof.Proof.LibTypedRef
import Idealize.ShloMosaic.Lib.StableHlo.Run

noncomputable section

namespace Cert.KernelIdeal.Stretch

open Idealize.ShloMosaic Idealize.ShloMosaic.StableHlo Cert.KernelIdeal Cert.KernelIdeal.Gen
open Cert.Model (Arr)

variable {F : FTy → Type} [FloatOps F]

/-- The inverse square roots where the comparison holds, the scalar elsewhere. -/
def pick (cnd : Arr F S50000 .i1) (r : Arr F S50000 .f32) (z : Arr F S_ .f32) : Arr F S50000 .f32 :=
  select cnd r (broadcastInDim S50000 ![] Cert.ReferenceIdeal.Facts₀.bcast_S_S50000 z)

/-- An edge's weight times the entries of a node vector at its two ends. -/
def scaled (dv : Arr F S50000 .f32) (rws cls : Arr F S850000 .i32) (w : Arr F S850000 .f32) : Arr F S850000 .f32 :=
  mulf (mulf (Host.gather Cert.ReferenceIdeal.gather_S50000_S850000x1_S850000_n_0_n_n_0_1_1 dv (Cert.Model.wrap rws)) w)
    (Host.gather Cert.ReferenceIdeal.gather_S50000_S850000x1_S850000_n_0_n_n_0_1_1 dv (Cert.Model.wrap cls))

/-- The all-zero bias the convolutions' dense kernels are given, as a vector and as a row. -/
def zvec : Arr F S96 .f32 := broadcastInDim S96 ![] Facts₀.bcast_S_S96 (Cert.Model.zero0 (F := F))
def zrow : Arr F S1x96 .f32 := shapeCast S1x96 (zvec (F := F)) Facts₀.shapeCasts_S96_S1x96
/-- A bias vector as the row a kernel takes. -/
def brow (b : Arr F S96 .f32) : Arr F S1x96 .f32 := shapeCast S1x96 b Facts₀.shapeCasts_S96_S1x96
def brow40 (b : Arr F S40 .f32) : Arr F S1x40 .f32 := shapeCast S1x40 b Facts₀.shapeCasts_S40_S1x40

variable (W : Valuation τ sig (Elt F))

/-! ## The first stretch: edge ends, weights, degrees -/

theorem s0_rows : after (hostOps0 (F := F)) W (Proc.devRef .tc main_v5) = Cert.Model.rows (F := F) (W (Proc.devRef .tc main_arg1)) := by
  after_results_simp; rfl
theorem s0_cols : after (hostOps0 (F := F)) W (Proc.devRef .tc main_v6) = Cert.Model.cols (F := F) (W (Proc.devRef .tc main_arg1)) := by
  after_results_simp; rfl
theorem s0_wts : after (hostOps0 (F := F)) W (Proc.devRef .tc main_v8) = Cert.Model.wts (F := F) (W (Proc.devRef .tc main_arg2)) := by
  after_results_simp; rfl
theorem s0_pos : after (hostOps0 (F := F)) W (Proc.devRef .tc main_v13)
    = (cmpf .ogt (Cert.Model.deg (F := F) (W (Proc.devRef .tc main_arg1)) (W (Proc.devRef .tc main_arg2)))
        (broadcastInDim S50000 ![] Cert.ReferenceIdeal.Facts₀.bcast_S_S50000 (Cert.Model.zero0 (F := F))) : Arr F S50000 .i1) := by
  after_results_simp; rfl
theorem s0_rsqrt : after (hostOps0 (F := F)) W (Proc.devRef .tc main_v14)
    = (Host.rsqrt (Cert.Model.deg (F := F) (W (Proc.devRef .tc main_arg1)) (W (Proc.devRef .tc main_arg2))) : Arr F S50000 .f32) := by
  after_results_simp; rfl
theorem s0_zero : after (hostOps0 (F := F)) W (Proc.devRef .tc main_cst_2) = Cert.Model.zero0 (F := F) := by
  after_results_simp; rfl

/-! ## The outlined choice -/

/-- A typed reference to a buffer of the very type reads the buffer's contents as they are, and writes a value as
    it is. -/
theorem ofBuf_v13 (h1 h2 h3) (v : (main_v13 : Ref sig .tc).ty.Contents (Elt F)) :
    (TRef.of (T := ⟨S50000, .i1⟩) main_v13 h1 h2 h3).ofBuf v = v := rfl
theorem ofBuf_v14 (h1 h2 h3) (v : (main_v14 : Ref sig .tc).ty.Contents (Elt F)) :
    (TRef.of (T := ⟨S50000, .f32⟩) main_v14 h1 h2 h3).ofBuf v = v := rfl
theorem ofBuf_cst2 (h1 h2 h3) (v : (main_cst_2 : Ref sig .tc).ty.Contents (Elt F)) :
    (TRef.of (T := ⟨S_, .f32⟩) main_cst_2 h1 h2 h3).ofBuf v = v := rfl
theorem toBuf_v15 (h1 h2 h3) (v : (⟨S50000, .f32⟩ : BufTy).Contents (Elt F)) :
    (TRef.of (T := ⟨S50000, .f32⟩) main_v15 h1 h2 h3).toBuf v = v := rfl

theorem s01_pick : after (hostOps0_1 (F := F)) W (Proc.devRef .tc main_v15)
    = pick (W (Proc.devRef .tc main_v13)) (W (Proc.devRef .tc main_v14)) (W (Proc.devRef .tc main_cst_2)) := by
  after_results_simp
  rw [TRef.ofBuf_toBuf, TRef.ofBuf_toBuf, ofBuf_v13, ofBuf_v14, ofBuf_cst2, toBuf_v15]
  rfl

/-! ## The normalised weights and the zero bias -/

theorem s02_norm : after (hostOps0_2 (F := F)) W (Proc.devRef .tc main_v31)
    = scaled (W (Proc.devRef .tc main_v15)) (W (Proc.devRef .tc main_v5)) (W (Proc.devRef .tc main_v6)) (W (Proc.devRef .tc main_v8)) := by
  after_results_simp; rfl
theorem s02_zvec : after (hostOps0_2 (F := F)) W (Proc.devRef .tc main_v32) = zvec (F := F) := by
  after_results_simp; rfl
theorem s02_zrow : after (hostOps0_2 (F := F)) W (Proc.devRef .tc main_v33) = zrow (F := F) := by
  after_results_simp; rfl

/-! ## Message passing after each convolution's dense kernel, and the bias rows -/

theorem s1_agg : after (hostOps1 (F := F)) W (Proc.devRef .tc main_v47)
    = Cert.Model.aggWith (F := F) (W (Proc.devRef .tc main_v5)) (W (Proc.devRef .tc main_v6)) (W (Proc.devRef .tc main_v31)) (W (Proc.devRef .tc main_v34)) := by
  after_results_simp; rfl
theorem s1_brow : after (hostOps1 (F := F)) W (Proc.devRef .tc main_v48) = brow (W (Proc.devRef .tc main_arg4)) := by
  after_results_simp; rfl
theorem s2_brow : after (hostOps2 (F := F)) W (Proc.devRef .tc main_v50) = brow (W (Proc.devRef .tc main_arg10)) := by
  after_results_simp; rfl
theorem s3_zrow : after (hostOps3 (F := F)) W (Proc.devRef .tc main_v52) = (shapeCast S1x96 (W (Proc.devRef .tc main_v32)) Facts₀.shapeCasts_S96_S1x96 : Arr F S1x96 .f32) := by
  after_results_simp; rfl
theorem s4_agg : after (hostOps4 (F := F)) W (Proc.devRef .tc main_v66)
    = Cert.Model.aggWith (F := F) (W (Proc.devRef .tc main_v5)) (W (Proc.devRef .tc main_v6)) (W (Proc.devRef .tc main_v31)) (W (Proc.devRef .tc main_v53)) := by
  after_results_simp; rfl
theorem s4_brow : after (hostOps4 (F := F)) W (Proc.devRef .tc main_v67) = brow (W (Proc.devRef .tc main_arg6)) := by
  after_results_simp; rfl
theorem s5_zrow : after (hostOps5 (F := F)) W (Proc.devRef .tc main_v69) = (shapeCast S1x96 (W (Proc.devRef .tc main_v32)) Facts₀.shapeCasts_S96_S1x96 : Arr F S1x96 .f32) := by
  after_results_simp; rfl
theorem s6_agg : after (hostOps6 (F := F)) W (Proc.devRef .tc main_v83)
    = Cert.Model.aggWith (F := F) (W (Proc.devRef .tc main_v5)) (W (Proc.devRef .tc main_v6)) (W (Proc.devRef .tc main_v31)) (W (Proc.devRef .tc main_v70)) := by
  after_results_simp; rfl
theorem s6_brow : after (hostOps6 (F := F)) W (Proc.devRef .tc main_v84) = brow (W (Proc.devRef .tc main_arg8)) := by
  after_results_simp; rfl
theorem s7_brow : after (hostOps7 (F := F)) W (Proc.devRef .tc main_v86) = brow40 (W (Proc.devRef .tc main_arg12)) := by
  after_results_simp; rfl

end Cert.KernelIdeal.Stretch

end
-- ==== Proof.LibDense.lean ====
/-
  Dense layers on the extended reals, index by index.

  A matrix here is a function of a two-coordinate index into the extended reals.  `mm X W` is the
  textbook product: entry (r, j) is the sum over k of X (r, k) * W (k, j).  A matrix unit's product into a zero
  accumulator, read at an output index, is that sum (`matmul_zero_eq`), whatever the formats of the operands
  (a change of float format is the identity on the extended reals); the host's `dot_general` likewise
  (`dotGeneral_eq`).  `ssp` is the shifted softplus as the kernel spells it,
  max z 0 + log1p (exp (0 - |z - 0|)) - log 2 under a guard `z - 0 ≠ z - 0` that never fires on the
  extended reals, and `ssp_host` says that the host's spelling, with a negation in place of the subtraction
  from zero, is the same number.
-/
import Idealize.ShloMosaic.Lib.ValueIdx
import Idealize.ShloMosaic.Lib.Pipeline.Value
import Idealize.ShloMosaic.PureOps.Ideal.Laws

noncomputable section

namespace Cert.Dense

open Idealize.ShloMosaic Idealize.ShloMosaic.ValueIdx

/-- Entry (r, j) of the product of an [R, K] matrix and a [K, C] matrix: the sum over k of X (r, k) * W (k, j). -/
def mm {R K C : Nat} (X : (⟨2, ![R, K]⟩ : Shape).Idx → EReal) (W : (⟨2, ![K, C]⟩ : Shape).Idx → EReal) :
    (⟨2, ![R, C]⟩ : Shape).Idx → EReal :=
  fun i => ∑ k : Fin K, X (ix2 (i 0) k) * W (ix2 k (i 1))

/-- A product into the zero accumulator, with dimension numbers that contract the left operand's second axis
    with the right operand's first, is `mm` at every output index. -/
theorem matmul_zero_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision)
    (lhs : FVec Ideal ⟨2, ![R, K]⟩ φ₁) (rhs : FVec Ideal ⟨2, ![K, C]⟩ φ₂) (j : (⟨2, ![R, C]⟩ : Shape).Idx) :
    FloatOps.matmul D prec lhs rhs (constant ⟨2, ![R, C]⟩ .f32 0x00000000#32) j = mm lhs rhs j := by
  rw [Ideal.matmul_constant_zero_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- The host's product of the same operands is the same sum. -/
theorem dotGeneral_eq {R K C : Nat} {φ₁ φ₂ : FTy}
    (D : DotDims ⟨2, ![R, K]⟩ ⟨2, ![K, C]⟩ ⟨2, ![R, C]⟩)
    (hr : D.contr.rank = 1) (hs : D.contr.size ⟨0, by omega⟩ = K)
    (l0 : ∀ i q, (D.lhsIdx i q 0).val = (i 0).val) (l1 : ∀ i q, (D.lhsIdx i q 1).val = (q ⟨0, by omega⟩).val)
    (r0 : ∀ i q, (D.rhsIdx i q 0).val = (q ⟨0, by omega⟩).val) (r1 : ∀ i q, (D.rhsIdx i q 1).val = (i 1).val)
    (prec : Option ContractPrecision) (sched : HostSchedule)
    (lhs : FVec Ideal ⟨2, ![R, K]⟩ φ₁) (rhs : FVec Ideal ⟨2, ![K, C]⟩ φ₂) (j : (⟨2, ![R, C]⟩ : Shape).Idx) :
    FloatOps.dotGeneral D prec sched lhs rhs j = mm lhs rhs j := by
  rw [Ideal.dotGeneral_apply, ← Equiv.sum_comp (contrEquiv1 D K hr hs).symm]
  unfold mm
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  rw [el, er]
  rfl

/-- Two products agree at two entries when the left operands agree along the two rows and the right operands
    along the two columns. -/
theorem mm_congr {R R' K C C' : Nat} {X : (⟨2, ![R, K]⟩ : Shape).Idx → EReal} {X' : (⟨2, ![R', K]⟩ : Shape).Idx → EReal}
    {W : (⟨2, ![K, C]⟩ : Shape).Idx → EReal} {W' : (⟨2, ![K, C']⟩ : Shape).Idx → EReal}
    (i : (⟨2, ![R, C]⟩ : Shape).Idx) (i' : (⟨2, ![R', C']⟩ : Shape).Idx)
    (hX : ∀ k : Fin K, X (ix2 (i 0) k) = X' (ix2 (i' 0) k))
    (hW : ∀ k : Fin K, W (ix2 k (i 1)) = W' (ix2 k (i' 1))) : mm X W i = mm X' W' i' := by
  unfold mm
  exact Finset.sum_congr rfl fun k _ => by rw [hX k, hW k]

/-- The zero and the shift of the softplus, as the float words both programs spell. -/
abbrev z0 : EReal := Ideal.ofBits .f32 0x00000000#32
abbrev ln2 : EReal := Ideal.ofBits .f32 0x3F317218#32

/-- The shifted softplus of one extended real, in the kernel's spelling. -/
def ssp (z : EReal) : EReal :=
  Scalar.select (Ideal.cmp .one (z - z0) (z - z0)) (z + z0)
    (max z z0 + Ideal.log1p (Ideal.exp (z0 - max (z - z0) (-(z - z0))))) - ln2

/-- The host's spelling: the unordered comparison in the guard (the same comparison on a linear order) and a
    negation where the kernel subtracts from zero. -/
theorem ssp_host (z : EReal) :
    Scalar.select (Ideal.cmp .une (z - z0) (z - z0)) (z + z0)
      (max z z0 + Ideal.log1p (Ideal.exp (-(max (z - z0) (-(z - z0)))))) - ln2 = ssp z := by
  unfold ssp
  have h0 : ∀ a : EReal, z0 - a = -a := fun a => by
    show Ideal.ofBits .f32 0x00000000#32 - a = -a
    rw [Ideal.ofBits_zero_f32, zero_sub]
  rw [h0]
  rfl

/-! ## The layers of the interaction block, entry by entry

  A bias is kept as the [1, C] row both programs hand to the layer; the per-edge distance as an [E, 1] column. -/

/-- The cosine cutoff's constants, as the float words both programs spell: π/10 rounded to f32, one, one half. -/
abbrev kpi : EReal := Ideal.ofBits .f32 0x3EA0D97C#32
abbrev one : EReal := Ideal.ofBits .f32 0x3F800000#32
abbrev half : EReal := Ideal.ofBits .f32 0x3F000000#32

/-- A length-C vector as the [1, C] row a layer takes its bias as, and a length-E vector as an [E, 1] column. -/
def row {C : Nat} (b : (⟨1, ![C]⟩ : Shape).Idx → EReal) : (⟨2, ![1, C]⟩ : Shape).Idx → EReal := fun i => b (ix1 (i 1))
def col {E : Nat} (d : (⟨1, ![E]⟩ : Shape).Idx → EReal) : (⟨2, ![E, 1]⟩ : Shape).Idx → EReal := fun i => d (ix1 (i 0))

/-- A dense layer: entry (r, j) of X · W plus the bias row's entry j. -/
def lin {R K C : Nat} (X : (⟨2, ![R, K]⟩ : Shape).Idx → EReal) (W : (⟨2, ![K, C]⟩ : Shape).Idx → EReal)
    (B : (⟨2, ![1, C]⟩ : Shape).Idx → EReal) : (⟨2, ![R, C]⟩ : Shape).Idx → EReal :=
  fun i => mm X W i + B (ix2 (0 : Fin 1) (i 1))

/-- The cosine cutoff of row r's distance d: one half of (cos (d · π/10) + 1). -/
def cutoff {R : Nat} (D : (⟨2, ![R, 1]⟩ : Shape).Idx → EReal) (r : Fin R) : EReal :=
  half * (Ideal.cos (D (ix2 r (0 : Fin 1)) * kpi) + one)

/-- Two dense layers with the shifted softplus between them. -/
def mlp {R K C C' : Nat} (X : (⟨2, ![R, K]⟩ : Shape).Idx → EReal) (W1 : (⟨2, ![K, C]⟩ : Shape).Idx → EReal)
    (B1 : (⟨2, ![1, C]⟩ : Shape).Idx → EReal) (W2 : (⟨2, ![C, C']⟩ : Shape).Idx → EReal)
    (B2 : (⟨2, ![1, C']⟩ : Shape).Idx → EReal) : (⟨2, ![R, C']⟩ : Shape).Idx → EReal :=
  lin (fun i' => ssp (lin X W1 B1 i')) W2 B2

/-- The edge filter: the two-layer filter network of an edge's features, times the edge's cutoff. -/
def edgeFilter {E K C C' : Nat} (A : (⟨2, ![E, K]⟩ : Shape).Idx → EReal) (D : (⟨2, ![E, 1]⟩ : Shape).Idx → EReal)
    (W1 : (⟨2, ![K, C]⟩ : Shape).Idx → EReal) (B1 : (⟨2, ![1, C]⟩ : Shape).Idx → EReal)
    (W2 : (⟨2, ![C, C']⟩ : Shape).Idx → EReal) (B2 : (⟨2, ![1, C']⟩ : Shape).Idx → EReal) :
    (⟨2, ![E, C']⟩ : Shape).Idx → EReal :=
  fun i => mlp A W1 B1 W2 B2 i * cutoff D (i 0)

/-- Two dense layers agree at an entry when their inputs agree on the entry's row and their weights and biases
    on its column. -/
theorem lin_congr {R R' K C : Nat} {X : (⟨2, ![R, K]⟩ : Shape).Idx → EReal} {X' : (⟨2, ![R', K]⟩ : Shape).Idx → EReal}
    {W W' : (⟨2, ![K, C]⟩ : Shape).Idx → EReal} {B B' : (⟨2, ![1, C]⟩ : Shape).Idx → EReal}
    (i : (⟨2, ![R, C]⟩ : Shape).Idx) (i' : (⟨2, ![R', C]⟩ : Shape).Idx) (h1 : i 1 = i' 1)
    (hX : ∀ k : Fin K, X (ix2 (i 0) k) = X' (ix2 (i' 0) k)) (hW : W = W') (hB : B = B') :
    lin X W B i = lin X' W' B' i' := by
  subst hW hB
  unfold lin mm
  rw [h1]
  exact congrArg (· + B (ix2 (0 : Fin 1) (i' 1))) (Finset.sum_congr rfl fun k _ => by rw [hX k])

end Cert.Dense

end
-- ==== Proof.Layers.lean ====
/-
  The layers of the network, entry by entry, on the extended reals.

  A matrix is a function of a two-coordinate index into the extended reals. On top of the dense layer
  (entry (r, j) of X · W plus the bias row's entry j) the network uses: the exponential linear unit, z where
  0 < z and exp z - 1 elsewhere; a bias row added to every row and the unit applied; and the logarithm of the
  softmax of each row of the classifier's logits, with the row's maximum subtracted first:
  (l - max) - log (sum over the row of exp (l - max)).
-/
import proofs.«180035_j36816459661702_1_alg».proof.Proof.LibDense

noncomputable section

namespace Cert.Net

open Idealize.ShloMosaic Idealize.ShloMosaic.ValueIdx Cert.Dense

/-- Zero, one and minus infinity as the float words both programs spell. -/
abbrev zero : EReal := Ideal.ofBits .f32 0x00000000#32
abbrev unit : EReal := Ideal.ofBits .f32 0x3F800000#32
abbrev ninf : EReal := Ideal.ofBits .f32 0xFF800000#32

/-- The exponential linear unit of one extended real: z where 0 < z, exp z - 1 elsewhere. -/
def elu (z : EReal) : EReal := Scalar.select (Ideal.cmp .ogt z zero) z (Ideal.exp z - unit)

/-- A bias row added to every row of a matrix, then the unit, entry by entry. -/
def biasElu {R C : Nat} (X : (⟨2, ![R, C]⟩ : Shape).Idx → EReal) (B : (⟨2, ![1, C]⟩ : Shape).Idx → EReal) :
    (⟨2, ![R, C]⟩ : Shape).Idx → EReal :=
  fun i => elu (X i + B (ix2 (0 : Fin 1) (i 1)))

/-- A dense layer followed by the unit. -/
def linElu {R K C : Nat} (X : (⟨2, ![R, K]⟩ : Shape).Idx → EReal) (W : (⟨2, ![K, C]⟩ : Shape).Idx → EReal)
    (B : (⟨2, ![1, C]⟩ : Shape).Idx → EReal) : (⟨2, ![R, C]⟩ : Shape).Idx → EReal :=
  fun i => elu (lin X W B i)

/-- The largest entry of row r, as a fold of max from minus infinity over the row's columns. -/
def rowMax {R C : Nat} (L : (⟨2, ![R, C]⟩ : Shape).Idx → EReal) (r : Fin R) : EReal :=
  (Finset.univ : Finset (Fin C)).fold max ninf fun k => L (ix2 r k)

/-- The logarithm of the softmax of each row: the entry less the row's maximum, less the logarithm of the row's sum
    of exponentials of such differences. -/
def logSoftmax {R C : Nat} (L : (⟨2, ![R, C]⟩ : Shape).Idx → EReal) : (⟨2, ![R, C]⟩ : Shape).Idx → EReal :=
  fun i => (L i - rowMax L (i 0)) - Ideal.log (∑ k : Fin C, Ideal.exp (L (ix2 (i 0) k) - rowMax L (i 0)))

/-- The classifier head: the two branches added, a dense layer, the logarithm of the softmax of each row. -/
def head {R K C : Nat} (X1 X2 : (⟨2, ![R, K]⟩ : Shape).Idx → EReal) (W : (⟨2, ![K, C]⟩ : Shape).Idx → EReal)
    (B : (⟨2, ![1, C]⟩ : Shape).Idx → EReal) : (⟨2, ![R, C]⟩ : Shape).Idx → EReal :=
  logSoftmax (lin (fun i => X1 i + X2 i) W B)

end Cert.Net

end
-- ==== Proof.Region0.lean ====
/-
  The value region 0 of the kernel program leaves in its output array, as one function of the region's input
  arrays, on the extended reals.

  The region's grid has 10 points; point t works on rows 5000 t … 5000 t + 4999 of the row-blocked operands and on
  the whole weight matrix and bias row. Its body stores the product of the input block and the weights plus the bias row. Entry (r, j) of that value depends only on row r of the
  input, column j of the weights and entry j of the bias row, so each point's block is the restriction of one
  whole-array function to the point's rows, and the ten blocks tile the output array.
-/
import proofs.«180035_j36816459661702_1_alg».proof.Proof.Gen.KernelIdeal.Frame
import proofs.«180035_j36816459661702_1_alg».proof.Proof.LibDense
import proofs.«180035_j36816459661702_1_alg».proof.Proof.Layers
import Idealize.ShloMosaic.Lib.Pipeline.Value
import Idealize.ShloMosaic.Lib.ValueLayout

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as the constant function. -/
theorem zero_off0 : (![0, 0] : Fin 2 → Nat) = fun _ => 0 := funext fun a => by fin_cases a <;> rfl

/-- The body's stored value at an index: the product's entry plus the bias row's entry. -/
theorem pay0_apply (x0 : Vec Ideal S5000x128 .f32) (x1 : Vec Ideal S128x96 .f32) (x2 : Vec Ideal S1x96 .f32)
    (j : S5000x96.Idx) : k0_pay1 x0 x1 x2 j = Cert.Dense.lin x0 x1 x2 j := by
  obtain ⟨p, q, rfl⟩ : ∃ (p : Fin 5000) (q : Fin 96), j = ix2 p q := ⟨j 0, j 1, eq_ix2 j⟩
  unfold k0_pay1 Cert.Dense.lin
  rw [addf_apply]
  refine congrArg₂ (· + ·) ?_ ?_
  · exact Cert.Dense.matmul_zero_eq dot_S5000x128_S128x96_S5000x96_1_0_0_1_n_n rfl rfl (fun _ _ => rfl) (fun _ _ => rfl)
      (fun _ _ => rfl) (fun _ _ => rfl) none _ _ (ix2 p q)
  · rw [shapeCast_self]
    exact broadcastTo_1b_ab_apply x2 _ p q

/-- The index maps over the grid: the row-blocked operands' block index is (t, 0), the weights' and the bias
    row's is (0, 0). -/
theorem index_maps0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input's block at point t, read at (p, k), is the input array at row 5000 t + p. -/
theorem block_rows0 (c : Dev nD) (t : Fin cfg0.N) (y : S5000x128.Idx) (i : S50000x128.Idx)
    (h0 : (i 0).val = t.val * 5000 + (y 0).val) (h1 : (i 1).val = (y 1).val) :
    (iblk0 V c 0 t : Vec Ideal S5000x128 .f32) y = (V c main_arg0 : S50000x128.Idx → EReal) i := by
  obtain ⟨e0, e1, -⟩ := index_maps0 t
  unfold iblk0
  rw [View.read_apply]
  show V c main_arg0 _ = V c main_arg0 _
  refine congrArg _ (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weights' block at every point is the whole weight matrix. -/
theorem block_weights0 (c : Dev nD) (t : Fin cfg0.N) :
    (iblk0 V c 1 t : Vec Ideal S128x96 .f32) = (V c main_arg3 : S128x96.Idx → EReal) := by
  obtain ⟨-, -, e0, e1, -⟩ := index_maps0 t
  funext y
  unfold iblk0
  rw [View.read_apply]
  show V c main_arg3 _ = V c main_arg3 _
  refine congrArg _ (funext fun a => Fin.ext ?_)
  match a with
  | ⟨0, _⟩ => show win0_1.index t (0 : Fin 2) * 128 + 1 * (y 0).val = (y 0).val; rw [e0]; omega
  | ⟨1, _⟩ => show win0_1.index t (1 : Fin 2) * 96 + 1 * (y 1).val = (y 1).val; rw [e1]; omega

/-- The bias row's block at every point is the whole row. -/
theorem block_bias0 (c : Dev nD) (t : Fin cfg0.N) :
    (iblk0 V c 2 t : Vec Ideal S1x96 .f32) = (V c main_v33 : S1x96.Idx → EReal) := by
  obtain ⟨-, -, -, -, e0, e1, -⟩ := index_maps0 t
  funext y
  unfold iblk0
  rw [View.read_apply]
  show V c main_v33 _ = V c main_v33 _
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 96 + 1 * (y 1).val = (y 1).val; rw [e1]; omega

/-- The layer of the blocks at point t, at (p, j), is the layer of the whole arrays at (5000 t + p, j). -/
theorem block_layer0 (c : Dev nD) (t : Fin cfg0.N) (y : S5000x96.Idx) (i : S50000x96.Idx)
    (h0 : (i 0).val = t.val * 5000 + (y 0).val) (h1 : (i 1).val = (y 1).val) :
    Cert.Dense.lin (iblk0 V c 0 t : Vec Ideal S5000x128 .f32) (iblk0 V c 1 t : Vec Ideal S128x96 .f32)
        (iblk0 V c 2 t : Vec Ideal S1x96 .f32) y
      = Cert.Dense.lin (V c main_arg0 : S50000x128.Idx → EReal) (V c main_arg3 : S128x96.Idx → EReal) (V c main_v33 : S1x96.Idx → EReal) i := by
  refine Cert.Dense.lin_congr y i (Fin.ext h1.symm) (fun k => ?_) (block_weights0 V c t) (block_bias0 V c t)
  exact block_rows0 V c t _ _ h0 rfl

/-- What point t writes back is block t of the layer of the whole arrays. -/
theorem flushed0_eq (c : Dev nD) (t : Fin cfg0.N) :
    (dat0 V c).flushed 3 t = ((cfg0.win 3).blk t).view.read (Elt Ideal)
      (Cert.Dense.lin (R := 50000) (K := 128) (C := 96) (V c main_arg0) (V c main_arg3) (V c main_v33)) := by
  show (cfg0.win 3).cut (grid0.coords t) ((dat0 V c).after 3 t) = _
  rw [after0_3]
  unfold out0_3
  rw [View.canon_unit_zero zero_off0]
  simp only [View.ld_unit_zero (S := S5000x128) zero_off0, View.ld_unit_zero (S := S128x96) zero_off0,
    View.ld_unit_zero (S := S1x96) zero_off0]
  obtain ⟨-, -, -, -, -, -, e0, e1⟩ := index_maps0 t
  funext j
  refine (pay0_apply (iblk0 V c 0 t) (iblk0 V c 1 t) (iblk0 V c 2 t) j).trans ?_
  refine block_layer0 V c t j (((cfg0.win 3).blk t).view.emb j) ?_ ?_
  · show win0_3.index t (0 : Fin 2) * 5000 + 1 * (j 0).val = _; rw [e0]; omega
  · show win0_3.index t (1 : Fin 2) * 96 + 1 * (j 1).val = _; rw [e1]; omega

/-- An index of the output array is in point t's block iff each coordinate is in the block's range on its axis. -/
theorem mem_block0 (t : Fin cfg0.N) (i : S50000x96.Idx) :
    i ∈ ((cfg0.win 3).blk t).view.set ↔ ∀ a : Fin 2, win0_3.index t a * S5000x96.size a ≤ (i a).val ∧ (i a).val < win0_3.index t a * S5000x96.size a + S5000x96.size a := by
  show i ∈ ((View.whole main_v34).slice (win0_3.rect t)).set ↔ _
  rw [View.set_slice_whole, Rect.mem_set_unit]
  exact Iff.rfl

/-- Every index of the output array is in the block of the point that holds its row: row r is in block r / 5000. -/
theorem covered0 (i : S50000x96.Idx) :
    ∃ t : Fin cfg0.N, (cfg0.win 3).flush t = true ∧ i ∈ ((cfg0.win 3).blk t).view.set := by
  have hi0 : (i 0).val < 50000 := (i 0).isLt
  have hi1 : (i 1).val < 96 := (i 1).isLt
  have hN : cfg0.N = 10 := N_0
  refine ⟨⟨(i 0).val / 5000, by rw [hN]; omega⟩, flush0_3 _, ?_⟩
  rw [mem_block0]
  obtain ⟨-, -, -, -, -, -, e0, e1⟩ := index_maps0 ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 96 ≤ (i 1).val ∧ (i 1).val < win0_3.index _ (1 : Fin 2) * 96 + 96
    rw [e1]; omega

/-- The output array after the region: the layer of the region's input arrays as the region finds them. -/
theorem final0 (c : Dev nD) :
    (dat0 (F := Ideal) V c).arrAt 3 cfg0.N
      = Cert.Dense.lin (R := 50000) (K := 128) (C := 96) (V c main_arg0) (V c main_arg3) (V c main_v33) :=
  (dat0 V c).arrAt_eq_of_cover 3 _ (fun t _ => flushed0_eq V c t) (covered0)

end Cert.KernelIdeal.RegVal

end
-- ==== Proof.Region1.lean ====
/-
  Region 1 of the kernel program: a bias row added to every row of a [50000, 96] matrix, then the exponential
  linear unit, computed ten blocks of 5000 rows at a time.

  What one grid point stores is, entry by entry, the unit of the block's entry plus the bias row's entry of the
  same column (the payload read at an index). Block t of the input window is rows 5000 t … 5000 t + 4999 of the
  matrix, the bias window is the whole row at every point, and block t of the output window is the same rows of
  the output; so what point t writes back is block t of ONE function of the two arrays, the ten blocks cover the
  output, and the output array ends as that function.
-/
import proofs.«180035_j36816459661702_1_alg».proof.Proof.Gen.KernelIdeal.Frame
import proofs.«180035_j36816459661702_1_alg».proof.Proof.LibDense
import proofs.«180035_j36816459661702_1_alg».proof.Proof.Layers
import Idealize.ShloMosaic.Lib.Pipeline.Value
import Idealize.ShloMosaic.Lib.ValueLayout

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem zeroOffsets1 : (![0, 0] : Fin 2 → Nat) = fun _ => 0 := funext fun a => by fin_cases a <;> rfl

/-- The exponential of a vector of extended reals, read at an index. -/
theorem expAt1 {s : Shape} {φ : FTy} (x : FVec Ideal s φ) (i : s.Idx) :
    Idealize.ShloMosaic.exp x i = Ideal.exp (x i) := rfl

/-- The stored value at row p, column q of a block: the unit of the block's entry plus the bias row's entry q. -/
theorem biasEluAt1 (x0 : Vec Ideal S5000x96 .f32) (x1 : Vec Ideal S1x96 .f32) (p : Fin 5000) (q : Fin 96) :
    k1_pay1 x0 x1 (ix2 p q) = Cert.Net.elu (x0 (ix2 p q) + x1 (ix2 (0 : Fin 1) q)) := by
  unfold k1_pay1
  simp only [select_apply, cmpf_apply, subf_apply, addf_apply, broadcast_apply, shapeCast_self, expAt1,
    broadcastTo_1b_ab_apply]
  rfl

/-- The block indices over the grid: at point t the matrix window and the output window are at block row t, block
    column 0, and the bias window at block (0, 0). -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the bias-and-unit function of the two arrays as the region finds them. -/
theorem flushedBiasElu1 (c : Dev nD) (t : Fin cfg1.N) :
    (dat1 V c).flushed 2 t = ((cfg1.win 2).blk t).view.read (Elt Ideal)
      (Cert.Net.biasElu (V c main_v47 : S50000x96.Idx → EReal) (V c main_v48 : S1x96.Idx → EReal)) := by
  show (cfg1.win 2).cut (grid1.coords t) ((dat1 V c).after 2 t) = _
  rw [after1_2]
  unfold out1_2
  rw [View.canon_unit_zero zeroOffsets1]
  simp only [View.ld_unit_zero (S := S5000x96) zeroOffsets1, View.ld_unit_zero (S := S1x96) zeroOffsets1]
  obtain ⟨e0, e1, e2, e3, e4, e5⟩ := blockIndex1 t
  funext j
  obtain ⟨p, q, rfl⟩ : ∃ (p : Fin 5000) (q : Fin 96), j = ix2 p q := ⟨j 0, j 1, eq_ix2 j⟩
  show k1_pay1 (iblk1 V c 0 t) (iblk1 V c 1 t) (ix2 p q)
    = Cert.Net.biasElu (V c main_v47 : S50000x96.Idx → EReal) (V c main_v48 : S1x96.Idx → EReal) (((cfg1.win 2).blk t).view.emb (ix2 p q))
  refine (biasEluAt1 (iblk1 V c 0 t) (iblk1 V c 1 t) p q).trans ?_
  have hp : p.val < 5000 := p.isLt
  have hq : q.val < 96 := q.isLt
  have h0 : iblk1 V c 0 t (ix2 p q) = V c main_v47 (((cfg1.win 2).blk t).view.emb (ix2 p q)) := by
    show V c main_v47 (((cfg1.win 0).blk t).view.emb (ix2 p q)) = V c main_v47 (((cfg1.win 2).blk t).view.emb (ix2 p q))
    refine congrArg _ ?_
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 96 + 1 * q.val = win1_2.index t (1 : Fin 2) * 96 + 1 * q.val; omega
  have h1 : iblk1 V c 1 t (ix2 (0 : Fin 1) q)
      = V c main_v48 (ix2 (0 : Fin 1) ((((cfg1.win 2).blk t).view.emb (ix2 p q)) 1)) := by
    show V c main_v48 (((cfg1.win 1).blk t).view.emb (ix2 (0 : Fin 1) q)) = _
    refine congrArg _ ?_
    funext a; apply Fin.ext
    match a with
    | ⟨0, _⟩ => show win1_1.index t (0 : Fin 2) * 1 + 1 * 0 = 0; omega
    | ⟨1, _⟩ => show win1_1.index t (1 : Fin 2) * 96 + 1 * q.val = win1_2.index t (1 : Fin 2) * 96 + 1 * q.val; omega
  rw [h0, h1]
  rfl

/-- An index of the output array is in point t's block iff each coordinate is in the block's range on its axis. -/
theorem memBlock1 (t : Fin cfg1.N) (i : S50000x96.Idx) :
    i ∈ ((cfg1.win 2).blk t).view.set ↔ ∀ a : Fin 2, win1_2.index t a * S5000x96.size a ≤ (i a).val
      ∧ (i a).val < win1_2.index t a * S5000x96.size a + S5000x96.size a := by
  show i ∈ ((View.whole main_v49).slice (win1_2.rect t)).set ↔ _
  rw [View.set_slice_whole, Rect.mem_set_unit]
  exact Iff.rfl

/-- Every index of the output array is in the block of the point its row falls in: row r is in block r / 5000. -/
theorem covered1 (i : S50000x96.Idx) :
    ∃ t : Fin cfg1.N, (cfg1.win 2).flush t = true ∧ i ∈ ((cfg1.win 2).blk t).view.set := by
  have hi0 : (i 0).val < 50000 := (i 0).isLt
  have hi1 : (i 1).val < 96 := (i 1).isLt
  have hN : cfg1.N = 10 := N_1
  have ht : (i 0).val / 5000 < cfg1.N := by rw [hN]; omega
  obtain ⟨e0, e1, e2, e3, e4, e5⟩ := blockIndex1 ⟨(i 0).val / 5000, ht⟩
  have e4' : win1_2.index ⟨(i 0).val / 5000, ht⟩ (0 : Fin 2) = (i 0).val / 5000 := e4
  refine ⟨⟨(i 0).val / 5000, ht⟩, flush1_2 _, ?_⟩
  rw [memBlock1]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    omega
  | ⟨1, _⟩ =>
    show win1_2.index ⟨(i 0).val / 5000, ht⟩ (1 : Fin 2) * 96 ≤ (i 1).val
      ∧ (i 1).val < win1_2.index ⟨(i 0).val / 5000, ht⟩ (1 : Fin 2) * 96 + 96
    omega

/-- The output array after the region: the bias row added to every row of the input array, then the unit. -/
theorem final1 (c : Dev nD) :
    (Gen.dat1 (F := Ideal) V c).arrAt 2 cfg1.N
      = Cert.Net.biasElu (V c main_v47 : S50000x96.Idx → EReal) (V c main_v48 : S1x96.Idx → EReal) :=
  (dat1 V c).arrAt_eq_of_cover 2 _ (fun t _ => flushedBiasElu1 V c t) covered1

end Cert.KernelIdeal.RegVal

end
-- ==== Proof.Region2.lean ====
/-
  The value region 2 of the kernel program leaves in its output array, as one function of the region's input
  arrays, on the extended reals.

  The region's grid has 10 points; point t works on rows 5000 t … 5000 t + 4999 of the row-blocked operands and on
  the whole weight matrix and bias row. Its body stores the exponential linear unit of the product of the input block and the weights plus the bias row. Entry (r, j) of that value depends only on row r of the
  input, column j of the weights and entry j of the bias row, so each point's block is the restriction of one
  whole-array function to the point's rows, and the ten blocks tile the output array.
-/
import proofs.«180035_j36816459661702_1_alg».proof.Proof.Gen.KernelIdeal.Frame
import proofs.«180035_j36816459661702_1_alg».proof.Proof.LibDense
import proofs.«180035_j36816459661702_1_alg».proof.Proof.Layers
import Idealize.ShloMosaic.Lib.Pipeline.Value
import Idealize.ShloMosaic.Lib.ValueLayout

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as the constant function. -/
theorem zero_off2 : (![0, 0] : Fin 2 → Nat) = fun _ => 0 := funext fun a => by fin_cases a <;> rfl

/-- The dense part of the body's stored value at an index: the product's entry plus the bias row's entry. -/
theorem dense2_apply (x0 : Vec Ideal S5000x128 .f32) (x1 : Vec Ideal S128x96 .f32) (x2 : Vec Ideal S1x96 .f32)
    (j : S5000x96.Idx) : k0_pay1 x0 x1 x2 j = Cert.Dense.lin x0 x1 x2 j := by
  obtain ⟨p, q, rfl⟩ : ∃ (p : Fin 5000) (q : Fin 96), j = ix2 p q := ⟨j 0, j 1, eq_ix2 j⟩
  unfold k0_pay1 Cert.Dense.lin
  rw [addf_apply]
  refine congrArg₂ (· + ·) ?_ ?_
  · exact Cert.Dense.matmul_zero_eq dot_S5000x128_S128x96_S5000x96_1_0_0_1_n_n rfl rfl (fun _ _ => rfl) (fun _ _ => rfl)
      (fun _ _ => rfl) (fun _ _ => rfl) none _ _ (ix2 p q)
  · rw [shapeCast_self]
    exact broadcastTo_1b_ab_apply x2 _ p q

/-- The body's stored value at an index: the exponential linear unit of the dense layer's entry. The comparison
    with zero, the exponential and the subtraction of one read through the index, element by element. -/
theorem pay2_apply (x0 : Vec Ideal S5000x128 .f32) (x1 : Vec Ideal S128x96 .f32) (x2 : Vec Ideal S1x96 .f32)
    (j : S5000x96.Idx) : k2_pay1 x0 x1 x2 j = Cert.Net.linElu x0 x1 x2 j := by
  have h : k2_pay1 x0 x1 x2 j = Cert.Net.elu (k0_pay1 x0 x1 x2 j) := rfl
  rw [h, dense2_apply]
  rfl

/-- The index maps over the grid: the row-blocked operands' block index is (t, 0), the weights' and the bias
    row's is (0, 0). -/
theorem index_maps2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input's block at point t, read at (p, k), is the input array at row 5000 t + p. -/
theorem block_rows2 (c : Dev nD) (t : Fin cfg2.N) (y : S5000x128.Idx) (i : S50000x128.Idx)
    (h0 : (i 0).val = t.val * 5000 + (y 0).val) (h1 : (i 1).val = (y 1).val) :
    (iblk2 V c 0 t : Vec Ideal S5000x128 .f32) y = (V c main_arg0 : S50000x128.Idx → EReal) i := by
  obtain ⟨e0, e1, -⟩ := index_maps2 t
  unfold iblk2
  rw [View.read_apply]
  show V c main_arg0 _ = V c main_arg0 _
  refine congrArg _ (funext fun a => Fin.ext ?_)
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- The weights' block at every point is the whole weight matrix. -/
theorem block_weights2 (c : Dev nD) (t : Fin cfg2.N) :
    (iblk2 V c 1 t : Vec Ideal S128x96 .f32) = (V c main_arg9 : S128x96.Idx → EReal) := by
  obtain ⟨-, -, e0, e1, -⟩ := index_maps2 t
  funext y
  unfold iblk2
  rw [View.read_apply]
  show V c main_arg9 _ = V c main_arg9 _
  refine congrArg _ (funext fun a => Fin.ext ?_)
  match a with
  | ⟨0, _⟩ => show win2_1.index t (0 : Fin 2) * 128 + 1 * (y 0).val = (y 0).val; rw [e0]; omega
  | ⟨1, _⟩ => show win2_1.index t (1 : Fin 2) * 96 + 1 * (y 1).val = (y 1).val; rw [e1]; omega

/-- The bias row's block at every point is the whole row. -/
theorem block_bias2 (c : Dev nD) (t : Fin cfg2.N) :
    (iblk2 V c 2 t : Vec Ideal S1x96 .f32) = (V c main_v50 : S1x96.Idx → EReal) := by
  obtain ⟨-, -, -, -, e0, e1, -⟩ := index_maps2 t
  funext y
  unfold iblk2
  rw [View.read_apply]
  show V c main_v50 _ = V c main_v50 _
  refine congrArg _ (funext fun a => Fin.ext ?_)
  match a with
  | ⟨0, _⟩ => show win2_2.index t (0 : Fin 2) * 1 + 1 * (y 0).val = (y 0).val; rw [e0]; omega
  | ⟨1, _⟩ => show win2_2.index t (1 : Fin 2) * 96 + 1 * (y 1).val = (y 1).val; rw [e1]; omega

/-- The layer of the blocks at point t, at (p, j), is the layer of the whole arrays at (5000 t + p, j). -/
theorem block_layer2 (c : Dev nD) (t : Fin cfg2.N) (y : S5000x96.Idx) (i : S50000x96.Idx)
    (h0 : (i 0).val = t.val * 5000 + (y 0).val) (h1 : (i 1).val = (y 1).val) :
    Cert.Net.linElu (iblk2 V c 0 t : Vec Ideal S5000x128 .f32) (iblk2 V c 1 t : Vec Ideal S128x96 .f32)
        (iblk2 V c 2 t : Vec Ideal S1x96 .f32) y
      = Cert.Net.linElu (V c main_arg0 : S50000x128.Idx → EReal) (V c main_arg9 : S128x96.Idx → EReal) (V c main_v50 : S1x96.Idx → EReal) i := by
  unfold Cert.Net.linElu
  refine congrArg Cert.Net.elu ?_
  refine Cert.Dense.lin_congr y i (Fin.ext h1.symm) (fun k => ?_) (block_weights2 V c t) (block_bias2 V c t)
  exact block_rows2 V c t _ _ h0 rfl

/-- What point t writes back is block t of the layer of the whole arrays. -/
theorem flushed2_eq (c : Dev nD) (t : Fin cfg2.N) :
    (dat2 V c).flushed 3 t = ((cfg2.win 3).blk t).view.read (Elt Ideal)
      (Cert.Net.linElu (R := 50000) (K := 128) (C := 96) (V c main_arg0) (V c main_arg9) (V c main_v50)) := by
  show (cfg2.win 3).cut (grid2.coords t) ((dat2 V c).after 3 t) = _
  rw [after2_3]
  unfold out2_3
  rw [View.canon_unit_zero zero_off2]
  simp only [View.ld_unit_zero (S := S5000x128) zero_off2, View.ld_unit_zero (S := S128x96) zero_off2,
    View.ld_unit_zero (S := S1x96) zero_off2]
  obtain ⟨-, -, -, -, -, -, e0, e1⟩ := index_maps2 t
  funext j
  refine (pay2_apply (iblk2 V c 0 t) (iblk2 V c 1 t) (iblk2 V c 2 t) j).trans ?_
  refine block_layer2 V c t j (((cfg2.win 3).blk t).view.emb j) ?_ ?_
  · show win2_3.index t (0 : Fin 2) * 5000 + 1 * (j 0).val = _; rw [e0]; omega
  · show win2_3.index t (1 : Fin 2) * 96 + 1 * (j 1).val = _; rw [e1]; omega

/-- An index of the output array is in point t's block iff each coordinate is in the block's range on its axis. -/
theorem mem_block2 (t : Fin cfg2.N) (i : S50000x96.Idx) :
    i ∈ ((cfg2.win 3).blk t).view.set ↔ ∀ a : Fin 2, win2_3.index t a * S5000x96.size a ≤ (i a).val ∧ (i a).val < win2_3.index t a * S5000x96.size a + S5000x96.size a := by
  show i ∈ ((View.whole main_v51).slice (win2_3.rect t)).set ↔ _
  rw [View.set_slice_whole, Rect.mem_set_unit]
  exact Iff.rfl

/-- Every index of the output array is in the block of the point that holds its row: row r is in block r / 5000. -/
theorem covered2 (i : S50000x96.Idx) :
    ∃ t : Fin cfg2.N, (cfg2.win 3).flush t = true ∧ i ∈ ((cfg2.win 3).blk t).view.set := by
  have hi0 : (i 0).val < 50000 := (i 0).isLt
  have hi1 : (i 1).val < 96 := (i 1).isLt
  have hN : cfg2.N = 10 := N_2
  refine ⟨⟨(i 0).val / 5000, by rw [hN]; omega⟩, flush2_3 _, ?_⟩
  rw [mem_block2]
  obtain ⟨-, -, -, -, -, -, e0, e1⟩ := index_maps2 ⟨(i 0).val / 5000, by rw [hN]; omega⟩
  intro a
  match a with
  | ⟨0, _⟩ =>
    show win2_3.index _ (0 : Fin 2) * 5000 ≤ (i 0).val ∧ (i 0).val < win2_3.index _ (0 : Fin 2) * 5000 + 5000
    rw [e0]; show (i 0).val / 5000 * 5000 ≤ (i 0).val ∧ (i 0).val < (i 0).val / 5000 * 5000 + 5000; omega
  | ⟨1, _⟩ =>
    show win2_3.index _ (1 : Fin 2) * 96 ≤ (i 1).val ∧ (i 1).val < win2_3.index _ (1 : Fin 2) * 96 + 96
    rw [e1]; omega

/-- The output array after the region: the layer of the region's input arrays as the region finds them. -/
theorem final2 (c : Dev nD) :
    (dat2 (F := Ideal) V c).arrAt 3 cfg2.N
      = Cert.Net.linElu (R := 50000) (K := 128) (C := 96) (V c main_arg0) (V c main_arg9) (V c main_v50) :=
  (dat2 V c).arrAt_eq_of_cover 3 _ (fun t _ => flushed2_eq V c t) (covered2)

end Cert.KernelIdeal.RegVal

end
-- ==== Proof.Region3.lean ====
/-
  The value region 3 of the kernel program leaves in its output array, as one function of the region's input
  arrays, on the extended reals.

  The region's grid has 10 points; point t works on rows 5000 t … 5000 t + 4999 of the row-blocked operands and on
  the whole weight matrix and bias row. Its body stores the product of the input block and the weights plus the bias row. Entry (r, j) of that value depends only on row r of the
  input, column j of the weights and entry j of the bias row, so each point's block is the restriction of one
  whole-array function to the point's rows, and the ten blocks tile the output array.
-/
import proofs.«180035_j36816459661702_1_alg».proof.Proof.Gen.KernelIdeal.Frame
import proofs.«180035_j36816459661702_1_alg».proof.Proof.LibDense
import proofs.«180035_j36816459661702_1_alg».proof.Proof.Layers
import Idealize.ShloMosaic.Lib.Pipeline.Value
import Idealize.ShloMosaic.Lib.ValueLayout

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as the constant function. -/
theorem zero_off3 : (![0, 0] : Fin 2 → Nat) = fun _ => 0 := funext fun a => by fin_cases a <;> rfl

/-- The body's stored value at an index: the product's entry plus the bias row's entry. -/
theorem pay3_apply (x0 : Vec Ideal S5000x96 .f32) (x1 : Vec Ideal S96x96 .f32) (x2 : Vec Ideal S1x96 .f32)
    (j : S5000x96.Idx) : k3_pay1 x0 x1 x2 j = Cert.Dense.lin x0 x1 x2 j := by
  obtain ⟨p, q, rfl⟩ : ∃ (p : Fin 5000) (q : Fin 96), j = ix2 p q := ⟨j 0, j 1, eq_ix2 j⟩
  unfold k3_pay1 Cert.Dense.lin
  rw [addf_apply, shapeCast_self, shapeCast_self]
  refine congrArg₂ (· + ·) ?_ ?_
  · exact Cert.Dense.matmul_zero_eq dot_S5000x96_S96x96_S5000x96_1_0_0_1_n_n rfl rfl (fun _ _ => rfl) (fun _ _ => rfl)
      (fun _ _ => rfl) (fun _ _ => rfl) none _ _ (ix2 p q)
  · exact broadcastTo_1b_ab_apply x2 _ p q

/-- The index maps over the grid: the row-blocked operands' block index is (t, 0), the weights' and the bias
    row's is (0, 0). -/
theorem index_maps3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The input's block at point t, read at (p, k), is the input array at row 5000 t + p. -/
theorem block_rows3 (c : Dev nD) (t : Fin cfg3.N) (y : S5000x96.Idx) (i : S50000x96.Idx)
    (h0 : (i 0).val = t.val * 5000 + (y 0).val) (h1 : (i 1).val = (y 1).val) :
    (iblk3 V c 0 t : Vec Ideal S5000x96 .f32) y = (V c main_v51 : S50000x96.Idx → EReal) i := by
  obtain ⟨e0, e1, -⟩ := index_maps3 t
  unfold iblk3
  rw [View.read_apply]
  show V c main_v51 _ = V c main_v51 _
  refine congrArg _ (funext fun a => Fin.ext ?_)
  match a with
  | ⟨0, _⟩ => show win3_0.index t (0 : Fin 2) * 5000 + 1 * (y 0).val = (i 0).val; rw [e0, h0]; omega
  | ⟨1, _⟩ => show win3_0.index t (1 : Fin 2) * 96 + 1 * (y 1).val = (i 1).val; rw [e1, h1]; omega

/-- The weights' block at every point is the whole weight matrix. -/
theorem block_weights3 (c : Dev nD) (t : Fin cfg3.N) :
    (iblk3 V c 1 t : Vec Ideal S96x96 .f32) = (V c main_arg5 : S96x96.Idx → EReal) := by
  obtain ⟨-, -, e0, e1, -⟩ := index_maps3 t
  funext y
  unfold iblk3
  rw [View.read_apply]
  show V c main_arg5 _ = V c main_arg5 _
  refine congrArg _ (funext fun a => Fin.ext ?_)
  match a with
  | ⟨0, _⟩ => show win3_1.index t (0 : Fin 2) * 96 + 1 * (y 0).val = (y 0).val; rw [e0]; omega
  | ⟨1, _⟩ => show win3_1.index t (1 : Fin 2) * 96 + 1 * (y 1).val = (y 1).val; rw [e1]; omega

/-- The bias row's block at every point is the whole row. -/
theorem block_bias3 (c : Dev nD) (t : Fin cfg3.N) :
    (iblk3 V c 2 t : Vec Ideal S1x96 .f32) = (V c main_v52 : S1x96.Idx → EReal) := by
  obtain ⟨-, -, -, -, e0, e1, -⟩ := index_maps3 t
  funext y
  unfold iblk3
  rw [View.read_apply]
  show V c main_v52 _ = V c main_v52 _
  refine congrArg _ (funext fun a => Fin.ext ?_)
  match a with
  | ⟨0, _⟩ => show win3_2.index t (0 : Fin 2) * 1 + 1 * (y 0).val = (y 0).val; rw [e0]; omega
  | ⟨1, _⟩ => show win3_2.index t (1 : Fin 2) * 96 + 1 * (y 1).val = (y 1).val; rw [e1]; omega

/-- The layer of the blocks at point t, at (p, j), is the layer of the whole arrays at (5000 t + p, j). -/
theorem block_layer3 (c : Dev nD) (t : Fin cfg3.N) (y : S5000x96.Idx) (i : S50000x96.Idx)
    (h0 : (i 0).val = t.val * 5000 + (y 0).val) (h1 : (i 1).val = (y 1).val) :
    Cert.Dense.lin (iblk3 V c 0 t : Vec Ideal S5000x96 .f32) (iblk3 V c 1 t : Vec Ideal S96x96 .f32)
        (iblk3 V c 2 t : Vec Ideal S1x96 .f32) y
      = Cert.Dense.lin (V c main_v51 : S50000x96.Idx → EReal) (V c main_arg5 : S96x96.Idx → EReal) (V c main_v52 : S1x96.Idx → EReal) i := by
  refine Cert.Dense.lin_congr y i (Fin.ext h1.symm) (fun k => ?_) (block_weights3 V c t) (block_bias3 V c t)
  exact block_rows3 V c t _ _ h0 rfl

/-- What point t writes back is block t of the layer of the whole arrays. -/
theorem flushed3_eq (c : Dev nD) (t : Fin cfg3.N) :
    (dat3 V c).flushed 3 t = ((cfg3.win 3).blk t).view.read (Elt Ideal)
      (Cert.Dense.lin (R := 50000) (K := 96) (C := 96) (V c main_v51) (V c main_arg5) (V c main_v52)) := by
  show (cfg3.win 3).cut (grid3.coords t) ((dat3 V c).after 3 t) = _
  rw [after3_3]
  unfold out3_3
  rw [View.canon_unit_zero zero_off3]
  simp only [View.ld_unit_zero (S := S5000x96) zero_off3, View.ld_unit_zero (S := S96x96) zero_off3,
    View.ld_unit_zero (S := S1x96) zero_off3]
  obtain ⟨-, -, -, -, -, -, e0, e1⟩ := index_maps3 t
  funext j
  refine (pay3_apply (iblk3 V c 0 t) (iblk3 V c 1 t) (iblk3 V c 2 t) j).trans ?_
  refine block_layer3 V c t j (((cfg3.win 3).blk t).view.emb j) ?_ ?_
  · show win3_3.index t (0 : Fin 2) * 5000 + 1 * (j 0).val = _; rw [e0]; omega
  · show win3_3.index t (1 : Fin 2) * 96 + 1 * (j 1).val = _; rw [e1]; omega

/-- An index of the output array is in point t's block iff each coordinate is in the block's range on its axis. -/
theorem mem_block3 (t : Fin cfg3.N) (i : S50000x96.Idx) :
    i ∈ ((cfg3.win 3).blk t).view.set ↔ ∀ a : Fin 2, win3_3.index t a * S5000x96.size a ≤ (i a).val ∧ (i a).val < win3_3.index t a * S5000x96.size a + S5000x96.size a := by
  show i ∈ ((View.whole main_v53).slice (win3_3.rect t)).set ↔ _
  rw [View.set_slice_whole, Rect.mem_set_unit]
  exact Iff.rfl

/-- Every index of the output array is in the block of the point that holds its row: row r is in block r / 5000. -/
theorem covered3 (i : S50000x96.Idx) :
    ∃ t : Fin cfg3.N, (cfg3.win 3).flush t = true ∧ i ∈ ((cfg3.win 3).blk t).view.set := by
  have hi0 : (i 0).val < 50000 := (i 0).isLt
  have hi1 : (i 1).val < 96 := (i 1).isLt
  have hN : cfg3.N = 10 := N_3
  refine ⟨⟨(i 0).val / 5000, by rw [hN]; omega⟩, flush3_3 _, ?_⟩
  rw [mem_block3]
  obtain ⟨-, -, -, -, -, -, e0, e1⟩ := index_maps3 ⟨(i 0).val / 5000, by rw [hN]; omega⟩
  intro a
  match a with
  | ⟨0, _⟩ =>
    show win3_3.index _ (0 : Fin 2) * 5000 ≤ (i 0).val ∧ (i 0).val < win3_3.index _ (0 : Fin 2) * 5000 + 5000
    rw [e0]; show (i 0).val / 5000 * 5000 ≤ (i 0).val ∧ (i 0).val < (i 0).val / 5000 * 5000 + 5000; omega
  | ⟨1, _⟩ =>
    show win3_3.index _ (1 : Fin 2) * 96 ≤ (i 1).val ∧ (i 1).val < win3_3.index _ (1 : Fin 2) * 96 + 96
    rw [e1]; omega

/-- The output array after the region: the layer of the region's input arrays as the region finds them. -/
theorem final3 (c : Dev nD) :
    (dat3 (F := Ideal) V c).arrAt 3 cfg3.N
      = Cert.Dense.lin (R := 50000) (K := 96) (C := 96) (V c main_v51) (V c main_arg5) (V c main_v52) :=
  (dat3 V c).arrAt_eq_of_cover 3 _ (fun t _ => flushed3_eq V c t) (covered3)

end Cert.KernelIdeal.RegVal

end
-- ==== Proof.Region4.lean ====
/-
  Region 4 of the kernel program: a bias row added to every row of a [50000, 96] matrix, then the exponential
  linear unit, computed ten blocks of 5000 rows at a time.

  What one grid point stores is, entry by entry, the unit of the block's entry plus the bias row's entry of the
  same column (the payload read at an index). Block t of the input window is rows 5000 t … 5000 t + 4999 of the
  matrix, the bias window is the whole row at every point, and block t of the output window is the same rows of
  the output; so what point t writes back is block t of ONE function of the two arrays, the ten blocks cover the
  output, and the output array ends as that function.
-/
import proofs.«180035_j36816459661702_1_alg».proof.Proof.Gen.KernelIdeal.Frame
import proofs.«180035_j36816459661702_1_alg».proof.Proof.LibDense
import proofs.«180035_j36816459661702_1_alg».proof.Proof.Layers
import Idealize.ShloMosaic.Lib.Pipeline.Value
import Idealize.ShloMosaic.Lib.ValueLayout

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem zeroOffsets4 : (![0, 0] : Fin 2 → Nat) = fun _ => 0 := funext fun a => by fin_cases a <;> rfl

/-- The exponential of a vector of extended reals, read at an index. -/
theorem expAt4 {s : Shape} {φ : FTy} (x : FVec Ideal s φ) (i : s.Idx) :
    Idealize.ShloMosaic.exp x i = Ideal.exp (x i) := rfl

/-- The stored value at row p, column q of a block: the unit of the block's entry plus the bias row's entry q. -/
theorem biasEluAt4 (x0 : Vec Ideal S5000x96 .f32) (x1 : Vec Ideal S1x96 .f32) (p : Fin 5000) (q : Fin 96) :
    k4_pay1 x0 x1 (ix2 p q) = Cert.Net.elu (x0 (ix2 p q) + x1 (ix2 (0 : Fin 1) q)) := by
  unfold k4_pay1
  simp only [select_apply, cmpf_apply, subf_apply, addf_apply, broadcast_apply, shapeCast_self, expAt4,
    broadcastTo_1b_ab_apply]
  rfl

/-- The block indices over the grid: at point t the matrix window and the output window are at block row t, block
    column 0, and the bias window at block (0, 0). -/
theorem blockIndex4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the bias-and-unit function of the two arrays as the region finds them. -/
theorem flushedBiasElu4 (c : Dev nD) (t : Fin cfg4.N) :
    (dat4 V c).flushed 2 t = ((cfg4.win 2).blk t).view.read (Elt Ideal)
      (Cert.Net.biasElu (V c main_v66 : S50000x96.Idx → EReal) (V c main_v67 : S1x96.Idx → EReal)) := by
  show (cfg4.win 2).cut (grid4.coords t) ((dat4 V c).after 2 t) = _
  rw [after4_2]
  unfold out4_2
  rw [View.canon_unit_zero zeroOffsets4]
  simp only [View.ld_unit_zero (S := S5000x96) zeroOffsets4, View.ld_unit_zero (S := S1x96) zeroOffsets4]
  obtain ⟨e0, e1, e2, e3, e4, e5⟩ := blockIndex4 t
  funext j
  obtain ⟨p, q, rfl⟩ : ∃ (p : Fin 5000) (q : Fin 96), j = ix2 p q := ⟨j 0, j 1, eq_ix2 j⟩
  show k4_pay1 (iblk4 V c 0 t) (iblk4 V c 1 t) (ix2 p q)
    = Cert.Net.biasElu (V c main_v66 : S50000x96.Idx → EReal) (V c main_v67 : S1x96.Idx → EReal) (((cfg4.win 2).blk t).view.emb (ix2 p q))
  refine (biasEluAt4 (iblk4 V c 0 t) (iblk4 V c 1 t) p q).trans ?_
  have hp : p.val < 5000 := p.isLt
  have hq : q.val < 96 := q.isLt
  have h0 : iblk4 V c 0 t (ix2 p q) = V c main_v66 (((cfg4.win 2).blk t).view.emb (ix2 p q)) := by
    show V c main_v66 (((cfg4.win 0).blk t).view.emb (ix2 p q)) = V c main_v66 (((cfg4.win 2).blk t).view.emb (ix2 p q))
    refine congrArg _ ?_
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 96 + 1 * q.val = win4_2.index t (1 : Fin 2) * 96 + 1 * q.val; omega
  have h1 : iblk4 V c 1 t (ix2 (0 : Fin 1) q)
      = V c main_v67 (ix2 (0 : Fin 1) ((((cfg4.win 2).blk t).view.emb (ix2 p q)) 1)) := by
    show V c main_v67 (((cfg4.win 1).blk t).view.emb (ix2 (0 : Fin 1) q)) = _
    refine congrArg _ ?_
    funext a; apply Fin.ext
    match a with
    | ⟨0, _⟩ => show win4_1.index t (0 : Fin 2) * 1 + 1 * 0 = 0; omega
    | ⟨1, _⟩ => show win4_1.index t (1 : Fin 2) * 96 + 1 * q.val = win4_2.index t (1 : Fin 2) * 96 + 1 * q.val; omega
  rw [h0, h1]
  rfl

/-- An index of the output array is in point t's block iff each coordinate is in the block's range on its axis. -/
theorem memBlock4 (t : Fin cfg4.N) (i : S50000x96.Idx) :
    i ∈ ((cfg4.win 2).blk t).view.set ↔ ∀ a : Fin 2, win4_2.index t a * S5000x96.size a ≤ (i a).val
      ∧ (i a).val < win4_2.index t a * S5000x96.size a + S5000x96.size a := by
  show i ∈ ((View.whole main_v68).slice (win4_2.rect t)).set ↔ _
  rw [View.set_slice_whole, Rect.mem_set_unit]
  exact Iff.rfl

/-- Every index of the output array is in the block of the point its row falls in: row r is in block r / 5000. -/
theorem covered4 (i : S50000x96.Idx) :
    ∃ t : Fin cfg4.N, (cfg4.win 2).flush t = true ∧ i ∈ ((cfg4.win 2).blk t).view.set := by
  have hi0 : (i 0).val < 50000 := (i 0).isLt
  have hi1 : (i 1).val < 96 := (i 1).isLt
  have hN : cfg4.N = 10 := N_4
  have ht : (i 0).val / 5000 < cfg4.N := by rw [hN]; omega
  obtain ⟨e0, e1, e2, e3, e4, e5⟩ := blockIndex4 ⟨(i 0).val / 5000, ht⟩
  have e4' : win4_2.index ⟨(i 0).val / 5000, ht⟩ (0 : Fin 2) = (i 0).val / 5000 := e4
  refine ⟨⟨(i 0).val / 5000, ht⟩, flush4_2 _, ?_⟩
  rw [memBlock4]
  intro a
  match a with
  | ⟨0, _⟩ =>
    show win4_2.index ⟨(i 0).val / 5000, ht⟩ (0 : Fin 2) * 5000 ≤ (i 0).val
      ∧ (i 0).val < win4_2.index ⟨(i 0).val / 5000, ht⟩ (0 : Fin 2) * 5000 + 5000
    omega
  | ⟨1, _⟩ =>
    show win4_2.index ⟨(i 0).val / 5000, ht⟩ (1 : Fin 2) * 96 ≤ (i 1).val
      ∧ (i 1).val < win4_2.index ⟨(i 0).val / 5000, ht⟩ (1 : Fin 2) * 96 + 96
    omega

/-- The output array after the region: the bias row added to every row of the input array, then the unit. -/
theorem final4 (c : Dev nD) :
    (Gen.dat4 (F := Ideal) V c).arrAt 2 cfg4.N
      = Cert.Net.biasElu (V c main_v66 : S50000x96.Idx → EReal) (V c main_v67 : S1x96.Idx → EReal) :=
  (dat4 V c).arrAt_eq_of_cover 2 _ (fun t _ => flushedBiasElu4 V c t) covered4

end Cert.KernelIdeal.RegVal

end
-- ==== Proof.Region5.lean ====
/-
  The value region 5 of the kernel program leaves in its output array, as one function of the region's input
  arrays, on the extended reals.

  The region's grid has 10 points; point t works on rows 5000 t … 5000 t + 4999 of the row-blocked operands and on
  the whole weight matrix and bias row. Its body stores the product of the input block and the weights plus the bias row. Entry (r, j) of that value depends only on row r of the
  input, column j of the weights and entry j of the bias row, so each point's block is the restriction of one
  whole-array function to the point's rows, and the ten blocks tile the output array.
-/
import proofs.«180035_j36816459661702_1_alg».proof.Proof.Gen.KernelIdeal.Frame
import proofs.«180035_j36816459661702_1_alg».proof.Proof.LibDense
import proofs.«180035_j36816459661702_1_alg».proof.Proof.Layers
import Idealize.ShloMosaic.Lib.Pipeline.Value
import Idealize.ShloMosaic.Lib.ValueLayout

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as the constant function. -/
theorem zero_off5 : (![0, 0] : Fin 2 → Nat) = fun _ => 0 := funext fun a => by fin_cases a <;> rfl

/-- The body's stored value at an index: the product's entry plus the bias row's entry. -/
theorem pay5_apply (x0 : Vec Ideal S5000x96 .f32) (x1 : Vec Ideal S96x96 .f32) (x2 : Vec Ideal S1x96 .f32)
    (j : S5000x96.Idx) : k5_pay1 x0 x1 x2 j = Cert.Dense.lin x0 x1 x2 j := by
  obtain ⟨p, q, rfl⟩ : ∃ (p : Fin 5000) (q : Fin 96), j = ix2 p q := ⟨j 0, j 1, eq_ix2 j⟩
  unfold k5_pay1 Cert.Dense.lin
  rw [addf_apply, shapeCast_self, shapeCast_self]
  refine congrArg₂ (· + ·) ?_ ?_
  · exact Cert.Dense.matmul_zero_eq dot_S5000x96_S96x96_S5000x96_1_0_0_1_n_n rfl rfl (fun _ _ => rfl) (fun _ _ => rfl)
      (fun _ _ => rfl) (fun _ _ => rfl) none _ _ (ix2 p q)
  · exact broadcastTo_1b_ab_apply x2 _ p q

/-- The index maps over the grid: the row-blocked operands' block index is (t, 0), the weights' and the bias
    row's is (0, 0). -/
theorem index_maps5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The input's block at point t, read at (p, k), is the input array at row 5000 t + p. -/
theorem block_rows5 (c : Dev nD) (t : Fin cfg5.N) (y : S5000x96.Idx) (i : S50000x96.Idx)
    (h0 : (i 0).val = t.val * 5000 + (y 0).val) (h1 : (i 1).val = (y 1).val) :
    (iblk5 V c 0 t : Vec Ideal S5000x96 .f32) y = (V c main_v68 : S50000x96.Idx → EReal) i := by
  obtain ⟨e0, e1, -⟩ := index_maps5 t
  unfold iblk5
  rw [View.read_apply]
  show V c main_v68 _ = V c main_v68 _
  refine congrArg _ (funext fun a => Fin.ext ?_)
  match a with
  | ⟨0, _⟩ => show win5_0.index t (0 : Fin 2) * 5000 + 1 * (y 0).val = (i 0).val; rw [e0, h0]; omega
  | ⟨1, _⟩ => show win5_0.index t (1 : Fin 2) * 96 + 1 * (y 1).val = (i 1).val; rw [e1, h1]; omega

/-- The weights' block at every point is the whole weight matrix. -/
theorem block_weights5 (c : Dev nD) (t : Fin cfg5.N) :
    (iblk5 V c 1 t : Vec Ideal S96x96 .f32) = (V c main_arg7 : S96x96.Idx → EReal) := by
  obtain ⟨-, -, e0, e1, -⟩ := index_maps5 t
  funext y
  unfold iblk5
  rw [View.read_apply]
  show V c main_arg7 _ = V c main_arg7 _
  refine congrArg _ (funext fun a => Fin.ext ?_)
  match a with
  | ⟨0, _⟩ => show win5_1.index t (0 : Fin 2) * 96 + 1 * (y 0).val = (y 0).val; rw [e0]; omega
  | ⟨1, _⟩ => show win5_1.index t (1 : Fin 2) * 96 + 1 * (y 1).val = (y 1).val; rw [e1]; omega

/-- The bias row's block at every point is the whole row. -/
theorem block_bias5 (c : Dev nD) (t : Fin cfg5.N) :
    (iblk5 V c 2 t : Vec Ideal S1x96 .f32) = (V c main_v69 : S1x96.Idx → EReal) := by
  obtain ⟨-, -, -, -, e0, e1, -⟩ := index_maps5 t
  funext y
  unfold iblk5
  rw [View.read_apply]
  show V c main_v69 _ = V c main_v69 _
  refine congrArg _ (funext fun a => Fin.ext ?_)
  match a with
  | ⟨0, _⟩ => show win5_2.index t (0 : Fin 2) * 1 + 1 * (y 0).val = (y 0).val; rw [e0]; omega
  | ⟨1, _⟩ => show win5_2.index t (1 : Fin 2) * 96 + 1 * (y 1).val = (y 1).val; rw [e1]; omega

/-- The layer of the blocks at point t, at (p, j), is the layer of the whole arrays at (5000 t + p, j). -/
theorem block_layer5 (c : Dev nD) (t : Fin cfg5.N) (y : S5000x96.Idx) (i : S50000x96.Idx)
    (h0 : (i 0).val = t.val * 5000 + (y 0).val) (h1 : (i 1).val = (y 1).val) :
    Cert.Dense.lin (iblk5 V c 0 t : Vec Ideal S5000x96 .f32) (iblk5 V c 1 t : Vec Ideal S96x96 .f32)
        (iblk5 V c 2 t : Vec Ideal S1x96 .f32) y
      = Cert.Dense.lin (V c main_v68 : S50000x96.Idx → EReal) (V c main_arg7 : S96x96.Idx → EReal) (V c main_v69 : S1x96.Idx → EReal) i := by
  refine Cert.Dense.lin_congr y i (Fin.ext h1.symm) (fun k => ?_) (block_weights5 V c t) (block_bias5 V c t)
  exact block_rows5 V c t _ _ h0 rfl

/-- What point t writes back is block t of the layer of the whole arrays. -/
theorem flushed5_eq (c : Dev nD) (t : Fin cfg5.N) :
    (dat5 V c).flushed 3 t = ((cfg5.win 3).blk t).view.read (Elt Ideal)
      (Cert.Dense.lin (R := 50000) (K := 96) (C := 96) (V c main_v68) (V c main_arg7) (V c main_v69)) := by
  show (cfg5.win 3).cut (grid5.coords t) ((dat5 V c).after 3 t) = _
  rw [after5_3]
  unfold out5_3
  rw [View.canon_unit_zero zero_off5]
  simp only [View.ld_unit_zero (S := S5000x96) zero_off5, View.ld_unit_zero (S := S96x96) zero_off5,
    View.ld_unit_zero (S := S1x96) zero_off5]
  obtain ⟨-, -, -, -, -, -, e0, e1⟩ := index_maps5 t
  funext j
  refine (pay5_apply (iblk5 V c 0 t) (iblk5 V c 1 t) (iblk5 V c 2 t) j).trans ?_
  refine block_layer5 V c t j (((cfg5.win 3).blk t).view.emb j) ?_ ?_
  · show win5_3.index t (0 : Fin 2) * 5000 + 1 * (j 0).val = _; rw [e0]; omega
  · show win5_3.index t (1 : Fin 2) * 96 + 1 * (j 1).val = _; rw [e1]; omega

/-- An index of the output array is in point t's block iff each coordinate is in the block's range on its axis. -/
theorem mem_block5 (t : Fin cfg5.N) (i : S50000x96.Idx) :
    i ∈ ((cfg5.win 3).blk t).view.set ↔ ∀ a : Fin 2, win5_3.index t a * S5000x96.size a ≤ (i a).val ∧ (i a).val < win5_3.index t a * S5000x96.size a + S5000x96.size a := by
  show i ∈ ((View.whole main_v70).slice (win5_3.rect t)).set ↔ _
  rw [View.set_slice_whole, Rect.mem_set_unit]
  exact Iff.rfl

/-- Every index of the output array is in the block of the point that holds its row: row r is in block r / 5000. -/
theorem covered5 (i : S50000x96.Idx) :
    ∃ t : Fin cfg5.N, (cfg5.win 3).flush t = true ∧ i ∈ ((cfg5.win 3).blk t).view.set := by
  have hi0 : (i 0).val < 50000 := (i 0).isLt
  have hi1 : (i 1).val < 96 := (i 1).isLt
  have hN : cfg5.N = 10 := N_5
  refine ⟨⟨(i 0).val / 5000, by rw [hN]; omega⟩, flush5_3 _, ?_⟩
  rw [mem_block5]
  obtain ⟨-, -, -, -, -, -, e0, e1⟩ := index_maps5 ⟨(i 0).val / 5000, by rw [hN]; omega⟩
  intro a
  match a with
  | ⟨0, _⟩ =>
    show win5_3.index _ (0 : Fin 2) * 5000 ≤ (i 0).val ∧ (i 0).val < win5_3.index _ (0 : Fin 2) * 5000 + 5000
    rw [e0]; show (i 0).val / 5000 * 5000 ≤ (i 0).val ∧ (i 0).val < (i 0).val / 5000 * 5000 + 5000; omega
  | ⟨1, _⟩ =>
    show win5_3.index _ (1 : Fin 2) * 96 ≤ (i 1).val ∧ (i 1).val < win5_3.index _ (1 : Fin 2) * 96 + 96
    rw [e1]; omega

/-- The output array after the region: the layer of the region's input arrays as the region finds them. -/
theorem final5 (c : Dev nD) :
    (dat5 (F := Ideal) V c).arrAt 3 cfg5.N
      = Cert.Dense.lin (R := 50000) (K := 96) (C := 96) (V c main_v68) (V c main_arg7) (V c main_v69) :=
  (dat5 V c).arrAt_eq_of_cover 3 _ (fun t _ => flushed5_eq V c t) (covered5)

end Cert.KernelIdeal.RegVal

end
-- ==== Proof.Region6.lean ====
/-
  Region 6 of the kernel program: a bias row added to every row of a [50000, 96] matrix, then the exponential
  linear unit, computed ten blocks of 5000 rows at a time.

  What one grid point stores is, entry by entry, the unit of the block's entry plus the bias row's entry of the
  same column (the payload read at an index). Block t of the input window is rows 5000 t … 5000 t + 4999 of the
  matrix, the bias window is the whole row at every point, and block t of the output window is the same rows of
  the output; so what point t writes back is block t of ONE function of the two arrays, the ten blocks cover the
  output, and the output array ends as that function.
-/
import proofs.«180035_j36816459661702_1_alg».proof.Proof.Gen.KernelIdeal.Frame
import proofs.«180035_j36816459661702_1_alg».proof.Proof.LibDense
import proofs.«180035_j36816459661702_1_alg».proof.Proof.Layers
import Idealize.ShloMosaic.Lib.Pipeline.Value
import Idealize.ShloMosaic.Lib.ValueLayout

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem zeroOffsets6 : (![0, 0] : Fin 2 → Nat) = fun _ => 0 := funext fun a => by fin_cases a <;> rfl

/-- The exponential of a vector of extended reals, read at an index. -/
theorem expAt6 {s : Shape} {φ : FTy} (x : FVec Ideal s φ) (i : s.Idx) :
    Idealize.ShloMosaic.exp x i = Ideal.exp (x i) := rfl

/-- The stored value at row p, column q of a block: the unit of the block's entry plus the bias row's entry q. -/
theorem biasEluAt6 (x0 : Vec Ideal S5000x96 .f32) (x1 : Vec Ideal S1x96 .f32) (p : Fin 5000) (q : Fin 96) :
    k6_pay1 x0 x1 (ix2 p q) = Cert.Net.elu (x0 (ix2 p q) + x1 (ix2 (0 : Fin 1) q)) := by
  unfold k6_pay1
  simp only [select_apply, cmpf_apply, subf_apply, addf_apply, broadcast_apply, shapeCast_self, expAt6,
    broadcastTo_1b_ab_apply]
  rfl

/-- The block indices over the grid: at point t the matrix window and the output window are at block row t, block
    column 0, and the bias window at block (0, 0). -/
theorem blockIndex6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point t writes back is block t of the bias-and-unit function of the two arrays as the region finds them. -/
theorem flushedBiasElu6 (c : Dev nD) (t : Fin cfg6.N) :
    (dat6 V c).flushed 2 t = ((cfg6.win 2).blk t).view.read (Elt Ideal)
      (Cert.Net.biasElu (V c main_v83 : S50000x96.Idx → EReal) (V c main_v84 : S1x96.Idx → EReal)) := by
  show (cfg6.win 2).cut (grid6.coords t) ((dat6 V c).after 2 t) = _
  rw [after6_2]
  unfold out6_2
  rw [View.canon_unit_zero zeroOffsets6]
  simp only [View.ld_unit_zero (S := S5000x96) zeroOffsets6, View.ld_unit_zero (S := S1x96) zeroOffsets6]
  obtain ⟨e0, e1, e2, e3, e4, e5⟩ := blockIndex6 t
  funext j
  obtain ⟨p, q, rfl⟩ : ∃ (p : Fin 5000) (q : Fin 96), j = ix2 p q := ⟨j 0, j 1, eq_ix2 j⟩
  show k6_pay1 (iblk6 V c 0 t) (iblk6 V c 1 t) (ix2 p q)
    = Cert.Net.biasElu (V c main_v83 : S50000x96.Idx → EReal) (V c main_v84 : S1x96.Idx → EReal) (((cfg6.win 2).blk t).view.emb (ix2 p q))
  refine (biasEluAt6 (iblk6 V c 0 t) (iblk6 V c 1 t) p q).trans ?_
  have hp : p.val < 5000 := p.isLt
  have hq : q.val < 96 := q.isLt
  have h0 : iblk6 V c 0 t (ix2 p q) = V c main_v83 (((cfg6.win 2).blk t).view.emb (ix2 p q)) := by
    show V c main_v83 (((cfg6.win 0).blk t).view.emb (ix2 p q)) = V c main_v83 (((cfg6.win 2).blk t).view.emb (ix2 p q))
    refine congrArg _ ?_
    funext a; apply Fin.ext
    match a with
    | ⟨0, _⟩ => show win6_0.index t (0 : Fin 2) * 5000 + 1 * p.val = win6_2.index t (0 : Fin 2) * 5000 + 1 * p.val; omega
    | ⟨1, _⟩ => show win6_0.index t (1 : Fin 2) * 96 + 1 * q.val = win6_2.index t (1 : Fin 2) * 96 + 1 * q.val; omega
  have h1 : iblk6 V c 1 t (ix2 (0 : Fin 1) q)
      = V c main_v84 (ix2 (0 : Fin 1) ((((cfg6.win 2).blk t).view.emb (ix2 p q)) 1)) := by
    show V c main_v84 (((cfg6.win 1).blk t).view.emb (ix2 (0 : Fin 1) q)) = _
    refine congrArg _ ?_
    funext a; apply Fin.ext
    match a with
    | ⟨0, _⟩ => show win6_1.index t (0 : Fin 2) * 1 + 1 * 0 = 0; omega
    | ⟨1, _⟩ => show win6_1.index t (1 : Fin 2) * 96 + 1 * q.val = win6_2.index t (1 : Fin 2) * 96 + 1 * q.val; omega
  rw [h0, h1]
  rfl

/-- An index of the output array is in point t's block iff each coordinate is in the block's range on its axis. -/
theorem memBlock6 (t : Fin cfg6.N) (i : S50000x96.Idx) :
    i ∈ ((cfg6.win 2).blk t).view.set ↔ ∀ a : Fin 2, win6_2.index t a * S5000x96.size a ≤ (i a).val
      ∧ (i a).val < win6_2.index t a * S5000x96.size a + S5000x96.size a := by
  show i ∈ ((View.whole main_v85).slice (win6_2.rect t)).set ↔ _
  rw [View.set_slice_whole, Rect.mem_set_unit]
  exact Iff.rfl

/-- Every index of the output array is in the block of the point its row falls in: row r is in block r / 5000. -/
theorem covered6 (i : S50000x96.Idx) :
    ∃ t : Fin cfg6.N, (cfg6.win 2).flush t = true ∧ i ∈ ((cfg6.win 2).blk t).view.set := by
  have hi0 : (i 0).val < 50000 := (i 0).isLt
  have hi1 : (i 1).val < 96 := (i 1).isLt
  have hN : cfg6.N = 10 := N_6
  have ht : (i 0).val / 5000 < cfg6.N := by rw [hN]; omega
  obtain ⟨e0, e1, e2, e3, e4, e5⟩ := blockIndex6 ⟨(i 0).val / 5000, ht⟩
  have e4' : win6_2.index ⟨(i 0).val / 5000, ht⟩ (0 : Fin 2) = (i 0).val / 5000 := e4
  refine ⟨⟨(i 0).val / 5000, ht⟩, flush6_2 _, ?_⟩
  rw [memBlock6]
  intro a
  match a with
  | ⟨0, _⟩ =>
    show win6_2.index ⟨(i 0).val / 5000, ht⟩ (0 : Fin 2) * 5000 ≤ (i 0).val
      ∧ (i 0).val < win6_2.index ⟨(i 0).val / 5000, ht⟩ (0 : Fin 2) * 5000 + 5000
    omega
  | ⟨1, _⟩ =>
    show win6_2.index ⟨(i 0).val / 5000, ht⟩ (1 : Fin 2) * 96 ≤ (i 1).val
      ∧ (i 1).val < win6_2.index ⟨(i 0).val / 5000, ht⟩ (1 : Fin 2) * 96 + 96
    omega

/-- The output array after the region: the bias row added to every row of the input array, then the unit. -/
theorem final6 (c : Dev nD) :
    (Gen.dat6 (F := Ideal) V c).arrAt 2 cfg6.N
      = Cert.Net.biasElu (V c main_v83 : S50000x96.Idx → EReal) (V c main_v84 : S1x96.Idx → EReal) :=
  (dat6 V c).arrAt_eq_of_cover 2 _ (fun t _ => flushedBiasElu6 V c t) covered6

end Cert.KernelIdeal.RegVal

end
-- ==== Proof.RegHeadRows.lean ====
/-
  The classifier head is row-local: the logarithm of the softmax at an entry reads the logits along that entry's row
  only, and a logit reads its row of the input and its column of the weights and bias. So two heads agree at two
  entries of the same column whose input rows agree.
-/
import proofs.«180035_j36816459661702_1_alg».proof.Proof.LibDense
import proofs.«180035_j36816459661702_1_alg».proof.Proof.Layers

noncomputable section

namespace Cert.KernelIdeal.RegVal

open Idealize.ShloMosaic Idealize.ShloMosaic.ValueIdx

/-- Two logit matrices that agree at an entry and along that entry's row have the same logarithm of the softmax there. -/
theorem logSoftmax_congr {R R' C : Nat} {L : (⟨2, ![R, C]⟩ : Shape).Idx → EReal} {L' : (⟨2, ![R', C]⟩ : Shape).Idx → EReal}
    (i : (⟨2, ![R, C]⟩ : Shape).Idx) (i' : (⟨2, ![R', C]⟩ : Shape).Idx) (hi : L i = L' i')
    (hrow : ∀ k : Fin C, L (ix2 (i 0) k) = L' (ix2 (i' 0) k)) :
    Cert.Net.logSoftmax L i = Cert.Net.logSoftmax L' i' := by
  unfold Cert.Net.logSoftmax Cert.Net.rowMax
  simp only [hi, hrow]

/-- Two heads agree at two entries of the same column when the two branches agree along the entries' rows and the
    weights and the bias are the same. -/
theorem head_congr {R R' K C : Nat} {X1 X2 : (⟨2, ![R, K]⟩ : Shape).Idx → EReal} {X1' X2' : (⟨2, ![R', K]⟩ : Shape).Idx → EReal}
    {W W' : (⟨2, ![K, C]⟩ : Shape).Idx → EReal} {B B' : (⟨2, ![1, C]⟩ : Shape).Idx → EReal}
    (i : (⟨2, ![R, C]⟩ : Shape).Idx) (i' : (⟨2, ![R', C]⟩ : Shape).Idx) (h1 : i 1 = i' 1)
    (hX1 : ∀ k : Fin K, X1 (ix2 (i 0) k) = X1' (ix2 (i' 0) k))
    (hX2 : ∀ k : Fin K, X2 (ix2 (i 0) k) = X2' (ix2 (i' 0) k)) (hW : W = W') (hB : B = B') :
    Cert.Net.head X1 X2 W B i = Cert.Net.head X1' X2' W' B' i' := by
  subst hW hB
  unfold Cert.Net.head
  refine logSoftmax_congr i i' (Cert.Dense.lin_congr i i' h1 (fun k => ?_) rfl rfl)
    (fun k => Cert.Dense.lin_congr _ _ rfl (fun k' => ?_) rfl rfl)
  · show X1 (ix2 (i 0) k) + X2 (ix2 (i 0) k) = X1' (ix2 (i' 0) k) + X2' (ix2 (i' 0) k)
    rw [hX1, hX2]
  · show X1 (ix2 (i 0) k') + X2 (ix2 (i 0) k') = X1' (ix2 (i' 0) k') + X2' (ix2 (i' 0) k')
    rw [hX1, hX2]

end Cert.KernelIdeal.RegVal

end
-- ==== Proof.LibLayoutCol.lean ====
/-
  Two layout operations read at an index written by coordinates, for a column kept after a reduction along the
  rows' second axis: a vector of length a viewed as an [a, 1] column, and an [a, 1] column repeated along b columns.
  They complete the leading-unit-axis forms of the library's ValueLayout file.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Head7Pay.lean ====
/-
  The classifier head's stored value, entry by entry, on the extended reals.

  The body adds its two input blocks, applies a dense layer, and takes the logarithm of the softmax of each row of
  the logits: the row's maximum (a fold of max from minus infinity along the row) is subtracted from every entry,
  and from each difference the logarithm of the row's sum of exponentials of such differences is subtracted. Here:
  a reduction along the second axis of a [5000, 40] block read at row p is over the entries (p, k), k below 40; a
  length-5000 vector kept as a [5000, 1] column and repeated along 40 columns reads, at (p, q), the vector at p.
-/
import proofs.«180035_j36816459661702_1_alg».proof.Proof.Gen.KernelIdeal.Skeleton
import proofs.«180035_j36816459661702_1_alg».proof.Proof.LibDense
import proofs.«180035_j36816459661702_1_alg».proof.Proof.Layers
import proofs.«180035_j36816459661702_1_alg».proof.Proof.LibLayoutCol
import Idealize.ShloMosaic.Lib.ValueLayout

noncomputable section

namespace Cert.KernelIdeal.RegVal

open Cert.KernelIdeal Cert.KernelIdeal.Gen Idealize.ShloMosaic Idealize.ShloMosaic.ValueIdx

/-- Row p's index with column k put back on the reduced axis is (p, k). -/
theorem lift_row7 (h : S5000x40.Reduces [1] S5000) (p : Fin 5000) (k : Fin (S5000x40.size 1)) :
    h.lift (ix1 p) k = ix2 p (⟨k.val, k.isLt⟩ : Fin 40) := by
  funext c; apply Fin.ext
  fin_cases c <;> rfl

/-- A length-5000 vector kept as a column and repeated along the 40 columns reads, at (p, q), the vector at p. -/
theorem column7_apply (v : FVec Ideal S5000 .f32) (hc : S5000.ShapeCasts S5000x1) (hb : S5000x1.Broadcasts S5000x40)
    (p : Fin 5000) (q : Fin 40) : broadcastTo S5000x40 (shapeCast S5000x1 v hc) hb (ix2 p q) = v (ix1 p) :=
  (broadcastTo_a1_ab_apply (shapeCast S5000x1 v hc) hb p q).trans (shapeCast_a_a1_apply v hc p 0)

/-- The maximum along the second axis, from minus infinity, read at row p, is the row's largest entry. -/
theorem rowMax7_apply (l : FVec Ideal S5000x40 .f32) (h : S5000x40.Reduces [1] S5000) (hφ : FKind.Formats .f32)
    (hacc : (0xFF800000#32 : BitVec 32) = FKind.maximumf.neutral .f32 hφ) (p : Fin 5000) :
    multiReduction .maximumf [1] S5000 l 0xFF800000#32 h hφ hacc (ix1 p) = Cert.Net.rowMax l p := by
  refine (Ideal.multiReduction_maximumf_single l 0xFF800000#32 h hφ hacc (ix1 p)).trans ?_
  unfold Cert.Net.rowMax
  exact congrArg (fun f => Finset.fold max Cert.Net.ninf f (Finset.univ : Finset (Fin 40)))
    (funext fun k => congrArg l (lift_row7 h p k))

/-- The sum along the second axis read at row p is the sum of the row's entries. -/
theorem rowSum7_apply (e : FVec Ideal S5000x40 .f32) (h : S5000x40.Reduces [1] S5000) (hφ : FKind.Formats .f32)
    (hacc : (0x00000000#32 : BitVec 32) = FKind.add.neutral .f32 hφ) (p : Fin 5000) :
    multiReduction .add [1] S5000 e 0x00000000#32 h hφ hacc (ix1 p) = ∑ k : Fin 40, e (ix2 p k) := by
  refine (Ideal.multiReduction_add_single e 0x00000000#32 h hφ hacc (ix1 p)).trans ?_
  exact Finset.sum_congr rfl fun k _ => congrArg e (lift_row7 h p k)

/-- The logarithm of the softmax as the body spells it, read at (p, q), is the textbook one of the logits. -/
theorem logSoftmax7_apply (l : FVec Ideal S5000x40 .f32) (h : S5000x40.Reduces [1] S5000) (hc : S5000.ShapeCasts S5000x1)
    (hb : S5000x1.Broadcasts S5000x40) (hφ : FKind.Formats .f32)
    (hm : (0xFF800000#32 : BitVec 32) = FKind.maximumf.neutral .f32 hφ)
    (ha : (0x00000000#32 : BitVec 32) = FKind.add.neutral .f32 hφ) (p : Fin 5000) (q : Fin 40) :
    subf (subf l (broadcastTo S5000x40 (shapeCast S5000x1 (multiReduction .maximumf [1] S5000 l 0xFF800000#32 h hφ hm) hc) hb))
        (broadcastTo S5000x40 (log (shapeCast S5000x1 (multiReduction .add [1] S5000
          (exp (subf l (broadcastTo S5000x40 (shapeCast S5000x1 (multiReduction .maximumf [1] S5000 l 0xFF800000#32 h hφ hm) hc) hb)))
          0x00000000#32 h hφ ha) hc)) hb) (ix2 p q)
      = Cert.Net.logSoftmax l (ix2 p q) := by
  have shifted : ∀ k : Fin 40,
      subf l (broadcastTo S5000x40 (shapeCast S5000x1 (multiReduction .maximumf [1] S5000 l 0xFF800000#32 h hφ hm) hc) hb) (ix2 p k)
        = l (ix2 p k) - Cert.Net.rowMax l p := fun k => by
    rw [subf_apply, column7_apply, rowMax7_apply]
  rw [subf_apply, shifted q]
  unfold Cert.Net.logSoftmax
  refine congrArg (fun z => (l (ix2 p q) - Cert.Net.rowMax l p) - z) ?_
  refine (broadcastTo_a1_ab_apply _ hb p q).trans ?_
  show Ideal.log (shapeCast S5000x1 _ hc (ix2 p (0 : Fin 1))) = _
  rw [shapeCast_a_a1_apply, rowSum7_apply]
  refine congrArg Ideal.log (Finset.sum_congr rfl fun k _ => ?_)
  show Ideal.exp (subf l _ (ix2 p k)) = _
  rw [shifted k]

/-- The logits at an index: the dense layer of the sum of the two input blocks. -/
theorem logits7_apply (x0 x1 : Vec Ideal S5000x96 .f32) (x2 : Vec Ideal S96x40 .f32) (x3 : Vec Ideal S1x40 .f32)
    (hc : S5000x96.ShapeCasts S5000x96) (hr : S1x40.ShapeCasts S1x40) (hb : S1x40.Broadcasts S5000x40)
    (hlt : FTy.bf16.bits < FTy.f32.bits) (i : S5000x40.Idx) :
    addf (F := Ideal) (matmul (F := Ideal) dot_S5000x96_S96x40_S5000x40_1_0_0_1_n_n none
          (truncf (F := Ideal) .bf16 (addf (F := Ideal) (φ := .f32) (shapeCast S5000x96 x0 hc) (shapeCast S5000x96 x1 hc)) hlt)
          (truncf (F := Ideal) (φ := .f32) .bf16 x2 hlt)
          (constant (F := Ideal) S5000x40 .f32 0x00000000#32))
        (broadcastTo S5000x40 (shapeCast S1x40 x3 hr) hb) i
      = Cert.Dense.lin (fun i => x0 i + x1 i) x2 x3 i := by
  obtain ⟨p, q, rfl⟩ : ∃ (p : Fin 5000) (q : Fin 40), i = ix2 p q := ⟨i 0, i 1, eq_ix2 i⟩
  unfold Cert.Dense.lin
  rw [addf_apply, shapeCast_self, shapeCast_self, shapeCast_self]
  refine congrArg₂ (· + ·) ?_ ?_
  · exact Cert.Dense.matmul_zero_eq dot_S5000x96_S96x40_S5000x40_1_0_0_1_n_n rfl rfl (fun _ _ => rfl) (fun _ _ => rfl)
      (fun _ _ => rfl) (fun _ _ => rfl) none _ _ (ix2 p q)
  · exact broadcastTo_1b_ab_apply x3 _ p q

/-- The body's stored value at an index: the classifier head of the blocks. -/
theorem pay7_apply (x0 x1 : Vec Ideal S5000x96 .f32) (x2 : Vec Ideal S96x40 .f32) (x3 : Vec Ideal S1x40 .f32)
    (j : S5000x40.Idx) :
    Gen.k7_pay1 (F := Ideal) x0 x1 x2 x3 j = Cert.Net.head (R := 5000) (K := 96) (C := 40) x0 x1 x2 x3 j := by
  obtain ⟨p, q, rfl⟩ : ∃ (p : Fin 5000) (q : Fin 40), j = ix2 p q := ⟨j 0, j 1, eq_ix2 j⟩
  unfold Gen.k7_pay1 Cert.Net.head
  refine (logSoftmax7_apply _ _ _ _ _ _ _ p q).trans ?_
  refine congrArg (fun l => Cert.Net.logSoftmax l (ix2 p q)) (funext fun i => ?_)
  exact logits7_apply x0 x1 x2 x3 _ _ _ _ i

end Cert.KernelIdeal.RegVal

end
-- ==== Proof.Region7.lean ====
/-
  Region 7 of the kernel program: the classifier head. The two [50000, 96] branches are added, multiplied by the
  [96, 40] weights, a bias row is added, and the logarithm of the softmax of each row is taken, ten blocks of 5000
  rows at a time.

  What one grid point stores is the head of its two input blocks (the payload read at an index). Block t of each
  branch window is rows 5000 t … 5000 t + 4999 of the branch, the weight and bias windows are the whole arrays at
  every point, and block t of the output window is the same rows of the output. The head at an entry reads only that
  entry's row of the two branches, so what point t writes back is block t of ONE function of the four arrays; the
  ten blocks cover the output, and the output array ends as that function.
-/
import proofs.«180035_j36816459661702_1_alg».proof.Proof.Gen.KernelIdeal.Frame
import proofs.«180035_j36816459661702_1_alg».proof.Proof.LibDense
import proofs.«180035_j36816459661702_1_alg».proof.Proof.Layers
import proofs.«180035_j36816459661702_1_alg».proof.Proof.RegHeadRows
import proofs.«180035_j36816459661702_1_alg».proof.Proof.Head7Pay
import Idealize.ShloMosaic.Lib.Pipeline.Value
import Idealize.ShloMosaic.Lib.ValueLayout

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem zeroOffsets7 : (![0, 0] : Fin 2 → Nat) = fun _ => 0 := funext fun a => by fin_cases a <;> rfl

/-- The block indices over the grid: at point t the two branch windows and the output window are at block row t,
    block column 0, and the weight and bias windows at block (0, 0). -/
theorem blockIndex7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- What point t writes back is block t of the head of the four arrays as the region finds them. -/
theorem flushedHead7 (c : Dev nD) (t : Fin cfg7.N) :
    (dat7 V c).flushed 4 t = ((cfg7.win 4).blk t).view.read (Elt Ideal)
      (Cert.Net.head (R := 50000) (K := 96) (C := 40) (V c main_v49) (V c main_v85) (V c main_arg11) (V c main_v86)) := by
  show (cfg7.win 4).cut (grid7.coords t) ((dat7 V c).after 4 t) = _
  rw [after7_4]
  unfold out7_4
  rw [View.canon_unit_zero zeroOffsets7]
  simp only [View.ld_unit_zero (S := S5000x96) zeroOffsets7, View.ld_unit_zero (S := S96x40) zeroOffsets7,
    View.ld_unit_zero (S := S1x40) zeroOffsets7]
  obtain ⟨e0, e1, e2, e3, e4, e5, e6, e7, e8, e9⟩ := blockIndex7 t
  funext j
  obtain ⟨p, q, rfl⟩ : ∃ (p : Fin 5000) (q : Fin 40), j = ix2 p q := ⟨j 0, j 1, eq_ix2 j⟩
  show k7_pay1 (iblk7 V c 0 t) (iblk7 V c 1 t) (iblk7 V c 2 t) (iblk7 V c 3 t) (ix2 p q)
    = Cert.Net.head (R := 50000) (K := 96) (C := 40) (V c main_v49) (V c main_v85) (V c main_arg11) (V c main_v86)
        (((cfg7.win 4).blk t).view.emb (ix2 p q))
  refine (pay7_apply (iblk7 V c 0 t) (iblk7 V c 1 t) (iblk7 V c 2 t) (iblk7 V c 3 t) (ix2 p q)).trans ?_
  have hp : p.val < 5000 := p.isLt
  have hq : q.val < 40 := q.isLt
  refine head_congr (ix2 p q) (((cfg7.win 4).blk t).view.emb (ix2 p q)) ?_ (fun k => ?_) (fun k => ?_) ?_ ?_
  · apply Fin.ext
    show q.val = win7_4.index t (1 : Fin 2) * 40 + 1 * q.val
    omega
  · have hk : k.val < 96 := k.isLt
    show V c main_v49 (((cfg7.win 0).blk t).view.emb (ix2 p k))
      = V c main_v49 (ix2 ((((cfg7.win 4).blk t).view.emb (ix2 p q)) 0) k)
    refine congrArg _ ?_
    funext a; apply Fin.ext
    match a with
    | ⟨0, _⟩ => show win7_0.index t (0 : Fin 2) * 5000 + 1 * p.val = win7_4.index t (0 : Fin 2) * 5000 + 1 * p.val; omega
    | ⟨1, _⟩ => show win7_0.index t (1 : Fin 2) * 96 + 1 * k.val = k.val; omega
  · have hk : k.val < 96 := k.isLt
    show V c main_v85 (((cfg7.win 1).blk t).view.emb (ix2 p k))
      = V c main_v85 (ix2 ((((cfg7.win 4).blk t).view.emb (ix2 p q)) 0) k)
    refine congrArg _ ?_
    funext a; apply Fin.ext
    match a with
    | ⟨0, _⟩ => show win7_1.index t (0 : Fin 2) * 5000 + 1 * p.val = win7_4.index t (0 : Fin 2) * 5000 + 1 * p.val; omega
    | ⟨1, _⟩ => show win7_1.index t (1 : Fin 2) * 96 + 1 * k.val = k.val; omega
  · funext y
    show V c main_arg11 (((cfg7.win 2).blk t).view.emb y) = V c main_arg11 y
    refine congrArg _ ?_
    funext a; apply Fin.ext
    match a with
    | ⟨0, _⟩ => show win7_2.index t (0 : Fin 2) * 96 + 1 * (y 0).val = (y 0).val; omega
    | ⟨1, _⟩ => show win7_2.index t (1 : Fin 2) * 40 + 1 * (y 1).val = (y 1).val; omega
  · funext y
    show V c main_v86 (((cfg7.win 3).blk t).view.emb y) = V c main_v86 y
    refine congrArg _ ?_
    funext a; apply Fin.ext
    match a with
    | ⟨0, _⟩ => show win7_3.index t (0 : Fin 2) * 1 + 1 * (y 0).val = (y 0).val; omega
    | ⟨1, _⟩ => show win7_3.index t (1 : Fin 2) * 40 + 1 * (y 1).val = (y 1).val; omega

/-- An index of the output array is in point t's block iff each coordinate is in the block's range on its axis. -/
theorem memBlock7 (t : Fin cfg7.N) (i : S50000x40.Idx) :
    i ∈ ((cfg7.win 4).blk t).view.set ↔ ∀ a : Fin 2, win7_4.index t a * S5000x40.size a ≤ (i a).val
      ∧ (i a).val < win7_4.index t a * S5000x40.size a + S5000x40.size a := by
  show i ∈ ((View.whole main_v87).slice (win7_4.rect t)).set ↔ _
  rw [View.set_slice_whole, Rect.mem_set_unit]
  exact Iff.rfl

/-- Every index of the output array is in the block of the point its row falls in: row r is in block r / 5000. -/
theorem covered7 (i : S50000x40.Idx) :
    ∃ t : Fin cfg7.N, (cfg7.win 4).flush t = true ∧ i ∈ ((cfg7.win 4).blk t).view.set := by
  have hi0 : (i 0).val < 50000 := (i 0).isLt
  have hi1 : (i 1).val < 40 := (i 1).isLt
  have hN : cfg7.N = 10 := N_7
  have ht : (i 0).val / 5000 < cfg7.N := by rw [hN]; omega
  obtain ⟨e0, e1, e2, e3, e4, e5, e6, e7, e8, e9⟩ := blockIndex7 ⟨(i 0).val / 5000, ht⟩
  have e8' : win7_4.index ⟨(i 0).val / 5000, ht⟩ (0 : Fin 2) = (i 0).val / 5000 := e8
  refine ⟨⟨(i 0).val / 5000, ht⟩, flush7_4 _, ?_⟩
  rw [memBlock7]
  intro a
  match a with
  | ⟨0, _⟩ =>
    show win7_4.index ⟨(i 0).val / 5000, ht⟩ (0 : Fin 2) * 5000 ≤ (i 0).val
      ∧ (i 0).val < win7_4.index ⟨(i 0).val / 5000, ht⟩ (0 : Fin 2) * 5000 + 5000
    omega
  | ⟨1, _⟩ =>
    show win7_4.index ⟨(i 0).val / 5000, ht⟩ (1 : Fin 2) * 40 ≤ (i 1).val
      ∧ (i 1).val < win7_4.index ⟨(i 0).val / 5000, ht⟩ (1 : Fin 2) * 40 + 40
    omega

/-- The output array after the region: the head of the two branch arrays, the weights and the bias row. -/
theorem final7 (c : Dev nD) :
    (Gen.dat7 (F := Ideal) V c).arrAt 4 cfg7.N
      = Cert.Net.head (R := 50000) (K := 96) (C := 40) (V c main_v49) (V c main_v85) (V c main_arg11) (V c main_v86) :=
  (dat7 V c).arrAt_eq_of_cover 4 _ (fun t _ => flushedHead7 V c t) covered7

end Cert.KernelIdeal.RegVal

end
-- ==== Proof.Chain.lean ====
/-
  What the kernel program leaves in its result array, as a function of the argument arrays.

  Walking the program's boundaries in order: the first stretches of host operations leave the edge ends, the
  normalised edge weights and an all-zero bias row; each convolution is a dense kernel (the features times a weight
  matrix, plus the zero row), a round of message passing by host operations, and a kernel adding the bias row and
  applying the exponential linear unit; the feed-forward branch is one dense kernel with the unit; the last kernel
  adds the two branches, applies the classifier and takes the logarithm of the softmax of each row. Each region's
  output array is the corresponding layer function (Cert.Dense / Cert.Net) of its input arrays, each stretch's result the
  corresponding stage of Cert.Model, and a buffer nothing writes in between keeps its contents.
-/
import proofs.«180035_j36816459661702_1_alg».proof.Proof.Gen.KernelIdeal.Frame
import proofs.«180035_j36816459661702_1_alg».proof.Proof.Keep
import proofs.«180035_j36816459661702_1_alg».proof.Proof.Stretch
import proofs.«180035_j36816459661702_1_alg».proof.Proof.Region0
import proofs.«180035_j36816459661702_1_alg».proof.Proof.Region1
import proofs.«180035_j36816459661702_1_alg».proof.Proof.Region2
import proofs.«180035_j36816459661702_1_alg».proof.Proof.Region3
import proofs.«180035_j36816459661702_1_alg».proof.Proof.Region4
import proofs.«180035_j36816459661702_1_alg».proof.Proof.Region5
import proofs.«180035_j36816459661702_1_alg».proof.Proof.Region6
import proofs.«180035_j36816459661702_1_alg».proof.Proof.Region7

set_option maxRecDepth 16384

noncomputable section

namespace Cert.KernelIdeal.Chain

open Idealize.ShloMosaic Idealize.ShloMosaic.TcCoe Idealize.SL.Sem
open Cert.KernelIdeal Cert.KernelIdeal.Gen Cert.KernelIdeal.Keep Cert.KernelIdeal.Stretch Cert.KernelIdeal.RegVal
open Cert.Model (Arr)

variable (m : (ℓ : Loc nD τ sig) → Buf (Elt Ideal) ℓ) (ρ : Dev nD → PrngReg) (c : Dev nD)

/-! ## The argument arrays at launch, and the staged values -/

def a0 : Arr Ideal S50000x128 .f32 := W0 (F := Ideal) m ρ c (Proc.devRef .tc main_arg0)
def a1 : Arr Ideal S2x800000 .i32 := W0 (F := Ideal) m ρ c (Proc.devRef .tc main_arg1)
def a2 : Arr Ideal S800000 .f32 := W0 (F := Ideal) m ρ c (Proc.devRef .tc main_arg2)
def a3 : Arr Ideal S128x96 .f32 := W0 (F := Ideal) m ρ c (Proc.devRef .tc main_arg3)
def a4 : Arr Ideal S96 .f32 := W0 (F := Ideal) m ρ c (Proc.devRef .tc main_arg4)
def a5 : Arr Ideal S96x96 .f32 := W0 (F := Ideal) m ρ c (Proc.devRef .tc main_arg5)
def a6 : Arr Ideal S96 .f32 := W0 (F := Ideal) m ρ c (Proc.devRef .tc main_arg6)
def a7 : Arr Ideal S96x96 .f32 := W0 (F := Ideal) m ρ c (Proc.devRef .tc main_arg7)
def a8 : Arr Ideal S96 .f32 := W0 (F := Ideal) m ρ c (Proc.devRef .tc main_arg8)
def a9 : Arr Ideal S128x96 .f32 := W0 (F := Ideal) m ρ c (Proc.devRef .tc main_arg9)
def a10 : Arr Ideal S96 .f32 := W0 (F := Ideal) m ρ c (Proc.devRef .tc main_arg10)
def a11 : Arr Ideal S96x40 .f32 := W0 (F := Ideal) m ρ c (Proc.devRef .tc main_arg11)
def a12 : Arr Ideal S40 .f32 := W0 (F := Ideal) m ρ c (Proc.devRef .tc main_arg12)

/-- The edge ends and the normalised edge weights. -/
def vRows : Arr Ideal S850000 .i32 := Cert.Model.rows (a1 m ρ c)
def vCols : Arr Ideal S850000 .i32 := Cert.Model.cols (a1 m ρ c)
def vNorm : Arr Ideal S850000 .f32 := Cert.Model.norm (a1 m ρ c) (a2 m ρ c)

/-- The first convolution: dense kernel, message passing, bias and unit. -/
def h1 : Arr Ideal S50000x96 .f32 := Cert.Dense.lin (R := 50000) (K := 128) (C := 96) (a0 m ρ c) (a3 m ρ c) (zrow (F := Ideal))
def g1 : Arr Ideal S50000x96 .f32 := Cert.Model.aggWith (vRows m ρ c) (vCols m ρ c) (vNorm m ρ c) (h1 m ρ c)
def x1 : Arr Ideal S50000x96 .f32 := Cert.Net.biasElu (R := 50000) (C := 96) (g1 m ρ c) (brow (a4 m ρ c))
/-- The feed-forward branch's dense layer with the unit. -/
def hl : Arr Ideal S50000x96 .f32 := Cert.Net.linElu (R := 50000) (K := 128) (C := 96) (a0 m ρ c) (a9 m ρ c) (brow (a10 m ρ c))
/-- The second and the third convolution. -/
def p2 : Arr Ideal S50000x96 .f32 := Cert.Dense.lin (R := 50000) (K := 96) (C := 96) (hl m ρ c) (a5 m ρ c) (zrow (F := Ideal))
def g2 : Arr Ideal S50000x96 .f32 := Cert.Model.aggWith (vRows m ρ c) (vCols m ρ c) (vNorm m ρ c) (p2 m ρ c)
def h2 : Arr Ideal S50000x96 .f32 := Cert.Net.biasElu (R := 50000) (C := 96) (g2 m ρ c) (brow (a6 m ρ c))
def p3 : Arr Ideal S50000x96 .f32 := Cert.Dense.lin (R := 50000) (K := 96) (C := 96) (h2 m ρ c) (a7 m ρ c) (zrow (F := Ideal))
def g3 : Arr Ideal S50000x96 .f32 := Cert.Model.aggWith (vRows m ρ c) (vCols m ρ c) (vNorm m ρ c) (p3 m ρ c)
def h3 : Arr Ideal S50000x96 .f32 := Cert.Net.biasElu (R := 50000) (C := 96) (g3 m ρ c) (brow (a8 m ρ c))
/-- The classifier head. -/
def out : Arr Ideal S50000x40 .f32 := Cert.Net.head (R := 50000) (K := 96) (C := 40) (x1 m ρ c) (h3 m ρ c) (a11 m ρ c) (brow40 (a12 m ρ c))

/-! ## The first stretches -/

theorem rows1 : W1 (F := Ideal) m ρ c (Proc.devRef .tc main_v5) = vRows m ρ c := s0_rows (W0 m ρ c)
theorem cols1 : W1 (F := Ideal) m ρ c (Proc.devRef .tc main_v6) = vCols m ρ c := s0_cols (W0 m ρ c)
theorem wts1 : W1 (F := Ideal) m ρ c (Proc.devRef .tc main_v8) = Cert.Model.wts (a2 m ρ c) := s0_wts (W0 m ρ c)

theorem dinv2 : W2 (F := Ideal) m ρ c (Proc.devRef .tc main_v15) = Cert.Model.dinv (a1 m ρ c) (a2 m ρ c) :=
  (s01_pick (W1 m ρ c)).trans (by
    rw [show W1 (F := Ideal) m ρ c (Proc.devRef .tc main_v13) = _ from s0_pos (W0 m ρ c),
      show W1 (F := Ideal) m ρ c (Proc.devRef .tc main_v14) = _ from s0_rsqrt (W0 m ρ c),
      show W1 (F := Ideal) m ρ c (Proc.devRef .tc main_cst_2) = _ from s0_zero (W0 m ρ c)]
    rfl)

theorem norm3 : W3 (F := Ideal) m ρ c (Proc.devRef .tc main_v31) = vNorm m ρ c :=
  (s02_norm (W2 m ρ c)).trans (by
    rw [dinv2, keep_v5_2_1, rows1, keep_v6_2_1, cols1, keep_v8_2_1, wts1]
    rfl)
theorem zvec3 : W3 (F := Ideal) m ρ c (Proc.devRef .tc main_v32) = zvec (F := Ideal) := s02_zvec (W2 m ρ c)
theorem zrow3 : W3 (F := Ideal) m ρ c (Proc.devRef .tc main_v33) = zrow (F := Ideal) := s02_zrow (W2 m ρ c)

theorem rows4 : W4 (F := Ideal) m ρ c (Proc.devRef .tc main_v5) = vRows m ρ c := by rw [keep_v5_4_2, keep_v5_2_1, rows1]
theorem cols4 : W4 (F := Ideal) m ρ c (Proc.devRef .tc main_v6) = vCols m ρ c := by rw [keep_v6_4_2, keep_v6_2_1, cols1]
theorem norm4 : W4 (F := Ideal) m ρ c (Proc.devRef .tc main_v31) = vNorm m ρ c := by rw [keep_v31_4_3, norm3]
theorem rows10 : W10 (F := Ideal) m ρ c (Proc.devRef .tc main_v5) = vRows m ρ c := by rw [keep_v5_10_4, rows4]
theorem cols10 : W10 (F := Ideal) m ρ c (Proc.devRef .tc main_v6) = vCols m ρ c := by rw [keep_v6_10_4, cols4]
theorem norm10 : W10 (F := Ideal) m ρ c (Proc.devRef .tc main_v31) = vNorm m ρ c := by rw [keep_v31_10_4, norm4]
theorem rows14 : W14 (F := Ideal) m ρ c (Proc.devRef .tc main_v5) = vRows m ρ c := by rw [keep_v5_14_10, rows10]
theorem cols14 : W14 (F := Ideal) m ρ c (Proc.devRef .tc main_v6) = vCols m ρ c := by rw [keep_v6_14_10, cols10]
theorem norm14 : W14 (F := Ideal) m ρ c (Proc.devRef .tc main_v31) = vNorm m ρ c := by rw [keep_v31_14_10, norm10]
theorem zvec8 : W8 (F := Ideal) m ρ c (Proc.devRef .tc main_v32) = zvec (F := Ideal) := by rw [keep_v32_8_3, zvec3]
theorem zvec12 : W12 (F := Ideal) m ρ c (Proc.devRef .tc main_v32) = zvec (F := Ideal) := by rw [keep_v32_12_8, zvec8]

/-! ## The first convolution -/

theorem at4_h1 : W4 (F := Ideal) m ρ c (Proc.devRef .tc main_v34) = h1 m ρ c :=
  (W4_arr m ρ c 3).trans ((final0 (V3 m ρ) c).trans (by
    rw [show V3 (F := Ideal) m ρ c main_arg0 = a0 m ρ c from keep_arg0_3_0 m ρ c,
      show V3 (F := Ideal) m ρ c main_arg3 = a3 m ρ c from keep_arg3_3_0 m ρ c,
      show V3 (F := Ideal) m ρ c main_v33 = zrow (F := Ideal) from zrow3 m ρ c]
    rfl))

theorem at5_g1 : W5 (F := Ideal) m ρ c (Proc.devRef .tc main_v47) = g1 m ρ c :=
  (s1_agg (W4 m ρ c)).trans (by rw [rows4, cols4, norm4, at4_h1]; rfl)
theorem at5_b1 : W5 (F := Ideal) m ρ c (Proc.devRef .tc main_v48) = brow (a4 m ρ c) :=
  (s1_brow (W4 m ρ c)).trans (by rw [keep_arg4_4_0]; rfl)

theorem at6_x1 : W6 (F := Ideal) m ρ c (Proc.devRef .tc main_v49) = x1 m ρ c :=
  (W6_arr m ρ c 2).trans ((final1 (V5 m ρ) c).trans (by
    rw [show V5 (F := Ideal) m ρ c main_v47 = g1 m ρ c from at5_g1 m ρ c,
      show V5 (F := Ideal) m ρ c main_v48 = brow (a4 m ρ c) from at5_b1 m ρ c]
    rfl))

/-! ## The feed-forward branch -/

theorem at7_b10 : W7 (F := Ideal) m ρ c (Proc.devRef .tc main_v50) = brow (a10 m ρ c) :=
  (s2_brow (W6 m ρ c)).trans (by rw [keep_arg10_6_0]; rfl)

theorem at8_hl : W8 (F := Ideal) m ρ c (Proc.devRef .tc main_v51) = hl m ρ c :=
  (W8_arr m ρ c 3).trans ((final2 (V7 m ρ) c).trans (by
    rw [show V7 (F := Ideal) m ρ c main_arg0 = a0 m ρ c from (keep_arg0_7_3 m ρ c).trans (keep_arg0_3_0 m ρ c),
      show V7 (F := Ideal) m ρ c main_arg9 = a9 m ρ c from keep_arg9_7_0 m ρ c,
      show V7 (F := Ideal) m ρ c main_v50 = brow (a10 m ρ c) from at7_b10 m ρ c]
    rfl))

/-! ## The second convolution -/

theorem at9_z : W9 (F := Ideal) m ρ c (Proc.devRef .tc main_v52) = zrow (F := Ideal) :=
  (s3_zrow (W8 m ρ c)).trans (by rw [zvec8]; rfl)

theorem at10_p2 : W10 (F := Ideal) m ρ c (Proc.devRef .tc main_v53) = p2 m ρ c :=
  (W10_arr m ρ c 3).trans ((final3 (V9 m ρ) c).trans (by
    rw [show V9 (F := Ideal) m ρ c main_v51 = hl m ρ c from (keep_v51_9_8 m ρ c).trans (at8_hl m ρ c),
      show V9 (F := Ideal) m ρ c main_arg5 = a5 m ρ c from keep_arg5_9_0 m ρ c,
      show V9 (F := Ideal) m ρ c main_v52 = zrow (F := Ideal) from at9_z m ρ c]
    rfl))

theorem at11_g2 : W11 (F := Ideal) m ρ c (Proc.devRef .tc main_v66) = g2 m ρ c :=
  (s4_agg (W10 m ρ c)).trans (by rw [rows10, cols10, norm10, at10_p2]; rfl)
theorem at11_b2 : W11 (F := Ideal) m ρ c (Proc.devRef .tc main_v67) = brow (a6 m ρ c) :=
  (s4_brow (W10 m ρ c)).trans (by rw [keep_arg6_10_0]; rfl)

theorem at12_h2 : W12 (F := Ideal) m ρ c (Proc.devRef .tc main_v68) = h2 m ρ c :=
  (W12_arr m ρ c 2).trans ((final4 (V11 m ρ) c).trans (by
    rw [show V11 (F := Ideal) m ρ c main_v66 = g2 m ρ c from at11_g2 m ρ c,
      show V11 (F := Ideal) m ρ c main_v67 = brow (a6 m ρ c) from at11_b2 m ρ c]
    rfl))

/-! ## The third convolution -/

theorem at13_z : W13 (F := Ideal) m ρ c (Proc.devRef .tc main_v69) = zrow (F := Ideal) :=
  (s5_zrow (W12 m ρ c)).trans (by rw [zvec12]; rfl)

theorem at14_p3 : W14 (F := Ideal) m ρ c (Proc.devRef .tc main_v70) = p3 m ρ c :=
  (W14_arr m ρ c 3).trans ((final5 (V13 m ρ) c).trans (by
    rw [show V13 (F := Ideal) m ρ c main_v68 = h2 m ρ c from (keep_v68_13_12 m ρ c).trans (at12_h2 m ρ c),
      show V13 (F := Ideal) m ρ c main_arg7 = a7 m ρ c from keep_arg7_13_0 m ρ c,
      show V13 (F := Ideal) m ρ c main_v69 = zrow (F := Ideal) from at13_z m ρ c]
    rfl))

theorem at15_g3 : W15 (F := Ideal) m ρ c (Proc.devRef .tc main_v83) = g3 m ρ c :=
  (s6_agg (W14 m ρ c)).trans (by rw [rows14, cols14, norm14, at14_p3]; rfl)
theorem at15_b3 : W15 (F := Ideal) m ρ c (Proc.devRef .tc main_v84) = brow (a8 m ρ c) :=
  (s6_brow (W14 m ρ c)).trans (by rw [keep_arg8_14_0]; rfl)

theorem at16_h3 : W16 (F := Ideal) m ρ c (Proc.devRef .tc main_v85) = h3 m ρ c :=
  (W16_arr m ρ c 2).trans ((final6 (V15 m ρ) c).trans (by
    rw [show V15 (F := Ideal) m ρ c main_v83 = g3 m ρ c from at15_g3 m ρ c,
      show V15 (F := Ideal) m ρ c main_v84 = brow (a8 m ρ c) from at15_b3 m ρ c]
    rfl))

/-! ## The classifier head -/

theorem at17_b : W17 (F := Ideal) m ρ c (Proc.devRef .tc main_v86) = brow40 (a12 m ρ c) :=
  (s7_brow (W16 m ρ c)).trans (by rw [keep_arg12_16_0]; rfl)

/-- The program's result array at the last boundary is the head of the two branches. -/
theorem result_eq : W18 (F := Ideal) m ρ c (Proc.devRef .tc main_v87) = out m ρ c :=
  (W18_arr m ρ c 4).trans ((final7 (V17 m ρ) c).trans (by
    rw [show V17 (F := Ideal) m ρ c main_v49 = x1 m ρ c from (keep_v49_17_6 m ρ c).trans (at6_x1 m ρ c),
      show V17 (F := Ideal) m ρ c main_v85 = h3 m ρ c from (keep_v85_17_16 m ρ c).trans (at16_h3 m ρ c),
      show V17 (F := Ideal) m ρ c main_arg11 = a11 m ρ c from keep_arg11_17_0 m ρ c,
      show V17 (F := Ideal) m ρ c main_v86 = brow40 (a12 m ρ c) from at17_b m ρ c]
    rfl))

end Cert.KernelIdeal.Chain

end
-- ==== Proof.LibColRow.lean ====
/-
  A vector viewed as a one-column or a one-row matrix, spelt two ways.

  A kernel's wrapper reshapes an `[a]` vector to an `[a, 1]` column (or a `[b]` vector to a `[1, b]` row) before it
  hands it to a kernel; a jnp reference that writes `v[:, None]` or adds a bias row broadcasts the vector in
  dimensions, along axis 0 (or axis 1). Both are the same array: entry `(p, 0)` of the column is `v p`, entry `(0, q)`
  of the row is `v q`. Also here: a column broadcast in dimensions along every row's entries, and a row along every
  row, read at an index written by coordinates (the host's companions of the kernel-side broadcasts of a column and of
  a row).
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` vector broadcast in dimensions along axis 0 of `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A `[b]` vector broadcast in dimensions along axis 1 of `[1, b]` reads, at `(u, q)`, the vector at `q`. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- The column of a vector: the cast to `[a, 1]` is the broadcast in dimensions along axis 0. -/
theorem shapeCast_col_eq_broadcastInDim {a : ℕ} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext i
  obtain ⟨p, u, rfl⟩ : ∃ (p : Fin a) (u : Fin 1), i = ix2 p u := ⟨i 0, i 1, eq_ix2 i⟩
  rw [broadcastInDim_a_a1_apply]
  refine shapeCast_apply x hc _ _ ?_
  have hu : u.val = 0 := by omega
  rw [Shape.rowMajor_val_two, Shape.rowMajor_val_one]
  show p.val = p.val * 1 + u.val
  rw [hu, Nat.mul_one, Nat.add_zero]

/-- The row of a vector: the cast to `[1, b]` is the broadcast in dimensions along axis 1. -/
theorem shapeCast_row_eq_broadcastInDim {b : ℕ} (x : (⟨1, ![b]⟩ : Shape).Idx → α)
    (hc : (⟨1, ![b]⟩ : Shape).ShapeCasts ⟨2, ![1, b]⟩) (hb : (⟨1, ![b]⟩ : Shape).BroadcastsInDim ⟨2, ![1, b]⟩ ![1]) :
    shapeCast ⟨2, ![1, b]⟩ x hc = broadcastInDim ⟨2, ![1, b]⟩ ![1] hb x := by
  funext i
  obtain ⟨u, q, rfl⟩ : ∃ (u : Fin 1) (q : Fin b), i = ix2 u q := ⟨i 0, i 1, eq_ix2 i⟩
  rw [broadcastInDim_b_1b_apply, shapeCast_a_1a_apply]

/-- An `[a, 1]` column broadcast in dimensions to `[a, b]` reads, at `(p, q)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, b]` row broadcast in dimensions to `[a, b]` reads, at `(p, q)`, the row's entry of column `q`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

end Idealize.ShloMosaic.ValueIdx
-- ==== Proof.Bridge.lean ====
/-
  The network's dense stages, spelt two ways, are the same arrays on the extended reals.

  One spelling is entry by entry: a dense layer is entry (r, j) of X · W plus the bias row's entry j; the exponential
  linear unit is z where 0 < z and exp z - 1 elsewhere; the logarithm of the softmax of a row subtracts the row's
  maximum, a fold of max from minus infinity over the row's columns, and then the logarithm of the row's sum of
  exponentials. The other spelling is by whole-array operations: a matrix product; a bias vector broadcast to a row
  and the row along every row; the unit as a choice on the comparison 0 < y between y and one times (exp - 1) of
  an inner choice between zero and y; the row maximum as a reduction with max from minus infinity, taken once more
  against minus infinity, and the row sum as a reduction with + from zero.

  Each equality is read at an index (p, q) and comes down to one fact about extended reals: x + 0 = x; on the
  comparison bit, where 0 < z both units are z, and elsewhere the inner choice is z and 1 * (exp z - 1) = exp z - 1;
  max ⊥ r = r. None of them needs a finite argument.
-/
import proofs.«180035_j36816459661702_1_alg».proof.Proof.Model
import proofs.«180035_j36816459661702_1_alg».proof.Proof.Layers
import proofs.«180035_j36816459661702_1_alg».proof.Proof.LibColRow
import Idealize.ShloMosaic.Lib.IdealHost

noncomputable section

namespace Cert.Bridge

open Idealize.ShloMosaic Idealize.ShloMosaic.ValueIdx Cert.ReferenceIdeal Cert.ReferenceIdeal.Facts₀ Cert.Model

/-- The unit on one extended real, in the reference's spelling: z where 0 < z, and elsewhere one times
    (exp - 1) of the inner choice, which there is z. -/
theorem elu_scalar (z : EReal) :
    Scalar.select (Ideal.cmp .ogt z (Ideal.ofBits .f32 0x00000000#32)) z
        (Ideal.ofBits .f32 0x3F800000#32 *
          (Ideal.exp (Scalar.select (Ideal.cmp .ogt z (Ideal.ofBits .f32 0x00000000#32)) (Ideal.ofBits .f32 0x00000000#32) z) - 1))
      = Cert.Net.elu z := by
  unfold Cert.Net.elu Cert.Net.unit Cert.Net.zero
  rcases BitVec.eq_zero_or_eq_one (Ideal.cmp .ogt z (Ideal.ofBits .f32 0x00000000#32)) with h | h
  · rw [h, select_zero, select_zero, select_zero, Ideal.ofBits_one_f32, one_mul]
  · rw [h, select_one, select_one]

/-- A scalar broadcast to the [50000, 96] array reads the scalar's word everywhere. -/
theorem bzero_apply (i : S50000x96.Idx) :
    broadcastInDim S50000x96 ![] bcast_S_S50000x96 (zero0 (F := Ideal)) i = Ideal.ofBits .f32 0x00000000#32 :=
  broadcastInDim_scalar_apply _ _ i
theorem bone_apply (i : S50000x96.Idx) :
    broadcastInDim S50000x96 ![] bcast_S_S50000x96 (one0 (F := Ideal)) i = Ideal.ofBits .f32 0x3F800000#32 :=
  broadcastInDim_scalar_apply _ _ i

/-- The reference's unit read at an index is the unit of the entry. -/
theorem elu_apply (y : Arr Ideal S50000x96 .f32) (i : S50000x96.Idx) : Cert.Model.elu y i = Cert.Net.elu (y i) := by
  have hz := bzero_apply i
  have ho := bone_apply i
  unfold Cert.Model.elu
  generalize broadcastInDim S50000x96 ![] bcast_S_S50000x96 (zero0 (F := Ideal)) = Z at hz ⊢
  generalize broadcastInDim S50000x96 ![] bcast_S_S50000x96 (one0 (F := Ideal)) = O at ho ⊢
  show Scalar.select (Ideal.cmp .ogt (y i) (Z i)) (y i)
      (O i * (Ideal.exp (Scalar.select (Ideal.cmp .ogt (y i) (Z i)) (Z i) (y i)) - 1)) = _
  rw [hz, ho]
  exact elu_scalar (y i)

/-- The bias row along every row, read at (p, q), is the vector's entry q. -/
theorem bias96_apply (b : Arr Ideal S96 .f32) (p : Fin 50000) (q : Fin 96) :
    Cert.Model.bias96 b (ix2 p q) = b (ix1 q) := by
  unfold Cert.Model.bias96
  rw [broadcastInDim_1b_ab_apply, broadcastInDim_b_1b_apply]

theorem biasElu_eq (a : Arr Ideal S50000x96 .f32) (b : Arr Ideal S96 .f32) (hc : S96.ShapeCasts S1x96) :
    Cert.Net.biasElu (R := 50000) (C := 96) a (shapeCast S1x96 b hc) = Cert.Model.elu (addf a (Cert.Model.bias96 b)) := by
  funext i
  obtain ⟨p, q, rfl⟩ : ∃ (p : Fin 50000) (q : Fin 96), i = ix2 p q := ⟨i 0, i 1, eq_ix2 i⟩
  rw [elu_apply, addf_apply, bias96_apply]
  unfold Cert.Net.biasElu
  show Cert.Net.elu (a (ix2 p q) + shapeCast S1x96 b hc (ix2 (0 : Fin 1) q)) = _
  rw [shapeCast_a_1a_apply]

/-- The three products read at an entry: the textbook sum. -/
theorem dotIn_apply (x : Arr Ideal S50000x128 .f32) (w : Arr Ideal S128x96 .f32) (i : S50000x96.Idx) :
    Cert.Model.dotIn x w i = Cert.Dense.mm (R := 50000) (K := 128) (C := 96) x w i :=
  Cert.Dense.dotGeneral_eq dot_S50000x128_S128x96_S50000x96_1_0_0_1_n_n rfl rfl (fun _ _ => rfl) (fun _ _ => rfl)
    (fun _ _ => rfl) (fun _ _ => rfl) none .single x w i
theorem dotHid_apply (x : Arr Ideal S50000x96 .f32) (w : Arr Ideal S96x96 .f32) (i : S50000x96.Idx) :
    Cert.Model.dotHid x w i = Cert.Dense.mm (R := 50000) (K := 96) (C := 96) x w i :=
  Cert.Dense.dotGeneral_eq dot_S50000x96_S96x96_S50000x96_1_0_0_1_n_n rfl rfl (fun _ _ => rfl) (fun _ _ => rfl)
    (fun _ _ => rfl) (fun _ _ => rfl) none .single x w i
theorem dotOut_apply (x : Arr Ideal S50000x96 .f32) (w : Arr Ideal S96x40 .f32) (i : S50000x40.Idx) :
    Cert.Model.dotOut x w i = Cert.Dense.mm (R := 50000) (K := 96) (C := 40) x w i :=
  Cert.Dense.dotGeneral_eq dot_S50000x96_S96x40_S50000x40_1_0_0_1_n_n rfl rfl (fun _ _ => rfl) (fun _ _ => rfl)
    (fun _ _ => rfl) (fun _ _ => rfl) none .single x w i

/-- The all-zero bias row, as the cast of the zero scalar broadcast to a vector, reads zero. -/
theorem zrow_apply (hb : S_.BroadcastsInDim S96 ![]) (hc : S96.ShapeCasts S1x96) (q : Fin 96) :
    shapeCast S1x96 (broadcastInDim S96 ![] hb (constant (F := Ideal) S_ .f32 0x00000000#32)) hc (ix2 (0 : Fin 1) q) = 0 := by
  rw [shapeCast_a_1a_apply, broadcastInDim_scalar_apply]
  exact Ideal.ofBits_zero_f32

theorem lin_zero_in (x : Arr Ideal S50000x128 .f32) (w : Arr Ideal S128x96 .f32)
    (hb : S_.BroadcastsInDim S96 ![]) (hc : S96.ShapeCasts S1x96) :
    Cert.Dense.lin (R := 50000) (K := 128) (C := 96) x w
        (shapeCast S1x96 (broadcastInDim S96 ![] hb (constant (F := Ideal) S_ .f32 0x00000000#32)) hc)
      = Cert.Model.dotIn x w := by
  funext i
  obtain ⟨p, q, rfl⟩ : ∃ (p : Fin 50000) (q : Fin 96), i = ix2 p q := ⟨i 0, i 1, eq_ix2 i⟩
  rw [dotIn_apply]
  unfold Cert.Dense.lin
  show Cert.Dense.mm x w (ix2 p q) + shapeCast S1x96 _ hc (ix2 (0 : Fin 1) q) = _
  rw [zrow_apply, add_zero]

theorem lin_zero_hid (x : Arr Ideal S50000x96 .f32) (w : Arr Ideal S96x96 .f32)
    (hb : S_.BroadcastsInDim S96 ![]) (hc : S96.ShapeCasts S1x96) :
    Cert.Dense.lin (R := 50000) (K := 96) (C := 96) x w
        (shapeCast S1x96 (broadcastInDim S96 ![] hb (constant (F := Ideal) S_ .f32 0x00000000#32)) hc)
      = Cert.Model.dotHid x w := by
  funext i
  obtain ⟨p, q, rfl⟩ : ∃ (p : Fin 50000) (q : Fin 96), i = ix2 p q := ⟨i 0, i 1, eq_ix2 i⟩
  rw [dotHid_apply]
  unfold Cert.Dense.lin
  show Cert.Dense.mm x w (ix2 p q) + shapeCast S1x96 _ hc (ix2 (0 : Fin 1) q) = _
  rw [zrow_apply, add_zero]

theorem linElu_eq (x : Arr Ideal S50000x128 .f32) (w : Arr Ideal S128x96 .f32) (b : Arr Ideal S96 .f32)
    (hc : S96.ShapeCasts S1x96) :
    Cert.Net.linElu (R := 50000) (K := 128) (C := 96) x w (shapeCast S1x96 b hc)
      = Cert.Model.elu (addf (Cert.Model.dotIn x w) (Cert.Model.bias96 b)) := by
  funext i
  obtain ⟨p, q, rfl⟩ : ∃ (p : Fin 50000) (q : Fin 96), i = ix2 p q := ⟨i 0, i 1, eq_ix2 i⟩
  rw [elu_apply, addf_apply, bias96_apply, dotIn_apply]
  unfold Cert.Net.linElu Cert.Dense.lin
  show Cert.Net.elu (Cert.Dense.mm x w (ix2 p q) + shapeCast S1x96 b hc (ix2 (0 : Fin 1) q)) = _
  rw [shapeCast_a_1a_apply]

/-- The classifier's bias row along every row, read at (p, q), is the vector's entry q. -/
theorem bias40_apply (b : Arr Ideal S40 .f32) (p : Fin 50000) (q : Fin 40) :
    Cert.Model.bias40 b (ix2 p q) = b (ix1 q) := by
  unfold Cert.Model.bias40
  rw [broadcastInDim_1b_ab_apply, broadcastInDim_b_1b_apply]

/-- The word of minus infinity is the bottom of the extended reals. -/
theorem ninf_eq_bot : Ideal.ofBits .f32 0xFF800000#32 = (⊥ : EReal) := by
  simp [Ideal.ofBits, Ideal.ieee]

/-- The host's exponential and logarithm read at an index, and the zero scalar. -/
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl
theorem zero0_apply (j : S_.Idx) : zero0 (F := Ideal) j = 0 := Ideal.ofBits_zero_f32

/-- Dropping axis 1 of a [50000, 40] array leaves [50000]. -/
theorem reduces_rows : S50000x40.Reduces [1] S50000 := by decide

/-- Row p with column k put back is (p, k). -/
theorem lift_row (p : Fin 50000) (k : Fin (S50000x40.size 1)) :
    reduces_rows.lift (ix1 p) k = ix2 p (⟨k.val, k.isLt⟩ : Fin 40) := by
  funext c; apply Fin.ext
  fin_cases c <;> rfl

/-- The reference's row maximum (the host's fold of max from minus infinity along the row, and max with minus
    infinity once more) is the fold of max from minus infinity over the row's columns. -/
theorem rowMax_apply (l : Arr Ideal S50000x40 .f32) (p : Fin 50000) :
    (maximumf (broadcastInDim S50000 ![] bcast_S_S50000 (constant (F := Ideal) S_ .f32 0xFF800000#32))
        (Host.reduce FloatOps.maximumf l (constant (F := Ideal) S_ .f32 0xFF800000#32) reducesTo_S50000x40_S50000_d1 h_S_)
      : FVec Ideal S50000 .f32) (ix1 p)
      = Cert.Net.rowMax (R := 50000) (C := 40) l p := by
  have hfold := Host.reduce_eq_fold_single (FloatOps.maximumf (F := Ideal) (φ := .f32)) l
    (constant (F := Ideal) S_ .f32 0xFF800000#32) reducesTo_S50000x40_S50000_d1 reduces_rows h_S_ (ix1 p)
  have hf : (l ∘ reduces_rows.lift (ix1 p)) = fun k : Fin 40 => l (ix2 p k) :=
    funext fun k => congrArg l (lift_row p k)
  rw [maximumf_apply, hfold, broadcastInDim_scalar_apply]
  unfold Cert.Net.rowMax Cert.Net.ninf
  show max (Ideal.ofBits .f32 0xFF800000#32)
      (Finset.fold max (Ideal.ofBits .f32 0xFF800000#32) (l ∘ reduces_rows.lift (ix1 p)) (Finset.univ : Finset (Fin 40))) = _
  rw [hf, ninf_eq_bot, max_bot_left]
  rfl

/-- The shifted logits at (p, q): the entry less its row's maximum. -/
theorem shifted_apply (l : Arr Ideal S50000x40 .f32) (p : Fin 50000) (q : Fin 40) :
    Cert.Model.shifted l (ix2 p q) = l (ix2 p q) - Cert.Net.rowMax (R := 50000) (C := 40) l p := by
  unfold Cert.Model.shifted
  rw [subf_apply, broadcastInDim_a1_ab_apply, broadcastInDim_a_a1_apply, rowMax_apply]

/-- The two spellings of the logarithm of the softmax of each row agree. -/
theorem logSoftmax_eq (l : Arr Ideal S50000x40 .f32) :
    Cert.Net.logSoftmax (R := 50000) (C := 40) l = Cert.Model.logSoftmax l := by
  funext i
  obtain ⟨p, q, rfl⟩ : ∃ (p : Fin 50000) (q : Fin 40), i = ix2 p q := ⟨i 0, i 1, eq_ix2 i⟩
  have hsum : (∑ k : Fin (S50000x40.size 1), Host.exp (Cert.Model.shifted l) (reduces_rows.lift (ix1 p) k))
      = ∑ k : Fin 40, Ideal.exp (l (ix2 p k) - Cert.Net.rowMax (R := 50000) (C := 40) l p) :=
    Finset.sum_congr rfl fun k _ => by
      rw [lift_row, hostExp_apply, shifted_apply]
      rfl
  unfold Cert.Model.logSoftmax
  rw [subf_apply, shifted_apply, broadcastInDim_a1_ab_apply, hostLog_apply, broadcastInDim_a_a1_apply, hostReduceAdd_apply,
    Ideal.hostReduceAdd_single reducesTo_S50000x40_S50000_d1 reduces_rows, hsum, zero0_apply, zero_add]
  rfl

theorem head_eq (x1 x2 : Arr Ideal S50000x96 .f32) (w : Arr Ideal S96x40 .f32) (b : Arr Ideal S40 .f32)
    (hc : S40.ShapeCasts S1x40) :
    Cert.Net.head (R := 50000) (K := 96) (C := 40) x1 x2 w (shapeCast S1x40 b hc)
      = Cert.Model.logSoftmax (addf (Cert.Model.dotOut (addf x1 x2) w) (Cert.Model.bias40 b)) := by
  unfold Cert.Net.head
  rw [← logSoftmax_eq]
  refine congrArg (Cert.Net.logSoftmax (R := 50000) (C := 40)) ?_
  funext i
  obtain ⟨p, q, rfl⟩ : ∃ (p : Fin 50000) (q : Fin 40), i = ix2 p q := ⟨i 0, i 1, eq_ix2 i⟩
  rw [addf_apply, dotOut_apply, bias40_apply]
  unfold Cert.Dense.lin
  show Cert.Dense.mm (fun i => x1 i + x2 i) w (ix2 p q) + shapeCast S1x40 b hc (ix2 (0 : Fin 1) q) = _
  rw [shapeCast_a_1a_apply]
  rfl

end Cert.Bridge

end
-- ==== Proof.KRun.lean ====
/-
  The kernel program's run with its result named.

  The program is eight kernel regions among stretches of host operations. Its buffers' contents at each boundary are
  a fold from the launch memory: a stretch of host operations applies its operations' results, a region leaves in each
  of its output arrays what its blocks wrote back and every other buffer as it found it. Every weakly fair execution
  ends with each unscoped buffer at the last boundary's contents; so the result array ends at the last boundary's
  contents of its buffer, and each argument array as launched.
-/
import proofs.«180035_j36816459661702_1_alg».proof.Proof.Gen.KernelIdeal.Frame

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents of its buffer and every argument array as launched. -/
theorem run_value : θ_run defs (onTc (τ := τ) (main (F := F))) ⟨m, fun _ => 0, ρ⟩ (fun r => ∀ c : Dev nD,
      r.2.mem ((c.tc : Thread nD τ).loc main_v87) = W18 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v87 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c)⟩)

end Cert.KernelIdeal.KVal

end
-- ==== Proof.KModel.lean ====
/-
  The kernel program's result is the reference network of the argument arrays.

  Each dense kernel's layer function is a stage of the reference network: a dense layer with the all-zero bias row is
  the matrix product; a bias row added and the unit applied is the reference's unit of the sum with the bias along
  every row; the classifier head is the reference's logarithm of the softmax of the classifier's output. With the
  edge stages shared, the staged values of the kernel program compose to the reference network.
-/
import proofs.«180035_j36816459661702_1_alg».proof.Proof.Chain
import proofs.«180035_j36816459661702_1_alg».proof.Proof.Bridge
import proofs.«180035_j36816459661702_1_alg».proof.Proof.KRun

noncomputable section

namespace Cert.KernelIdeal.Chain

open Idealize.ShloMosaic Idealize.ShloMosaic.TcCoe Idealize.SL.Sem
open Cert.KernelIdeal Cert.KernelIdeal.Gen Cert.KernelIdeal.Stretch
open Cert.Model (Arr)

variable (m : (ℓ : Loc nD τ sig) → Buf (Elt Ideal) ℓ) (ρ : Dev nD → PrngReg) (c : Dev nD)

theorem h1_eq : h1 m ρ c = Cert.Model.dotIn (a0 m ρ c) (a3 m ρ c) :=
  Cert.Bridge.lin_zero_in (a0 m ρ c) (a3 m ρ c) Facts₀.bcast_S_S96 Facts₀.shapeCasts_S96_S1x96

theorem x1_eq : x1 m ρ c = Cert.Model.conv (a1 m ρ c) (a2 m ρ c) (Cert.Model.dotIn (a0 m ρ c) (a3 m ρ c)) (a4 m ρ c) := by
  unfold x1 g1
  rw [h1_eq]
  exact Cert.Bridge.biasElu_eq _ (a4 m ρ c) Facts₀.shapeCasts_S96_S1x96

theorem hl_eq : hl m ρ c = Cert.Model.elu (addf (Cert.Model.dotIn (a0 m ρ c) (a9 m ρ c)) (Cert.Model.bias96 (a10 m ρ c))) :=
  Cert.Bridge.linElu_eq (a0 m ρ c) (a9 m ρ c) (a10 m ρ c) Facts₀.shapeCasts_S96_S1x96

theorem h2_eq : h2 m ρ c = Cert.Model.conv (a1 m ρ c) (a2 m ρ c) (Cert.Model.dotHid (hl m ρ c) (a5 m ρ c)) (a6 m ρ c) := by
  unfold h2 g2
  rw [show p2 m ρ c = Cert.Model.dotHid (hl m ρ c) (a5 m ρ c) from
    Cert.Bridge.lin_zero_hid (hl m ρ c) (a5 m ρ c) Facts₀.bcast_S_S96 Facts₀.shapeCasts_S96_S1x96]
  exact Cert.Bridge.biasElu_eq _ (a6 m ρ c) Facts₀.shapeCasts_S96_S1x96

theorem h3_eq : h3 m ρ c = Cert.Model.conv (a1 m ρ c) (a2 m ρ c) (Cert.Model.dotHid (h2 m ρ c) (a7 m ρ c)) (a8 m ρ c) := by
  unfold h3 g3
  rw [show p3 m ρ c = Cert.Model.dotHid (h2 m ρ c) (a7 m ρ c) from
    Cert.Bridge.lin_zero_hid (h2 m ρ c) (a7 m ρ c) Facts₀.bcast_S_S96 Facts₀.shapeCasts_S96_S1x96]
  exact Cert.Bridge.biasElu_eq _ (a8 m ρ c) Facts₀.shapeCasts_S96_S1x96

/-- The staged values compose to the reference network of the argument arrays. -/
theorem out_eq : out m ρ c = Cert.Model.model (F := Ideal) (a0 m ρ c) (a1 m ρ c) (a2 m ρ c) (a3 m ρ c) (a4 m ρ c) (a5 m ρ c)
    (a6 m ρ c) (a7 m ρ c) (a8 m ρ c) (a9 m ρ c) (a10 m ρ c) (a11 m ρ c) (a12 m ρ c) := by
  unfold out
  rw [show brow40 (a12 m ρ c) = shapeCast S1x40 (a12 m ρ c) Facts₀.shapeCasts_S40_S1x40 from rfl,
    Cert.Bridge.head_eq (x1 m ρ c) (h3 m ρ c) (a11 m ρ c) (a12 m ρ c) Facts₀.shapeCasts_S40_S1x40,
    x1_eq, h3_eq, h2_eq, hl_eq]
  rfl

/-- The result array at the last boundary is the reference network of the launch memory's argument arrays. -/
theorem value_eq : W18 (F := Ideal) m ρ c (Proc.devRef .tc main_v87)
    = Cert.Model.model (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (result_eq m ρ c).trans (out_eq m ρ c)

end Cert.KernelIdeal.Chain

namespace Cert.KernelIdeal.KVal

open Idealize.ShloMosaic Idealize.ShloMosaic.TcCoe Idealize.SL.Sem
open Cert.KernelIdeal Cert.KernelIdeal.Gen

/-- Every weakly fair execution of the kernel program terminates, nothing faulting, with the reference network of the
    argument arrays in its result array and the argument arrays as launched. -/
theorem run_model (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v87) = Cert.Model.model (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (defs (F := Ideal)) _ _).mono (fun r h c => ⟨(h c).1.trans (Cert.KernelIdeal.Chain.value_eq m ρ c), (h c).2⟩)
    (run_value (F := Ideal) m ρ)

end Cert.KernelIdeal.KVal

end
-- ==== Proof.RefOps.lean ====
/- The reference program's @main as lists of its host operations, in order, a called function's operations standing in
   its call's place over the call's buffers: 12 stretches, 186 operations. -/
import proofs.«180035_j36816459661702_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 22 of @main. -/
abbrev ops0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_v4 (iotaInDim S50000 32 0),
    binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S50000 ![] bcast_S_S50000 : (⟨S_, .f32⟩ : BufTy).Contents (Elt F) → (⟨S50000, .f32⟩ : BufTy).Contents (Elt F)),
    binary main_arg2 main_v7 main_v8 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v6 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (.of main_cst_2 : TRef sig ⟨S_, .f32⟩) main_call0.v0 id,
    TRef.unary main_call0.v0 main_call0.v1 (broadcastInDim S50000 ![] bcast_S_S50000),
    TRef.ternary (.of main_v13 : TRef sig ⟨S50000, .i1⟩) (.of main_v14 : TRef sig ⟨S50000, .f32⟩) main_call0.v1 main_call0.v2 select ]

/-- Operations 23 … 42 of @main. -/
abbrev ops1 : List (HloOp τ sig (Elt F)) :=
  [ nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v5 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v5 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v5 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v8 main_v23 (mulf : (⟨S850000, .f32⟩ : BufTy).Contents (Elt F) → (⟨S850000, .f32⟩ : BufTy).Contents (Elt F) → (⟨S850000, .f32⟩ : BufTy).Contents (Elt F)),
    nullary main_c_4 (constantI S_ 32 0#32),
    unary main_c_4 main_v24 (broadcastInDim S850000 ![] bcast_S_S850000 : (⟨S_, .i32⟩ : BufTy).Contents (Elt F) → (⟨S850000, .i32⟩ : BufTy).Contents (Elt F)),
    binary main_v6 main_v24 main_v25 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v26 (broadcastInDim S850000 ![] bcast_S_S850000 : (⟨S_, .i32⟩ : BufTy).Contents (Elt F) → (⟨S850000, .i32⟩ : BufTy).Contents (Elt F)),
    binary main_v6 main_v26 main_v27 (addi : (⟨S850000, .i32⟩ : BufTy).Contents (Elt F) → (⟨S850000, .i32⟩ : BufTy).Contents (Elt F) → (⟨S850000, .i32⟩ : BufTy).Contents (Elt F)),
    ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v28 main_v29 (broadcastInDim S850000x1 ![0] bcast_S850000_S850000x1_0 : (⟨S850000, .i32⟩ : BufTy).Contents (Elt F) → (⟨S850000x1, .i32⟩ : BufTy).Contents (Elt F)),
    binary main_v15 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v23 main_v30 main_v31 (mulf : (⟨S850000, .f32⟩ : BufTy).Contents (Elt F) → (⟨S850000, .f32⟩ : BufTy).Contents (Elt F) → (⟨S850000, .f32⟩ : BufTy).Contents (Elt F)) ]

/-- Operations 43 … 62 of @main. -/
abbrev ops2 : List (HloOp τ sig (Elt F)) :=
  [ binary main_arg0 main_arg3 main_v32 ((fun l r => Host.dotGeneral dot_S50000x128_S128x96_S50000x96_1_0_0_1_n_n none l r) : (⟨S50000x128, .f32⟩ : BufTy).Contents (Elt F) → (⟨S128x96, .f32⟩ : BufTy).Contents (Elt F) → (⟨S50000x96, .f32⟩ : BufTy).Contents (Elt F)),
    unary main_v31 main_v33 (broadcastInDim S850000x1 ![0] bcast_S850000_S850000x1_0 : (⟨S850000, .f32⟩ : BufTy).Contents (Elt F) → (⟨S850000x1, .f32⟩ : BufTy).Contents (Elt F)),
    nullary main_c_6 (constantI S_ 32 0#32),
    unary main_c_6 main_v34 (broadcastInDim S850000 ![] bcast_S_S850000 : (⟨S_, .i32⟩ : BufTy).Contents (Elt F) → (⟨S850000, .i32⟩ : BufTy).Contents (Elt F)),
    binary main_v5 main_v34 main_v35 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v36 (broadcastInDim S850000 ![] bcast_S_S850000 : (⟨S_, .i32⟩ : BufTy).Contents (Elt F) → (⟨S850000, .i32⟩ : BufTy).Contents (Elt F)),
    binary main_v5 main_v36 main_v37 (addi : (⟨S850000, .i32⟩ : BufTy).Contents (Elt F) → (⟨S850000, .i32⟩ : BufTy).Contents (Elt F) → (⟨S850000, .i32⟩ : BufTy).Contents (Elt F)),
    ternary main_v35 main_v37 main_v5 main_v38 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v38 main_v39 (broadcastInDim S850000x1 ![0] bcast_S850000_S850000x1_0 : (⟨S850000, .i32⟩ : BufTy).Contents (Elt F) → (⟨S850000x1, .i32⟩ : BufTy).Contents (Elt F)),
    binary main_v32 main_v39 main_v40 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    unary main_v33 main_v41 (broadcastInDim S850000x96 ![0, 1] bcast_S850000x1_S850000x96_0_1 : (⟨S850000x1, .f32⟩ : BufTy).Contents (Elt F) → (⟨S850000x96, .f32⟩ : BufTy).Contents (Elt F)),
    binary main_v41 main_v40 main_v42 (mulf : (⟨S850000x96, .f32⟩ : BufTy).Contents (Elt F) → (⟨S850000x96, .f32⟩ : BufTy).Contents (Elt F) → (⟨S850000x96, .f32⟩ : BufTy).Contents (Elt F)),
    nullary main_cst_8 (constant S_ .f32 0x00000000#32),
    unary main_cst_8 main_v43 (broadcastInDim S50000x96 ![] bcast_S_S50000x96 : (⟨S_, .f32⟩ : BufTy).Contents (Elt F) → (⟨S50000x96, .f32⟩ : BufTy).Contents (Elt F)),
    unary main_v6 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    unary main_arg4 main_v46 (broadcastInDim S1x96 ![1] bcast_S96_S1x96_1 : (⟨S96, .f32⟩ : BufTy).Contents (Elt F) → (⟨S1x96, .f32⟩ : BufTy).Contents (Elt F)),
    unary main_v46 main_v47 (broadcastInDim S50000x96 ![0, 1] bcast_S1x96_S50000x96_0_1 : (⟨S1x96, .f32⟩ : BufTy).Contents (Elt F) → (⟨S50000x96, .f32⟩ : BufTy).Contents (Elt F)),
    binary main_v45 main_v47 main_v48 (addf : (⟨S50000x96, .f32⟩ : BufTy).Contents (Elt F) → (⟨S50000x96, .f32⟩ : BufTy).Contents (Elt F) → (⟨S50000x96, .f32⟩ : BufTy).Contents (Elt F)) ]

/-- Operations 63 … 77 of @main. -/
abbrev ops3 : List (HloOp τ sig (Elt F)) :=
  [ TRef.nullary main_call1.cst (constant S_ .f32 0x00000000#32),
    TRef.unary main_call1.cst main_call1.v0 (broadcastInDim S50000x96 ![] bcast_S_S50000x96),
    TRef.binary (.of main_v48 : TRef sig ⟨S50000x96, .f32⟩) main_call1.v0 main_call1.v1 (cmpf .ogt),
    TRef.nullary main_call1.cst_0 (constant S_ .f32 0x00000000#32),
    TRef.unary main_call1.cst_0 main_call1.v2 (broadcastInDim S50000x96 ![] bcast_S_S50000x96),
    TRef.binary (.of main_v48 : TRef sig ⟨S50000x96, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x96 ![] bcast_S_S50000x96),
    TRef.ternary main_call1.v3 main_call1.call0.v1 (.of main_v48 : TRef sig ⟨S50000x96, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S50000x96 ![] bcast_S_S50000x96),
    TRef.binary main_call1.v6 main_call1.v5 main_call1.v7 mulf,
    TRef.ternary main_call1.v1 (.of main_v48 : TRef sig ⟨S50000x96, .f32⟩) main_call1.v7 main_call1.call1.v0 select ]

/-- Operations 78 … 81 of @main. -/
abbrev ops4 : List (HloOp τ sig (Elt F)) :=
  [ binary main_arg0 main_arg9 main_v50 ((fun l r => Host.dotGeneral dot_S50000x128_S128x96_S50000x96_1_0_0_1_n_n none l r) : (⟨S50000x128, .f32⟩ : BufTy).Contents (Elt F) → (⟨S128x96, .f32⟩ : BufTy).Contents (Elt F) → (⟨S50000x96, .f32⟩ : BufTy).Contents (Elt F)),
    unary main_arg10 main_v51 (broadcastInDim S1x96 ![1] bcast_S96_S1x96_1 : (⟨S96, .f32⟩ : BufTy).Contents (Elt F) → (⟨S1x96, .f32⟩ : BufTy).Contents (Elt F)),
    unary main_v51 main_v52 (broadcastInDim S50000x96 ![0, 1] bcast_S1x96_S50000x96_0_1 : (⟨S1x96, .f32⟩ : BufTy).Contents (Elt F) → (⟨S50000x96, .f32⟩ : BufTy).Contents (Elt F)),
    binary main_v50 main_v52 main_v53 (addf : (⟨S50000x96, .f32⟩ : BufTy).Contents (Elt F) → (⟨S50000x96, .f32⟩ : BufTy).Contents (Elt F) → (⟨S50000x96, .f32⟩ : BufTy).Contents (Elt F)) ]

/-- Operations 82 … 96 of @main. -/
abbrev ops5 : List (HloOp τ sig (Elt F)) :=
  [ TRef.nullary main_call2.cst (constant S_ .f32 0x00000000#32),
    TRef.unary main_call2.cst main_call2.v0 (broadcastInDim S50000x96 ![] bcast_S_S50000x96),
    TRef.binary (.of main_v53 : TRef sig ⟨S50000x96, .f32⟩) main_call2.v0 main_call2.v1 (cmpf .ogt),
    TRef.nullary main_call2.cst_0 (constant S_ .f32 0x00000000#32),
    TRef.unary main_call2.cst_0 main_call2.v2 (broadcastInDim S50000x96 ![] bcast_S_S50000x96),
    TRef.binary (.of main_v53 : TRef sig ⟨S50000x96, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S50000x96 ![] bcast_S_S50000x96),
    TRef.ternary main_call2.v3 main_call2.call0.v1 (.of main_v53 : TRef sig ⟨S50000x96, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S50000x96 ![] bcast_S_S50000x96),
    TRef.binary main_call2.v6 main_call2.v5 main_call2.v7 mulf,
    TRef.ternary main_call2.v1 (.of main_v53 : TRef sig ⟨S50000x96, .f32⟩) main_call2.v7 main_call2.call1.v0 select ]

/-- Operations 97 … 116 of @main. -/
abbrev ops6 : List (HloOp τ sig (Elt F)) :=
  [ binary main_v54 main_arg5 main_v55 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    unary main_v31 main_v56 (broadcastInDim S850000x1 ![0] bcast_S850000_S850000x1_0 : (⟨S850000, .f32⟩ : BufTy).Contents (Elt F) → (⟨S850000x1, .f32⟩ : BufTy).Contents (Elt F)),
    nullary main_c_9 (constantI S_ 32 0#32),
    unary main_c_9 main_v57 (broadcastInDim S850000 ![] bcast_S_S850000 : (⟨S_, .i32⟩ : BufTy).Contents (Elt F) → (⟨S850000, .i32⟩ : BufTy).Contents (Elt F)),
    binary main_v5 main_v57 main_v58 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v59 (broadcastInDim S850000 ![] bcast_S_S850000 : (⟨S_, .i32⟩ : BufTy).Contents (Elt F) → (⟨S850000, .i32⟩ : BufTy).Contents (Elt F)),
    binary main_v5 main_v59 main_v60 (addi : (⟨S850000, .i32⟩ : BufTy).Contents (Elt F) → (⟨S850000, .i32⟩ : BufTy).Contents (Elt F) → (⟨S850000, .i32⟩ : BufTy).Contents (Elt F)),
    ternary main_v58 main_v60 main_v5 main_v61 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v61 main_v62 (broadcastInDim S850000x1 ![0] bcast_S850000_S850000x1_0 : (⟨S850000, .i32⟩ : BufTy).Contents (Elt F) → (⟨S850000x1, .i32⟩ : BufTy).Contents (Elt F)),
    binary main_v55 main_v62 main_v63 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    unary main_v56 main_v64 (broadcastInDim S850000x96 ![0, 1] bcast_S850000x1_S850000x96_0_1 : (⟨S850000x1, .f32⟩ : BufTy).Contents (Elt F) → (⟨S850000x96, .f32⟩ : BufTy).Contents (Elt F)),
    binary main_v64 main_v63 main_v65 (mulf : (⟨S850000x96, .f32⟩ : BufTy).Contents (Elt F) → (⟨S850000x96, .f32⟩ : BufTy).Contents (Elt F) → (⟨S850000x96, .f32⟩ : BufTy).Contents (Elt F)),
    nullary main_cst_11 (constant S_ .f32 0x00000000#32),
    unary main_cst_11 main_v66 (broadcastInDim S50000x96 ![] bcast_S_S50000x96 : (⟨S_, .f32⟩ : BufTy).Contents (Elt F) → (⟨S50000x96, .f32⟩ : BufTy).Contents (Elt F)),
    unary main_v6 main_v67 (broadcastInDim S850000x1 ![0] bcast_S850000_S850000x1_0 : (⟨S850000, .i32⟩ : BufTy).Contents (Elt F) → (⟨S850000x1, .i32⟩ : BufTy).Contents (Elt F)),
    ternary main_v66 main_v67 main_v65 main_v68 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    unary main_arg6 main_v69 (broadcastInDim S1x96 ![1] bcast_S96_S1x96_1 : (⟨S96, .f32⟩ : BufTy).Contents (Elt F) → (⟨S1x96, .f32⟩ : BufTy).Contents (Elt F)),
    unary main_v69 main_v70 (broadcastInDim S50000x96 ![0, 1] bcast_S1x96_S50000x96_0_1 : (⟨S1x96, .f32⟩ : BufTy).Contents (Elt F) → (⟨S50000x96, .f32⟩ : BufTy).Contents (Elt F)),
    binary main_v68 main_v70 main_v71 (addf : (⟨S50000x96, .f32⟩ : BufTy).Contents (Elt F) → (⟨S50000x96, .f32⟩ : BufTy).Contents (Elt F) → (⟨S50000x96, .f32⟩ : BufTy).Contents (Elt F)) ]

/-- Operations 117 … 131 of @main. -/
abbrev ops7 : List (HloOp τ sig (Elt F)) :=
  [ TRef.nullary main_call3.cst (constant S_ .f32 0x00000000#32),
    TRef.unary main_call3.cst main_call3.v0 (broadcastInDim S50000x96 ![] bcast_S_S50000x96),
    TRef.binary (.of main_v71 : TRef sig ⟨S50000x96, .f32⟩) main_call3.v0 main_call3.v1 (cmpf .ogt),
    TRef.nullary main_call3.cst_0 (constant S_ .f32 0x00000000#32),
    TRef.unary main_call3.cst_0 main_call3.v2 (broadcastInDim S50000x96 ![] bcast_S_S50000x96),
    TRef.binary (.of main_v71 : TRef sig ⟨S50000x96, .f32⟩) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S50000x96 ![] bcast_S_S50000x96),
    TRef.ternary main_call3.v3 main_call3.call0.v1 (.of main_v71 : TRef sig ⟨S50000x96, .f32⟩) main_call3.call0.v2 select,
    TRef.unary main_call3.call0.v2 main_call3.v5 Host.expm1,
    TRef.nullary main_call3.cst_2 (constant S_ .f32 0x3F800000#32),
    TRef.unary main_call3.cst_2 main_call3.v6 (broadcastInDim S50000x96 ![] bcast_S_S50000x96),
    TRef.binary main_call3.v6 main_call3.v5 main_call3.v7 mulf,
    TRef.ternary main_call3.v1 (.of main_v71 : TRef sig ⟨S50000x96, .f32⟩) main_call3.v7 main_call3.call1.v0 select ]

/-- Operations 132 … 151 of @main. -/
abbrev ops8 : List (HloOp τ sig (Elt F)) :=
  [ binary main_v72 main_arg7 main_v73 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    unary main_v31 main_v74 (broadcastInDim S850000x1 ![0] bcast_S850000_S850000x1_0 : (⟨S850000, .f32⟩ : BufTy).Contents (Elt F) → (⟨S850000x1, .f32⟩ : BufTy).Contents (Elt F)),
    nullary main_c_12 (constantI S_ 32 0#32),
    unary main_c_12 main_v75 (broadcastInDim S850000 ![] bcast_S_S850000 : (⟨S_, .i32⟩ : BufTy).Contents (Elt F) → (⟨S850000, .i32⟩ : BufTy).Contents (Elt F)),
    binary main_v5 main_v75 main_v76 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v77 (broadcastInDim S850000 ![] bcast_S_S850000 : (⟨S_, .i32⟩ : BufTy).Contents (Elt F) → (⟨S850000, .i32⟩ : BufTy).Contents (Elt F)),
    binary main_v5 main_v77 main_v78 (addi : (⟨S850000, .i32⟩ : BufTy).Contents (Elt F) → (⟨S850000, .i32⟩ : BufTy).Contents (Elt F) → (⟨S850000, .i32⟩ : BufTy).Contents (Elt F)),
    ternary main_v76 main_v78 main_v5 main_v79 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v79 main_v80 (broadcastInDim S850000x1 ![0] bcast_S850000_S850000x1_0 : (⟨S850000, .i32⟩ : BufTy).Contents (Elt F) → (⟨S850000x1, .i32⟩ : BufTy).Contents (Elt F)),
    binary main_v73 main_v80 main_v81 ((fun x i => Host.gather gather_S50000x96_S850000x1_S850000x96_1_0_n_n_0_1_196 x i) : (⟨S50000x96, .f32⟩ : BufTy).Contents (Elt F) → (⟨S850000x1, .i32⟩ : BufTy).Contents (Elt F) → (⟨S850000x96, .f32⟩ : BufTy).Contents (Elt F)),
    unary main_v74 main_v82 (broadcastInDim S850000x96 ![0, 1] bcast_S850000x1_S850000x96_0_1 : (⟨S850000x1, .f32⟩ : BufTy).Contents (Elt F) → (⟨S850000x96, .f32⟩ : BufTy).Contents (Elt F)),
    binary main_v82 main_v81 main_v83 (mulf : (⟨S850000x96, .f32⟩ : BufTy).Contents (Elt F) → (⟨S850000x96, .f32⟩ : BufTy).Contents (Elt F) → (⟨S850000x96, .f32⟩ : BufTy).Contents (Elt F)),
    nullary main_cst_14 (constant S_ .f32 0x00000000#32),
    unary main_cst_14 main_v84 (broadcastInDim S50000x96 ![] bcast_S_S50000x96 : (⟨S_, .f32⟩ : BufTy).Contents (Elt F) → (⟨S50000x96, .f32⟩ : BufTy).Contents (Elt F)),
    unary main_v6 main_v85 (broadcastInDim S850000x1 ![0] bcast_S850000_S850000x1_0 : (⟨S850000, .i32⟩ : BufTy).Contents (Elt F) → (⟨S850000x1, .i32⟩ : BufTy).Contents (Elt F)),
    ternary main_v84 main_v85 main_v83 main_v86 ((fun x i u => Host.scatterAdd scatter_S50000x96_S850000x1_S850000x96_1_0_0_1 x i u) : (⟨S50000x96, .f32⟩ : BufTy).Contents (Elt F) → (⟨S850000x1, .i32⟩ : BufTy).Contents (Elt F) → (⟨S850000x96, .f32⟩ : BufTy).Contents (Elt F) → (⟨S50000x96, .f32⟩ : BufTy).Contents (Elt F)),
    unary main_arg8 main_v87 (broadcastInDim S1x96 ![1] bcast_S96_S1x96_1 : (⟨S96, .f32⟩ : BufTy).Contents (Elt F) → (⟨S1x96, .f32⟩ : BufTy).Contents (Elt F)),
    unary main_v87 main_v88 (broadcastInDim S50000x96 ![0, 1] bcast_S1x96_S50000x96_0_1 : (⟨S1x96, .f32⟩ : BufTy).Contents (Elt F) → (⟨S50000x96, .f32⟩ : BufTy).Contents (Elt F)),
    binary main_v86 main_v88 main_v89 (addf : (⟨S50000x96, .f32⟩ : BufTy).Contents (Elt F) → (⟨S50000x96, .f32⟩ : BufTy).Contents (Elt F) → (⟨S50000x96, .f32⟩ : BufTy).Contents (Elt F)) ]

/-- Operations 152 … 166 of @main. -/
abbrev ops9 : List (HloOp τ sig (Elt F)) :=
  [ TRef.nullary main_call4.cst (constant S_ .f32 0x00000000#32),
    TRef.unary main_call4.cst main_call4.v0 (broadcastInDim S50000x96 ![] bcast_S_S50000x96),
    TRef.binary (.of main_v89 : TRef sig ⟨S50000x96, .f32⟩) main_call4.v0 main_call4.v1 (cmpf .ogt),
    TRef.nullary main_call4.cst_0 (constant S_ .f32 0x00000000#32),
    TRef.unary main_call4.cst_0 main_call4.v2 (broadcastInDim S50000x96 ![] bcast_S_S50000x96),
    TRef.binary (.of main_v89 : TRef sig ⟨S50000x96, .f32⟩) main_call4.v2 main_call4.v3 (cmpf .ogt),
    TRef.nullary main_call4.cst_1 (constant S_ .f32 0x00000000#32),
    TRef.unary main_call4.cst_1 main_call4.call0.v0 id,
    TRef.unary main_call4.call0.v0 main_call4.call0.v1 (broadcastInDim S50000x96 ![] bcast_S_S50000x96),
    TRef.ternary main_call4.v3 main_call4.call0.v1 (.of main_v89 : TRef sig ⟨S50000x96, .f32⟩) main_call4.call0.v2 select,
    TRef.unary main_call4.call0.v2 main_call4.v5 Host.expm1,
    TRef.nullary main_call4.cst_2 (constant S_ .f32 0x3F800000#32),
    TRef.unary main_call4.cst_2 main_call4.v6 (broadcastInDim S50000x96 ![] bcast_S_S50000x96),
    TRef.binary main_call4.v6 main_call4.v5 main_call4.v7 mulf,
    TRef.ternary main_call4.v1 (.of main_v89 : TRef sig ⟨S50000x96, .f32⟩) main_call4.v7 main_call4.call1.v0 select ]

/-- Operations 167 … 171 of @main. -/
abbrev ops10 : List (HloOp τ sig (Elt F)) :=
  [ binary main_v49 main_v90 main_v91 (addf : (⟨S50000x96, .f32⟩ : BufTy).Contents (Elt F) → (⟨S50000x96, .f32⟩ : BufTy).Contents (Elt F) → (⟨S50000x96, .f32⟩ : BufTy).Contents (Elt F)),
    binary main_v91 main_arg11 main_v92 ((fun l r => Host.dotGeneral dot_S50000x96_S96x40_S50000x40_1_0_0_1_n_n none l r) : (⟨S50000x96, .f32⟩ : BufTy).Contents (Elt F) → (⟨S96x40, .f32⟩ : BufTy).Contents (Elt F) → (⟨S50000x40, .f32⟩ : BufTy).Contents (Elt F)),
    unary main_arg12 main_v93 (broadcastInDim S1x40 ![1] bcast_S40_S1x40_1 : (⟨S40, .f32⟩ : BufTy).Contents (Elt F) → (⟨S1x40, .f32⟩ : BufTy).Contents (Elt F)),
    unary main_v93 main_v94 (broadcastInDim S50000x40 ![0, 1] bcast_S1x40_S50000x40_0_1 : (⟨S1x40, .f32⟩ : BufTy).Contents (Elt F) → (⟨S50000x40, .f32⟩ : BufTy).Contents (Elt F)),
    binary main_v92 main_v94 main_v95 (addf : (⟨S50000x40, .f32⟩ : BufTy).Contents (Elt F) → (⟨S50000x40, .f32⟩ : BufTy).Contents (Elt F) → (⟨S50000x40, .f32⟩ : BufTy).Contents (Elt F)) ]

/-- Operations 172 … 186 of @main. -/
abbrev ops11 : List (HloOp τ sig (Elt F)) :=
  [ TRef.nullary main_call5.cst (constant S_ .f32 0xFF800000#32),
    TRef.binary (.of main_v95 : TRef sig ⟨S50000x40, .f32⟩) main_call5.cst main_call5.v0 (fun x v => Host.reduce FloatOps.maximumf x v reducesTo_S50000x40_S50000_d1 h_S_),
    TRef.nullary main_call5.cst_0 (constant S_ .f32 0xFF800000#32),
    TRef.unary main_call5.cst_0 main_call5.v1 (broadcastInDim S50000 ![] bcast_S_S50000),
    TRef.binary main_call5.v1 main_call5.v0 main_call5.v2 maximumf,
    TRef.unary main_call5.v2 main_call5.v3 (broadcastInDim S50000x1 ![0] bcast_S50000_S50000x1_0),
    TRef.unary main_call5.v3 main_call5.v4 (broadcastInDim S50000x40 ![0, 1] bcast_S50000x1_S50000x40_0_1),
    TRef.binary (.of main_v95 : TRef sig ⟨S50000x40, .f32⟩) main_call5.v4 main_call5.v5 subf,
    TRef.unary main_call5.v5 main_call5.v6 Host.exp,
    TRef.nullary main_call5.cst_1 (constant S_ .f32 0x00000000#32),
    TRef.binary main_call5.v6 main_call5.cst_1 main_call5.v7 (fun x v => Host.reduceAdd x v reducesTo_S50000x40_S50000_d1 h_S_),
    TRef.unary main_call5.v7 main_call5.v8 (broadcastInDim S50000x1 ![0] bcast_S50000_S50000x1_0),
    TRef.unary main_call5.v8 main_call5.v9 Host.log,
    TRef.unary main_call5.v9 main_call5.v10 (broadcastInDim S50000x40 ![0, 1] bcast_S50000x1_S50000x40_0_1),
    TRef.binary main_call5.v5 main_call5.v10 main_call5.v11 subf ]

end Cert.ReferenceIdeal.RefRun

end
-- ==== Proof.LibAfterAppend.lean ====
/-
  A straight line of host operations run in two stretches: the fold of the operations' results over a valuation
  (`StableHlo.after`) of a concatenation is the fold of the second stretch over the fold of the first. It lets a
  long line be read stretch by stretch, each against an arbitrary valuation.
-/
import Idealize.ShloMosaic.Lib.StableHlo.Run

namespace Idealize.ShloMosaic.StableHlo

variable {τ : Topo} {sig : RefSig} {Val : EltTy → Type}

/-- The results after `a ++ b` are the results after `b` of the results after `a`. -/
theorem after_append (a b : List (HloOp τ sig Val)) (V : Valuation τ sig Val) :
    after (a ++ b) V = after b (after a V) := by
  induction a generalizing V with
  | nil => rfl
  | cons op a ih => exact ih (op.result V)

end Idealize.ShloMosaic.StableHlo
-- ==== Proof.RefRun.lean ====
/-
  The reference program's run. Its @main is one straight line of host operations — the operations listed in the
  table module, each called function's operations standing in its call's place over the call's buffers —, so every
  weakly fair execution terminates with every buffer at the fold of the operations' results over the launch
  contents. No operation writes an argument's buffer (the arguments are the first thirteen buffers; every result
  buffer comes after them), so the arguments end unchanged.
-/
import proofs.«180035_j36816459661702_1_alg».proof.Proof.RefOps
import proofs.«180035_j36816459661702_1_alg».proof.Proof.LibAfterAppend

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's first window (statements 1 … 60): the edge normalisation and the first convolution up to
    its bias. -/
abbrev opsA : List (HloOp τ sig (Elt F)) := ops0 ++ (ops1 ++ ops2)

/-- The operations of @main's second window (statements 61 … 115). -/
abbrev opsB : List (HloOp τ sig (Elt F)) :=
  ops3 ++ (ops4 ++ (ops5 ++ (ops6 ++ (ops7 ++ (ops8 ++ (ops9 ++ (ops10 ++ ops11)))))))

/-- @main's 186 operations, in order. -/
abbrev ops : List (HloOp τ sig (Elt F)) := opsA ++ opsB

/-! ## @main is that line -/

set_option maxRecDepth 8192 in
set_option maxHeartbeats 4000000 in
/-- The first window is its operations in order: the call of the selection function unfolds to its three lines. -/
theorem main_part0_eq (c : Dev nD) : main_part0 (F := F) c = seq opsA := rfl

set_option maxRecDepth 8192 in
set_option maxHeartbeats 4000000 in
/-- The second window is its operations in order: each call unfolds to the callee's lines, a call inside a callee to its
    own. -/
theorem main_part1_eq (c : Dev nD) : main_part1 (F := F) c = seq opsB := rfl

/-- @main runs its two windows in order, and two lines run in order are their concatenation run as one. -/
theorem main_eq (c : Dev nD) : main (F := F) c = seq ops := by
  show main (F := F) c = seq (opsA ++ opsB)
  rw [seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only -/

/-- A stretch's operations one by one: each is one of the five builders, whose buffers are TensorCore references (the
    builders' inclusion lemmas, keyed on the builder). -/
macro "stretch_bufs_sub" : tactic =>
  `(tactic| simp only [List.Forall, nullary_bufs_sub, unary_bufs_sub, binary_bufs_sub, ternary_bufs_sub, reshape_bufs_sub,
      and_self])

theorem ops0_sub : (ops0 : List (HloOp τ sig (Elt F))).Forall fun op => op.bufs ⊆ tcRefs τ sig := by stretch_bufs_sub
theorem ops1_sub : (ops1 : List (HloOp τ sig (Elt F))).Forall fun op => op.bufs ⊆ tcRefs τ sig := by stretch_bufs_sub
theorem ops2_sub : (ops2 : List (HloOp τ sig (Elt F))).Forall fun op => op.bufs ⊆ tcRefs τ sig := by stretch_bufs_sub
theorem ops3_sub : (ops3 : List (HloOp τ sig (Elt F))).Forall fun op => op.bufs ⊆ tcRefs τ sig := by stretch_bufs_sub
theorem ops4_sub : (ops4 : List (HloOp τ sig (Elt F))).Forall fun op => op.bufs ⊆ tcRefs τ sig := by stretch_bufs_sub
theorem ops5_sub : (ops5 : List (HloOp τ sig (Elt F))).Forall fun op => op.bufs ⊆ tcRefs τ sig := by stretch_bufs_sub
theorem ops6_sub : (ops6 : List (HloOp τ sig (Elt F))).Forall fun op => op.bufs ⊆ tcRefs τ sig := by stretch_bufs_sub
theorem ops7_sub : (ops7 : List (HloOp τ sig (Elt F))).Forall fun op => op.bufs ⊆ tcRefs τ sig := by stretch_bufs_sub
theorem ops8_sub : (ops8 : List (HloOp τ sig (Elt F))).Forall fun op => op.bufs ⊆ tcRefs τ sig := by stretch_bufs_sub
theorem ops9_sub : (ops9 : List (HloOp τ sig (Elt F))).Forall fun op => op.bufs ⊆ tcRefs τ sig := by stretch_bufs_sub
theorem ops10_sub : (ops10 : List (HloOp τ sig (Elt F))).Forall fun op => op.bufs ⊆ tcRefs τ sig := by stretch_bufs_sub
theorem ops11_sub : (ops11 : List (HloOp τ sig (Elt F))).Forall fun op => op.bufs ⊆ tcRefs τ sig := by stretch_bufs_sub

/-- A property of every operation of each stretch is one of every operation of the line. -/
theorem forall_ops {p : HloOp τ sig (Elt F) → Prop}
    (h0 : (ops0 (F := F)).Forall p) (h1 : (ops1 (F := F)).Forall p) (h2 : (ops2 (F := F)).Forall p) (h3 : (ops3 (F := F)).Forall p)
    (h4 : (ops4 (F := F)).Forall p) (h5 : (ops5 (F := F)).Forall p) (h6 : (ops6 (F := F)).Forall p) (h7 : (ops7 (F := F)).Forall p)
    (h8 : (ops8 (F := F)).Forall p) (h9 : (ops9 (F := F)).Forall p) (h10 : (ops10 (F := F)).Forall p) (h11 : (ops11 (F := F)).Forall p) :
    ∀ op ∈ (ops : List (HloOp τ sig (Elt F))), p op := by
  intro op h
  simp only [ops, opsA, opsB, List.mem_append] at h
  rcases h with (h | h | h) | h | h | h | h | h | h | h | h | h
  exacts [List.forall_iff_forall_mem.mp h0 op h, List.forall_iff_forall_mem.mp h1 op h, List.forall_iff_forall_mem.mp h2 op h,
    List.forall_iff_forall_mem.mp h3 op h, List.forall_iff_forall_mem.mp h4 op h, List.forall_iff_forall_mem.mp h5 op h,
    List.forall_iff_forall_mem.mp h6 op h, List.forall_iff_forall_mem.mp h7 op h, List.forall_iff_forall_mem.mp h8 op h,
    List.forall_iff_forall_mem.mp h9 op h, List.forall_iff_forall_mem.mp h10 op h, List.forall_iff_forall_mem.mp h11 op h]

theorem ops_sub : (ops : List (HloOp τ sig (Elt F))).Forall fun op => op.bufs ⊆ tcRefs τ sig :=
  List.forall_iff_forall_mem.mpr
    (forall_ops ops0_sub ops1_sub ops2_sub ops3_sub ops4_sub ops5_sub ops6_sub ops7_sub ops8_sub ops9_sub ops10_sub ops11_sub)

/-! ## No operation answers out of nothing -/

macro "stretch_fresh" : tactic => `(tactic| ((repeat' apply And.intro) <;> rfl))

theorem ops_fresh : ∀ op ∈ (ops : List (HloOp τ sig (Elt F))), op.fresh = ∅ :=
  forall_ops (p := fun op => op.fresh = ∅) (by stretch_fresh) (by stretch_fresh) (by stretch_fresh) (by stretch_fresh)
    (by stretch_fresh) (by stretch_fresh) (by stretch_fresh) (by stretch_fresh) (by stretch_fresh) (by stretch_fresh)
    (by stretch_fresh) (by stretch_fresh)

/-! ## The arguments are never written -/

/-- A reference among the first thirteen is not the one buffer written by an operation whose result buffer comes after
    them. -/
theorem not_written {y : Ref sig .tc} (hy : 13 ≤ y.idx.val) (r : Ref sig .tc) (hr : r.idx.val < 13) :
    Proc.devRef (τ := τ) .tc r ∉ ({Proc.devRef .tc y} : Finset (DevRef τ sig)) := by
  rw [Finset.mem_singleton]
  intro e
  have := Proc.devRef_injective _ e
  subst this
  omega

macro "stretch_keeps" : tactic =>
  `(tactic| ((repeat' apply And.intro) <;> exact fun r hr => not_written (by decide) r hr))

/-- No operation of the line writes one of the first thirteen buffers. -/
theorem ops_keep : ∀ op ∈ (ops : List (HloOp τ sig (Elt F))),
    ∀ r : Ref sig .tc, r.idx.val < 13 → Proc.devRef (τ := τ) .tc r ∉ op.writes :=
  forall_ops (p := fun op => ∀ r : Ref sig .tc, r.idx.val < 13 → Proc.devRef (τ := τ) .tc r ∉ op.writes)
    (by stretch_keeps) (by stretch_keeps) (by stretch_keeps) (by stretch_keeps) (by stretch_keeps) (by stretch_keeps)
    (by stretch_keeps) (by stretch_keeps) (by stretch_keeps) (by stretch_keeps) (by stretch_keeps) (by stretch_keeps)

/-- An argument's buffer holds after the line what it held before. -/
theorem arg_kept (V : Valuation τ sig (Elt F)) (r : Ref sig .tc) (hr : r.idx.val < 13 := by decide) :
    after ops V (Proc.devRef .tc r) = V (Proc.devRef .tc r) :=
  after_of_forall_not_mem ops V fun op hop => ops_keep op hop r hr

/-! ## The run -/

/-- On every device, for any float values, from any memory with zero counters: every weakly fair execution of @main
    terminates with the result buffer at the fold of the operations' results over the launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v96) = after ops (launchContents m c) (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨h c main_v96,
      (h c main_arg0).trans (arg_kept (launchContents m c) main_arg0),
      (h c main_arg1).trans (arg_kept (launchContents m c) main_arg1),
      (h c main_arg2).trans (arg_kept (launchContents m c) main_arg2),
      (h c main_arg3).trans (arg_kept (launchContents m c) main_arg3),
      (h c main_arg4).trans (arg_kept (launchContents m c) main_arg4),
      (h c main_arg5).trans (arg_kept (launchContents m c) main_arg5),
      (h c main_arg6).trans (arg_kept (launchContents m c) main_arg6),
      (h c main_arg7).trans (arg_kept (launchContents m c) main_arg7),
      (h c main_arg8).trans (arg_kept (launchContents m c) main_arg8),
      (h c main_arg9).trans (arg_kept (launchContents m c) main_arg9),
      (h c main_arg10).trans (arg_kept (launchContents m c) main_arg10),
      (h c main_arg11).trans (arg_kept (launchContents m c) main_arg11),
      (h c main_arg12).trans (arg_kept (launchContents m c) main_arg12)⟩)
    (run_seq scopedRefs_eq scopedSems_eq defs main (fun _ => ops) main_eq (fun _ => ops_sub) m ρ (fun _ => ops_fresh))

end Cert.ReferenceIdeal.RefRun

end
-- ==== Proof.RefReadB.lean ====
/-
  The later stretches of the reference's line of host operations, each read from arbitrary buffer contents.

  The second and the third convolution before their units (the dense product, one round of message passing, the bias
  row), the classifier (the two branches added, the dense product, the bias row) and the logarithm of the softmax of
  each row: each stretch, run from contents W, leaves in its result buffer the corresponding stage of the reference
  network of what W holds in the buffers the stretch reads.
-/
import proofs.«180035_j36816459661702_1_alg».proof.Proof.RefOps
import proofs.«180035_j36816459661702_1_alg».proof.Proof.Model
import proofs.«180035_j36816459661702_1_alg».proof.Proof.LibTypedRef
import proofs.«180035_j36816459661702_1_alg».proof.Proof.LibResultsInside

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The second convolution before its unit: the dense product, one round of message passing, the bias row. -/
theorem read6 (W : Valuation τ sig (Elt F)) :
    after ops6 W (Proc.devRef .tc main_v71)
      = addf (Cert.Model.aggWith (W (Proc.devRef .tc main_v5)) (W (Proc.devRef .tc main_v6)) (W (Proc.devRef .tc main_v31))
            (Cert.Model.dotHid (W (Proc.devRef .tc main_v54)) (W (Proc.devRef .tc main_arg5))))
          (Cert.Model.bias96 (W (Proc.devRef .tc main_arg6))) := by
  simp only [ops6]
  after_results_simp
  unfold Cert.Model.aggWith Cert.Model.col Cert.Model.wrap Cert.Model.dotHid Cert.Model.bias96 Cert.Model.zero0
  rfl

/-- The third convolution before its unit. -/
theorem read8 (W : Valuation τ sig (Elt F)) :
    after ops8 W (Proc.devRef .tc main_v89)
      = addf (Cert.Model.aggWith (W (Proc.devRef .tc main_v5)) (W (Proc.devRef .tc main_v6)) (W (Proc.devRef .tc main_v31))
            (Cert.Model.dotHid (W (Proc.devRef .tc main_v72)) (W (Proc.devRef .tc main_arg7))))
          (Cert.Model.bias96 (W (Proc.devRef .tc main_arg8))) := by
  simp only [ops8]
  after_results_simp
  unfold Cert.Model.aggWith Cert.Model.col Cert.Model.wrap Cert.Model.dotHid Cert.Model.bias96 Cert.Model.zero0
  rfl

/-- The classifier: the two branches added, the dense product, the bias row along every row. -/
theorem read10 (W : Valuation τ sig (Elt F)) :
    after ops10 W (Proc.devRef .tc main_v95)
      = addf (Cert.Model.dotOut (addf (W (Proc.devRef .tc main_v49)) (W (Proc.devRef .tc main_v90))) (W (Proc.devRef .tc main_arg11)))
          (Cert.Model.bias40 (W (Proc.devRef .tc main_arg12))) := by
  simp only [ops10]
  after_results_simp
  unfold Cert.Model.dotOut Cert.Model.bias40
  rfl

/-- A typed reference to a buffer of the very type reads the buffer's contents as they are, and writes a value as
    it is. -/
theorem ofBuf_v95 {Val : EltTy → Type} (h1 : main_v95.ty = (⟨S50000x40, .f32⟩ : BufTy)) (h2 : main_v95.space ≠ .host)
    (h3 : main_v95.isScoped = false) (v : main_v95.ty.Contents Val) :
    (TRef.of (T := ⟨S50000x40, .f32⟩) main_v95 h1 h2 h3).ofBuf v = v := rfl
theorem toBuf_v96 {Val : EltTy → Type} (h1 : main_v96.ty = (⟨S50000x40, .f32⟩ : BufTy)) (h2 : main_v96.space ≠ .host)
    (h3 : main_v96.isScoped = false) (v : (⟨S50000x40, .f32⟩ : BufTy).Contents Val) :
    (TRef.of (T := ⟨S50000x40, .f32⟩) main_v96 h1 h2 h3).toBuf v = v := rfl

set_option maxRecDepth 8192 in
/-- The logarithm of the softmax of each row of the logits. -/
theorem read11 (W : Valuation τ sig (Elt F)) :
    after ops11 W (Proc.devRef .tc main_v96) = Cert.Model.logSoftmax (W (Proc.devRef .tc main_v95)) := by
  simp only [ops11]
  after_results_simp
  simp only [TRef.ofBuf_toBuf, ofBuf_v95, toBuf_v96]
  unfold Cert.Model.logSoftmax Cert.Model.shifted Cert.Model.zero0
  rfl

end Cert.ReferenceIdeal.RefRun

end
-- ==== Proof.RefRead.lean ====
/-
  The reference program's result read back: the fold of @main's operations at the result buffer is the staged model of
  the thirteen argument arrays. The line is read stretch by stretch, each stretch from an arbitrary valuation: a
  stretch's result buffer holds the stretch's stage of what the valuation holds at the buffers the stretch reads, and a
  buffer the stretch does not write holds what it held. A called function's operations read and write through typed
  references; written-then-read transports cancel, and the transports at a stretch's two ends are the identity at these
  buffers.
-/
import proofs.«180035_j36816459661702_1_alg».proof.Proof.RefRun
import proofs.«180035_j36816459661702_1_alg».proof.Proof.RefReadB
import proofs.«180035_j36816459661702_1_alg».proof.Proof.Model
import proofs.«180035_j36816459661702_1_alg».proof.Proof.LibTypedRef
import proofs.«180035_j36816459661702_1_alg».proof.Proof.LibResultsInside

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Model (Arr)

variable {F : FTy → Type} [FloatOps F]

/-! ## The transports at the stretches' ends

Each is stated over a variable value, where the only reduction is the transport's own. -/

section Ends
variable {Val : EltTy → Type}

theorem ofBuf_v13 (h1 : main_v13.ty = (⟨S50000, .i1⟩ : BufTy)) (h2 : main_v13.space ≠ .host) (h3 : main_v13.isScoped = false)
    (v : main_v13.ty.Contents Val) : (TRef.of (T := ⟨S50000, .i1⟩) main_v13 h1 h2 h3).ofBuf v = v := rfl
theorem ofBuf_v14 (h1 : main_v14.ty = (⟨S50000, .f32⟩ : BufTy)) (h2 : main_v14.space ≠ .host) (h3 : main_v14.isScoped = false)
    (v : main_v14.ty.Contents Val) : (TRef.of (T := ⟨S50000, .f32⟩) main_v14 h1 h2 h3).ofBuf v = v := rfl
theorem ofBuf_cst_2 (h1 : main_cst_2.ty = (⟨S_, .f32⟩ : BufTy)) (h2 : main_cst_2.space ≠ .host) (h3 : main_cst_2.isScoped = false)
    (v : main_cst_2.ty.Contents Val) : (TRef.of (T := ⟨S_, .f32⟩) main_cst_2 h1 h2 h3).ofBuf v = v := rfl
theorem ofBuf_v48 (h1 : main_v48.ty = (⟨S50000x96, .f32⟩ : BufTy)) (h2 : main_v48.space ≠ .host) (h3 : main_v48.isScoped = false)
    (v : main_v48.ty.Contents Val) : (TRef.of (T := ⟨S50000x96, .f32⟩) main_v48 h1 h2 h3).ofBuf v = v := rfl
theorem ofBuf_v53 (h1 : main_v53.ty = (⟨S50000x96, .f32⟩ : BufTy)) (h2 : main_v53.space ≠ .host) (h3 : main_v53.isScoped = false)
    (v : main_v53.ty.Contents Val) : (TRef.of (T := ⟨S50000x96, .f32⟩) main_v53 h1 h2 h3).ofBuf v = v := rfl
theorem ofBuf_v71 (h1 : main_v71.ty = (⟨S50000x96, .f32⟩ : BufTy)) (h2 : main_v71.space ≠ .host) (h3 : main_v71.isScoped = false)
    (v : main_v71.ty.Contents Val) : (TRef.of (T := ⟨S50000x96, .f32⟩) main_v71 h1 h2 h3).ofBuf v = v := rfl
theorem ofBuf_v89 (h1 : main_v89.ty = (⟨S50000x96, .f32⟩ : BufTy)) (h2 : main_v89.space ≠ .host) (h3 : main_v89.isScoped = false)
    (v : main_v89.ty.Contents Val) : (TRef.of (T := ⟨S50000x96, .f32⟩) main_v89 h1 h2 h3).ofBuf v = v := rfl

theorem toBuf_v15 (h1 : main_v15.ty = (⟨S50000, .f32⟩ : BufTy)) (h2 : main_v15.space ≠ .host) (h3 : main_v15.isScoped = false)
    (v : (⟨S50000, .f32⟩ : BufTy).Contents Val) : (TRef.of (T := ⟨S50000, .f32⟩) main_v15 h1 h2 h3).toBuf v = v := rfl
theorem toBuf_v49 (h1 : main_v49.ty = (⟨S50000x96, .f32⟩ : BufTy)) (h2 : main_v49.space ≠ .host) (h3 : main_v49.isScoped = false)
    (v : (⟨S50000x96, .f32⟩ : BufTy).Contents Val) : (TRef.of (T := ⟨S50000x96, .f32⟩) main_v49 h1 h2 h3).toBuf v = v := rfl
theorem toBuf_v54 (h1 : main_v54.ty = (⟨S50000x96, .f32⟩ : BufTy)) (h2 : main_v54.space ≠ .host) (h3 : main_v54.isScoped = false)
    (v : (⟨S50000x96, .f32⟩ : BufTy).Contents Val) : (TRef.of (T := ⟨S50000x96, .f32⟩) main_v54 h1 h2 h3).toBuf v = v := rfl
theorem toBuf_v72 (h1 : main_v72.ty = (⟨S50000x96, .f32⟩ : BufTy)) (h2 : main_v72.space ≠ .host) (h3 : main_v72.isScoped = false)
    (v : (⟨S50000x96, .f32⟩ : BufTy).Contents Val) : (TRef.of (T := ⟨S50000x96, .f32⟩) main_v72 h1 h2 h3).toBuf v = v := rfl
theorem toBuf_v90 (h1 : main_v90.ty = (⟨S50000x96, .f32⟩ : BufTy)) (h2 : main_v90.space ≠ .host) (h3 : main_v90.isScoped = false)
    (v : (⟨S50000x96, .f32⟩ : BufTy).Contents Val) : (TRef.of (T := ⟨S50000x96, .f32⟩) main_v90 h1 h2 h3).toBuf v = v := rfl

end Ends

/-! ## The stretches, each from an arbitrary valuation -/

/-- The normalised edge weights from the inverse square roots of the degrees, the edge ends and the weights. -/
def normWith (d : Arr F S50000 .f32) (r c : Arr F S850000 .i32) (w : Arr F S850000 .f32) : Arr F S850000 .f32 :=
  mulf (mulf (Host.gather gather_S50000_S850000x1_S850000_n_0_n_n_0_1_1 d (Cert.Model.wrap r)) w)
    (Host.gather gather_S50000_S850000x1_S850000_n_0_n_n_0_1_1 d (Cert.Model.wrap c))

theorem norm_eq (ei : Arr F S2x800000 .i32) (ew : Arr F S800000 .f32) :
    Cert.Model.norm ei ew = normWith (Cert.Model.dinv ei ew) (Cert.Model.rows ei) (Cert.Model.cols ei) (Cert.Model.wts ew) := rfl

set_option maxRecDepth 8192 in
theorem ops0_v5 (W : Valuation τ sig (Elt F)) :
    after ops0 W (Proc.devRef .tc main_v5) = Cert.Model.rows (W (Proc.devRef .tc main_arg1)) := by
  simp only [ops0]
  after_results_simp
  results_inside
  unfold Cert.Model.rows Cert.Model.ends
  rfl

set_option maxRecDepth 8192 in
theorem ops0_v6 (W : Valuation τ sig (Elt F)) :
    after ops0 W (Proc.devRef .tc main_v6) = Cert.Model.cols (W (Proc.devRef .tc main_arg1)) := by
  simp only [ops0]
  after_results_simp
  results_inside
  unfold Cert.Model.cols Cert.Model.ends
  rfl

set_option maxRecDepth 8192 in
theorem ops0_v8 (W : Valuation τ sig (Elt F)) :
    after ops0 W (Proc.devRef .tc main_v8) = Cert.Model.wts (W (Proc.devRef .tc main_arg2)) := by
  simp only [ops0]
  after_results_simp
  results_inside
  unfold Cert.Model.wts Cert.Model.one0
  rfl

set_option maxRecDepth 8192 in
theorem ops0_v15 (W : Valuation τ sig (Elt F)) :
    after ops0 W (Proc.devRef .tc main_v15)
      = Cert.Model.dinv (W (Proc.devRef .tc main_arg1)) (W (Proc.devRef .tc main_arg2)) := by
  simp only [ops0]
  after_results_simp
  results_inside
  simp only [TRef.ofBuf_toBuf, ofBuf_v13, ofBuf_v14, ofBuf_cst_2, toBuf_v15]
  unfold Cert.Model.dinv Cert.Model.deg Cert.Model.col Cert.Model.cols Cert.Model.ends Cert.Model.wts Cert.Model.zero0 Cert.Model.one0
  rfl

set_option maxRecDepth 8192 in
theorem ops1_v31 (W : Valuation τ sig (Elt F)) :
    after ops1 W (Proc.devRef .tc main_v31)
      = normWith (W (Proc.devRef .tc main_v15)) (W (Proc.devRef .tc main_v5)) (W (Proc.devRef .tc main_v6))
          (W (Proc.devRef .tc main_v8)) := by
  simp only [ops1]
  after_results_simp
  unfold normWith Cert.Model.wrap
  rfl

set_option maxRecDepth 8192 in
theorem ops2_v48 (W : Valuation τ sig (Elt F)) :
    after ops2 W (Proc.devRef .tc main_v48)
      = addf (Cert.Model.aggWith (W (Proc.devRef .tc main_v5)) (W (Proc.devRef .tc main_v6)) (W (Proc.devRef .tc main_v31))
          (Cert.Model.dotIn (W (Proc.devRef .tc main_arg0)) (W (Proc.devRef .tc main_arg3))))
        (Cert.Model.bias96 (W (Proc.devRef .tc main_arg4))) := by
  simp only [ops2]
  after_results_simp
  unfold Cert.Model.aggWith Cert.Model.col Cert.Model.wrap Cert.Model.dotIn Cert.Model.bias96 Cert.Model.zero0
  rfl

set_option maxRecDepth 8192 in
theorem ops3_v49 (W : Valuation τ sig (Elt F)) :
    after ops3 W (Proc.devRef .tc main_v49) = Cert.Model.elu (W (Proc.devRef .tc main_v48)) := by
  simp only [ops3]
  after_results_simp
  simp only [TRef.ofBuf_toBuf, ofBuf_v48, toBuf_v49]
  unfold Cert.Model.elu Cert.Model.zero0 Cert.Model.one0
  rfl

set_option maxRecDepth 8192 in
theorem ops4_v53 (W : Valuation τ sig (Elt F)) :
    after ops4 W (Proc.devRef .tc main_v53)
      = addf (Cert.Model.dotIn (W (Proc.devRef .tc main_arg0)) (W (Proc.devRef .tc main_arg9)))
          (Cert.Model.bias96 (W (Proc.devRef .tc main_arg10))) := by
  simp only [ops4]
  after_results_simp
  unfold Cert.Model.dotIn Cert.Model.bias96
  rfl

set_option maxRecDepth 8192 in
theorem ops5_v54 (W : Valuation τ sig (Elt F)) :
    after ops5 W (Proc.devRef .tc main_v54) = Cert.Model.elu (W (Proc.devRef .tc main_v53)) := by
  simp only [ops5]
  after_results_simp
  simp only [TRef.ofBuf_toBuf, ofBuf_v53, toBuf_v54]
  unfold Cert.Model.elu Cert.Model.zero0 Cert.Model.one0
  rfl

set_option maxRecDepth 8192 in
theorem ops7_v72 (W : Valuation τ sig (Elt F)) :
    after ops7 W (Proc.devRef .tc main_v72) = Cert.Model.elu (W (Proc.devRef .tc main_v71)) := by
  simp only [ops7]
  after_results_simp
  simp only [TRef.ofBuf_toBuf, ofBuf_v71, toBuf_v72]
  unfold Cert.Model.elu Cert.Model.zero0 Cert.Model.one0
  rfl

set_option maxRecDepth 8192 in
theorem ops9_v90 (W : Valuation τ sig (Elt F)) :
    after ops9 W (Proc.devRef .tc main_v90) = Cert.Model.elu (W (Proc.devRef .tc main_v89)) := by
  simp only [ops9]
  after_results_simp
  simp only [TRef.ofBuf_toBuf, ofBuf_v89, toBuf_v90]
  unfold Cert.Model.elu Cert.Model.zero0 Cert.Model.one0
  rfl

/-! ## What a stretch does not write it keeps

The buffers are numbered in the order the operations write them, so a stretch writes one interval of numbers. -/

/-- A reference numbered outside an interval is not the one buffer written by an operation whose result buffer is numbered
    inside it. -/
theorem not_written_in {lo hi : Nat} {y : Ref sig .tc} (hy : lo ≤ y.idx.val ∧ y.idx.val ≤ hi) (r : Ref sig .tc)
    (hr : r.idx.val < lo ∨ hi < r.idx.val) :
    Proc.devRef (τ := τ) .tc r ∉ ({Proc.devRef .tc y} : Finset (DevRef τ sig)) := by
  rw [Finset.mem_singleton]
  intro e
  have := Proc.devRef_injective _ e
  subst this
  omega

macro "stretch_keeps_in" : tactic =>
  `(tactic| ((repeat' apply And.intro) <;> exact fun r hr => not_written_in (by decide) r hr))

theorem ops0_writes : (ops0 : List (HloOp τ sig (Elt F))).Forall fun op =>
    ∀ r : Ref sig .tc, r.idx.val < 13 ∨ 34 < r.idx.val → Proc.devRef (τ := τ) .tc r ∉ op.writes := by stretch_keeps_in
theorem keep0 (W : Valuation τ sig (Elt F)) (r : Ref sig .tc) (hr : r.idx.val < 13 ∨ 34 < r.idx.val) :
    after ops0 W (no_index (Proc.devRef .tc r)) = W (Proc.devRef .tc r) :=
  after_of_forall_not_mem ops0 W fun op hop => List.forall_iff_forall_mem.mp ops0_writes op hop r hr

theorem ops1_writes : (ops1 : List (HloOp τ sig (Elt F))).Forall fun op =>
    ∀ r : Ref sig .tc, r.idx.val < 35 ∨ 54 < r.idx.val → Proc.devRef (τ := τ) .tc r ∉ op.writes := by stretch_keeps_in
theorem keep1 (W : Valuation τ sig (Elt F)) (r : Ref sig .tc) (hr : r.idx.val < 35 ∨ 54 < r.idx.val) :
    after ops1 W (no_index (Proc.devRef .tc r)) = W (Proc.devRef .tc r) :=
  after_of_forall_not_mem ops1 W fun op hop => List.forall_iff_forall_mem.mp ops1_writes op hop r hr

theorem ops2_writes : (ops2 : List (HloOp τ sig (Elt F))).Forall fun op =>
    ∀ r : Ref sig .tc, r.idx.val < 55 ∨ 74 < r.idx.val → Proc.devRef (τ := τ) .tc r ∉ op.writes := by stretch_keeps_in
theorem keep2 (W : Valuation τ sig (Elt F)) (r : Ref sig .tc) (hr : r.idx.val < 55 ∨ 74 < r.idx.val) :
    after ops2 W (no_index (Proc.devRef .tc r)) = W (Proc.devRef .tc r) :=
  after_of_forall_not_mem ops2 W fun op hop => List.forall_iff_forall_mem.mp ops2_writes op hop r hr

theorem ops3_writes : (ops3 : List (HloOp τ sig (Elt F))).Forall fun op =>
    ∀ r : Ref sig .tc, r.idx.val < 75 ∨ 89 < r.idx.val → Proc.devRef (τ := τ) .tc r ∉ op.writes := by stretch_keeps_in
theorem keep3 (W : Valuation τ sig (Elt F)) (r : Ref sig .tc) (hr : r.idx.val < 75 ∨ 89 < r.idx.val) :
    after ops3 W (no_index (Proc.devRef .tc r)) = W (Proc.devRef .tc r) :=
  after_of_forall_not_mem ops3 W fun op hop => List.forall_iff_forall_mem.mp ops3_writes op hop r hr

theorem ops4_writes : (ops4 : List (HloOp τ sig (Elt F))).Forall fun op =>
    ∀ r : Ref sig .tc, r.idx.val < 90 ∨ 93 < r.idx.val → Proc.devRef (τ := τ) .tc r ∉ op.writes := by stretch_keeps_in
theorem keep4 (W : Valuation τ sig (Elt F)) (r : Ref sig .tc) (hr : r.idx.val < 90 ∨ 93 < r.idx.val) :
    after ops4 W (no_index (Proc.devRef .tc r)) = W (Proc.devRef .tc r) :=
  after_of_forall_not_mem ops4 W fun op hop => List.forall_iff_forall_mem.mp ops4_writes op hop r hr

theorem ops5_writes : (ops5 : List (HloOp τ sig (Elt F))).Forall fun op =>
    ∀ r : Ref sig .tc, r.idx.val < 94 ∨ 108 < r.idx.val → Proc.devRef (τ := τ) .tc r ∉ op.writes := by stretch_keeps_in
theorem keep5 (W : Valuation τ sig (Elt F)) (r : Ref sig .tc) (hr : r.idx.val < 94 ∨ 108 < r.idx.val) :
    after ops5 W (no_index (Proc.devRef .tc r)) = W (Proc.devRef .tc r) :=
  after_of_forall_not_mem ops5 W fun op hop => List.forall_iff_forall_mem.mp ops5_writes op hop r hr

theorem ops6_writes : (ops6 : List (HloOp τ sig (Elt F))).Forall fun op =>
    ∀ r : Ref sig .tc, r.idx.val < 109 ∨ 128 < r.idx.val → Proc.devRef (τ := τ) .tc r ∉ op.writes := by stretch_keeps_in
theorem keep6 (W : Valuation τ sig (Elt F)) (r : Ref sig .tc) (hr : r.idx.val < 109 ∨ 128 < r.idx.val) :
    after ops6 W (no_index (Proc.devRef .tc r)) = W (Proc.devRef .tc r) :=
  after_of_forall_not_mem ops6 W fun op hop => List.forall_iff_forall_mem.mp ops6_writes op hop r hr

theorem ops7_writes : (ops7 : List (HloOp τ sig (Elt F))).Forall fun op =>
    ∀ r : Ref sig .tc, r.idx.val < 129 ∨ 143 < r.idx.val → Proc.devRef (τ := τ) .tc r ∉ op.writes := by stretch_keeps_in
theorem keep7 (W : Valuation τ sig (Elt F)) (r : Ref sig .tc) (hr : r.idx.val < 129 ∨ 143 < r.idx.val) :
    after ops7 W (no_index (Proc.devRef .tc r)) = W (Proc.devRef .tc r) :=
  after_of_forall_not_mem ops7 W fun op hop => List.forall_iff_forall_mem.mp ops7_writes op hop r hr

theorem ops8_writes : (ops8 : List (HloOp τ sig (Elt F))).Forall fun op =>
    ∀ r : Ref sig .tc, r.idx.val < 144 ∨ 163 < r.idx.val → Proc.devRef (τ := τ) .tc r ∉ op.writes := by stretch_keeps_in
theorem keep8 (W : Valuation τ sig (Elt F)) (r : Ref sig .tc) (hr : r.idx.val < 144 ∨ 163 < r.idx.val) :
    after ops8 W (no_index (Proc.devRef .tc r)) = W (Proc.devRef .tc r) :=
  after_of_forall_not_mem ops8 W fun op hop => List.forall_iff_forall_mem.mp ops8_writes op hop r hr

theorem ops9_writes : (ops9 : List (HloOp τ sig (Elt F))).Forall fun op =>
    ∀ r : Ref sig .tc, r.idx.val < 164 ∨ 178 < r.idx.val → Proc.devRef (τ := τ) .tc r ∉ op.writes := by stretch_keeps_in
theorem keep9 (W : Valuation τ sig (Elt F)) (r : Ref sig .tc) (hr : r.idx.val < 164 ∨ 178 < r.idx.val) :
    after ops9 W (no_index (Proc.devRef .tc r)) = W (Proc.devRef .tc r) :=
  after_of_forall_not_mem ops9 W fun op hop => List.forall_iff_forall_mem.mp ops9_writes op hop r hr

theorem ops10_writes : (ops10 : List (HloOp τ sig (Elt F))).Forall fun op =>
    ∀ r : Ref sig .tc, r.idx.val < 179 ∨ 183 < r.idx.val → Proc.devRef (τ := τ) .tc r ∉ op.writes := by stretch_keeps_in
theorem keep10 (W : Valuation τ sig (Elt F)) (r : Ref sig .tc) (hr : r.idx.val < 179 ∨ 183 < r.idx.val) :
    after ops10 W (no_index (Proc.devRef .tc r)) = W (Proc.devRef .tc r) :=
  after_of_forall_not_mem ops10 W fun op hop => List.forall_iff_forall_mem.mp ops10_writes op hop r hr

theorem ops11_writes : (ops11 : List (HloOp τ sig (Elt F))).Forall fun op =>
    ∀ r : Ref sig .tc, r.idx.val < 184 ∨ 198 < r.idx.val → Proc.devRef (τ := τ) .tc r ∉ op.writes := by stretch_keeps_in
theorem keep11 (W : Valuation τ sig (Elt F)) (r : Ref sig .tc) (hr : r.idx.val < 184 ∨ 198 < r.idx.val) :
    after ops11 W (no_index (Proc.devRef .tc r)) = W (Proc.devRef .tc r) :=
  after_of_forall_not_mem ops11 W fun op hop => List.forall_iff_forall_mem.mp ops11_writes op hop r hr

/-! ## The line -/

set_option maxRecDepth 8192 in
set_option maxHeartbeats 1000000 in
/-- The fold of @main's operations at the result buffer is the model of the arguments' contents. -/
theorem result_eq (V : Valuation τ sig (Elt F)) :
    after ops V (Proc.devRef .tc main_v96)
      = Cert.Model.model (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) := by
  simp only [ops, opsA, opsB, after_append]
  rw [read11, read10]
  simp (disch := decide) only [keep9]
  rw [ops9_v90, read8]
  simp (disch := decide) only [keep8]
  simp (disch := decide) only [keep7]
  rw [ops7_v72, read6]
  simp (disch := decide) only [keep6]
  simp (disch := decide) only [keep5]
  rw [ops5_v54, ops4_v53]
  simp (disch := decide) only [keep4]
  simp (disch := decide) only [keep3]
  rw [ops3_v49, ops2_v48]
  simp (disch := decide) only [keep2]
  rw [ops1_v31]
  simp (disch := decide) only [keep1]
  rw [ops0_v5, ops0_v6, ops0_v8, ops0_v15]
  simp (disch := decide) only [keep0]
  unfold Cert.Model.model Cert.Model.conv Cert.Model.agg
  rw [norm_eq]

/-- The run of the reference, its result stated as the model of the launch contents of the arguments. -/
theorem run_model (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v96)
        = Cert.Model.model (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans (result_eq (launchContents m c)), (h c).2⟩) (run m ρ)

end Cert.ReferenceIdeal.RefRun

end
-- ==== Proof.lean ====
/-
  The certificate of a three-convolution graph network with a feed-forward branch, exponential linear units and a
  logarithm of the softmax of each row: the kernel program against its jnp reference, on the extended reals.

  Both programs compute the graph's normalised edge weights and each round of message passing by the same host
  operations (gather, scale, accumulating scatter). The kernel program computes every dense stage in a kernel tiled
  over blocks of 5000 rows — the features times a weight matrix (into a zero accumulator, plus an all-zero bias row for
  the convolutions), a bias row added and the unit applied, and a last kernel that adds the two branches, applies the
  classifier and takes the logarithm of the softmax of each row — where the reference uses the host's matrix
  product, broadcasts and its own spellings of the unit (with exp x - 1 as one operation, of zero where the input is
  positive) and of the logarithm of the softmax. On the extended reals these are the same functions of the argument
  arrays, entry by entry: x + 0 = x; where 0 < z both units are z and elsewhere both are exp z - 1; the maximum of a
  row taken from minus infinity is the fold of max over the row on both sides. No law used needs the inputs finite.
  The kernel program's result array is read off its regions' block write-backs (each output array is one function
  of the region's input arrays, the blocks covering the array), the reference's off the run of its operations.
-/
import proofs.«180035_j36816459661702_1_alg».proof.Defs
import proofs.«180035_j36816459661702_1_alg».proof.Proof.Gen.Kernel
import proofs.«180035_j36816459661702_1_alg».proof.Proof.Gen.Kernel.Frame
import proofs.«180035_j36816459661702_1_alg».proof.Proof.Gen.KernelIdeal
import proofs.«180035_j36816459661702_1_alg».proof.Proof.Gen.KernelIdeal.Frame
import proofs.«180035_j36816459661702_1_alg».proof.Proof.Gen.ReferenceIdeal
import proofs.«180035_j36816459661702_1_alg».proof.Proof.Gen.Pre_finite_inputs
import proofs.«180035_j36816459661702_1_alg».proof.Proof.KModel
import proofs.«180035_j36816459661702_1_alg».proof.Proof.RefRead
import Idealize.ShloMosaic.Adequacy
import Idealize.ShloMosaic.Init

noncomputable section

namespace Cert.Proof

open Idealize.ShloMosaic Idealize.SL.Sem

/-- The kernel program as printed runs and keeps its arguments. -/
theorem frame_k : Cert.frame_Kernel := fun m ρ _ => Cert.Kernel.Gen.frame m ρ
/-- So does its reading on the extended reals. -/
theorem frame_ki : Cert.frame_KernelIdeal := fun m ρ _ => Cert.KernelIdeal.Gen.frame m ρ
/-- The reference runs and keeps its arguments: its run, the result dropped. -/
theorem frame_ri : Cert.frame_ReferenceIdeal := fun m ρ _ =>
  (θ_run (Cert.ReferenceIdeal.defs (F := Ideal)) _ _).mono (fun _ h c => (h c).2) (Cert.ReferenceIdeal.RefRun.run_model m ρ)

/-- From memories agreeing on the arguments both programs end with the reference network of the argument arrays in
    their result arrays. -/
theorem algebraic : Cert.algebraic_KernelIdeal_ReferenceIdeal := by
  intro m ρ m' ρ' _ hagree
  refine ⟨_, Cert.KernelIdeal.KVal.run_model m ρ, ?_⟩
  refine (θ_run (Cert.ReferenceIdeal.defs (F := Ideal)) _ _).mono (fun _ h c => ⟨(h c).1.trans ?_, (h c).2⟩)
    (Cert.ReferenceIdeal.RefRun.run_model m' ρ')
  obtain ⟨e0, e1, e2, e3, e4, e5, e6, e7, e8, e9, e10, e11, e12⟩ := hagree c
  rw [e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
